-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v40)) (v1 : (c : Dev Cert.KernelIdeal.nD) → Buf (Elt Ideal) ((c.tc : Thread Cert.KernelIdeal.nD Cert.KernelIdeal.τ).loc Cert.KernelIdeal.main_v22)) (v2 : (c : Dev Cert.KernelIdeal.nD) → Buf (Elt Ideal) ((c.tc : Thread Cert.KernelIdeal.nD Cert.KernelIdeal.τ).loc Cert.KernelIdeal.main_v37)) (v3 : (c : Dev Cert.KernelIdeal.nD) → Buf (Elt Ideal) ((c.tc : Thread Cert.KernelIdeal.nD Cert.KernelIdeal.τ).loc Cert.KernelIdeal.main_v42)) (v4 : (c : Dev Cert.KernelIdeal.nD) → Buf (Elt Ideal) ((c.tc : Thread Cert.KernelIdeal.nD Cert.KernelIdeal.τ).loc Cert.KernelIdeal.main_v44)) (v5 : (c : Dev Cert.KernelIdeal.nD) → Buf (Elt Ideal) ((c.tc : Thread Cert.KernelIdeal.nD Cert.KernelIdeal.τ).loc Cert.KernelIdeal.main_v46)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_v22) = v1 c
          ∧ r.2.mem ((c.tc : Thread Cert.KernelIdeal.nD Cert.KernelIdeal.τ).loc Cert.KernelIdeal.main_v37) = v2 c
          ∧ r.2.mem ((c.tc : Thread Cert.KernelIdeal.nD Cert.KernelIdeal.τ).loc Cert.KernelIdeal.main_v42) = v3 c
          ∧ r.2.mem ((c.tc : Thread Cert.KernelIdeal.nD Cert.KernelIdeal.τ).loc Cert.KernelIdeal.main_v44) = v4 c
          ∧ r.2.mem ((c.tc : Thread Cert.KernelIdeal.nD Cert.KernelIdeal.τ).loc Cert.KernelIdeal.main_v46) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_v54) = v1 c
          ∧ r.2.mem ((c.tc : Thread Cert.ReferenceIdeal.nD Cert.ReferenceIdeal.τ).loc Cert.ReferenceIdeal.main_v69) = v2 c
          ∧ r.2.mem ((c.tc : Thread Cert.ReferenceIdeal.nD Cert.ReferenceIdeal.τ).loc Cert.ReferenceIdeal.main_v74) = v3 c
          ∧ r.2.mem ((c.tc : Thread Cert.ReferenceIdeal.nD Cert.ReferenceIdeal.τ).loc Cert.ReferenceIdeal.main_v76) = v4 c
          ∧ r.2.mem ((c.tc : Thread Cert.ReferenceIdeal.nD Cert.ReferenceIdeal.τ).loc Cert.ReferenceIdeal.main_v78) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x778x3 : Shape := ⟨3, ![8, 778, 3]⟩
abbrev S8x40000x3 : Shape := ⟨3, ![8, 40000, 3]⟩
abbrev S1538x3 : Shape := ⟨2, ![1538, 3]⟩
abbrev S79996x3 : Shape := ⟨2, ![79996, 3]⟩
abbrev S_ : Shape := ⟨0, ![]⟩

class Facts : Prop where
  bcast_S_S8x778x3 : S_.BroadcastsInDim S8x778x3 (![] : Fin 0 → Fin S8x778x3.rank)
  reducesTo_S8x778x3_S_d0_1_2 : S8x778x3.ReducesTo [0, 1, 2] S_
  h_S_ : 0 < S_.numel
  bcast_S_S8x40000x3 : S_.BroadcastsInDim S8x40000x3 (![] : Fin 0 → Fin S8x40000x3.rank)
  reducesTo_S8x40000x3_S_d0_1_2 : S8x40000x3.ReducesTo [0, 1, 2] S_

variable [Facts]

def fn {F : FTy → Type} [FloatOps F] (main_arg0 : FVec F S8x778x3 .f32) (main_arg1 : FVec F S8x40000x3 .f32) (main_arg2 : IVec S1538x3 32) (main_arg3 : IVec S79996x3 32) : IVec S_ 1 :=
  let main_v0 : FVec F S8x778x3 .f32 := Host.absf main_arg0
  let main_cst : FVec F S_ .f32 := constant S_ .f32 0x7F800000#32
  let main_v1 : FVec F S8x778x3 .f32 := broadcastInDim S8x778x3 ![] bcast_S_S8x778x3 main_cst
  let main_v2 : IVec S8x778x3 1 := cmpf .olt main_v0 main_v1
  let main_c : IVec S_ 1 := constantI S_ 1 1#1
  let main_v3 : IVec S_ 1 := (fun x v => Host.reduce IntOp.andi x v reducesTo_S8x778x3_S_d0_1_2 h_S_) main_v2 main_c
  let main_v4 : FVec F S8x40000x3 .f32 := Host.absf main_arg1
  let main_cst_0 : FVec F S_ .f32 := constant S_ .f32 0x7F800000#32
  let main_v5 : FVec F S8x40000x3 .f32 := broadcastInDim S8x40000x3 ![] bcast_S_S8x40000x3 main_cst_0
  let main_v6 : IVec S8x40000x3 1 := cmpf .olt main_v4 main_v5
  let main_c_1 : IVec S_ 1 := constantI S_ 1 1#1
  let main_v7 : IVec S_ 1 := (fun x v => Host.reduce IntOp.andi x v reducesTo_S8x40000x3_S_d0_1_2 h_S_) main_v6 main_c_1
  let main_v8 : IVec S_ 1 := andi main_v3 main_v7
  main_v8
-- ==== Kernel.lean ====
abbrev S8x778x3 : Shape := ⟨3, ![8, 778, 3]⟩
abbrev S8x40000x3 : Shape := ⟨3, ![8, 40000, 3]⟩
abbrev S1538x3 : Shape := ⟨2, ![1538, 3]⟩
abbrev S79996x3 : Shape := ⟨2, ![79996, 3]⟩
abbrev S10 : Shape := ⟨1, ![10]⟩
abbrev S8x1x778 : Shape := ⟨3, ![8, 1, 778]⟩
abbrev S1x778x3 : Shape := ⟨3, ![1, 778, 3]⟩
abbrev S1x40000x3 : Shape := ⟨3, ![1, 40000, 3]⟩
abbrev S1x1x778 : Shape := ⟨3, ![1, 1, 778]⟩
abbrev S1x778 : Shape := ⟨2, ![1, 778]⟩
abbrev S778x3 : Shape := ⟨2, ![778, 3]⟩
abbrev S778 : Shape := ⟨1, ![778]⟩
abbrev S1x2000x3 : Shape := ⟨3, ![1, 2000, 3]⟩
abbrev S2000x3 : Shape := ⟨2, ![2000, 3]⟩
abbrev S2000 : Shape := ⟨1, ![2000]⟩
abbrev S2000x1 : Shape := ⟨2, ![2000, 1]⟩
abbrev S2000x778 : Shape := ⟨2, ![2000, 778]⟩
abbrev S8x778 : Shape := ⟨2, ![8, 778]⟩
abbrev S_ : Shape := ⟨0, ![]⟩
abbrev S10x1 : Shape := ⟨2, ![10, 1]⟩
abbrev S8x10 : Shape := ⟨2, ![8, 10]⟩

abbrev nBuf : Space → Nat
  | .hbm => 80
  | .vmem => 7
  | .smem => 0
  | _ => 0

abbrev bufTy : (tb : Table) → Fin (tcTables nBuf tb) → BufTy
  | .hbm, ⟨0, _⟩ => ⟨S8x778x3, .f32⟩
  | .hbm, ⟨1, _⟩ => ⟨S8x40000x3, .f32⟩
  | .hbm, ⟨2, _⟩ => ⟨S1538x3, .i32⟩
  | .hbm, ⟨3, _⟩ => ⟨S79996x3, .i32⟩
  | .hbm, ⟨4, _⟩ => ⟨S10, .i32⟩
  | .hbm, ⟨5, _⟩ => ⟨S8x1x778, .f32⟩
  | .hbm, ⟨6, _⟩ => ⟨S8x778, .f32⟩
  | .hbm, ⟨7, _⟩ => ⟨S_, .i32⟩
  | .hbm, ⟨8, _⟩ => ⟨S10, .i32⟩
  | .hbm, ⟨9, _⟩ => ⟨S10, .i1⟩
  | .hbm, ⟨10, _⟩ => ⟨S_, .i32⟩
  | .hbm, ⟨11, _⟩ => ⟨S10, .i32⟩
  | .hbm, ⟨12, _⟩ => ⟨S10, .i32⟩
  | .hbm, ⟨13, _⟩ => ⟨S10, .i32⟩
  | .hbm, ⟨14, _⟩ => ⟨S10x1, .i32⟩
  | .hbm, ⟨15, _⟩ => ⟨S8x10, .f32⟩
  | .hbm, ⟨16, _⟩ => ⟨S_, .f32⟩
  | .hbm, ⟨17, _⟩ => ⟨S8x778, .f32⟩
  | .hbm, ⟨18, _⟩ => ⟨S8x778, .i1⟩
  | .hbm, ⟨19, _⟩ => ⟨S_, .f32⟩
  | .hbm, ⟨20, _⟩ => ⟨S8x778, .f32⟩
  | .hbm, ⟨21, _⟩ => ⟨S8x778, .f32⟩
  | .hbm, ⟨22, _⟩ => ⟨S8x778, .f32⟩
  | .hbm, ⟨23, _⟩ => ⟨S8x778, .i32⟩
  | .hbm, ⟨24, _⟩ => ⟨S_, .i32⟩
  | .hbm, ⟨25, _⟩ => ⟨S_, .i32⟩
  | .hbm, ⟨26, _⟩ => ⟨S_, .f32⟩
  | .hbm, ⟨27, _⟩ => ⟨S_, .f32⟩
  | .hbm, ⟨28, _⟩ => ⟨S8x778, .f32⟩
  | .hbm, ⟨29, _⟩ => ⟨S8x778, .f32⟩
  | .hbm, ⟨30, _⟩ => ⟨S_, .f32⟩
  | .hbm, ⟨31, _⟩ => ⟨S_, .f32⟩
  | .hbm, ⟨32, _⟩ => ⟨S_, .i32⟩
  | .hbm, ⟨33, _⟩ => ⟨S_, .i1⟩
  | .hbm, ⟨34, _⟩ => ⟨S_, .i32⟩
  | .hbm, ⟨35, _⟩ => ⟨S_, .i32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S8x10, .f32⟩
  | .hbm, ⟨42, _⟩ => ⟨S8x10, .i1⟩
  | .hbm, ⟨43, _⟩ => ⟨S_, .f32⟩
  | .hbm, ⟨44, _⟩ => ⟨S8x10, .f32⟩
  | .hbm, ⟨45, _⟩ => ⟨S8x10, .i1⟩
  | .hbm, ⟨46, _⟩ => ⟨S8x10, .i1⟩
  | .hbm, ⟨47, _⟩ => ⟨S8x10, .f32⟩
  | .hbm, ⟨48, _⟩ => ⟨S8x10, .i32⟩
  | .hbm, ⟨49, _⟩ => ⟨S_, .i32⟩
  | .hbm, ⟨50, _⟩ => ⟨S_, .i32⟩
  | .hbm, ⟨51, _⟩ => ⟨S_, .f32⟩
  | .hbm, ⟨52, _⟩ => ⟨S_, .f32⟩
  | .hbm, ⟨53, _⟩ => ⟨S8x10, .f32⟩
  | .hbm, ⟨54, _⟩ => ⟨S8x10, .f32⟩
  | .hbm, ⟨55, _⟩ => ⟨S_, .f32⟩
  | .hbm, ⟨56, _⟩ => ⟨S_, .f32⟩
  | .hbm, ⟨57, _⟩ => ⟨S_, .i32⟩
  | .hbm, ⟨58, _⟩ => ⟨S_, .i1⟩
  | .hbm, ⟨59, _⟩ => ⟨S_, .i32⟩
  | .hbm, ⟨60, _⟩ => ⟨S_, .i32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S8x10, .i32⟩
  | .hbm, ⟨75, _⟩ => ⟨S_, .i32⟩
  | .hbm, ⟨76, _⟩ => ⟨S_, .i32⟩
  | .hbm, ⟨77, _⟩ => ⟨S8x778, .i32⟩
  | .hbm, ⟨78, _⟩ => ⟨S_, .i32⟩
  | .hbm, ⟨79, _⟩ => ⟨S_, .i32⟩
  | .local _ .vmem, ⟨0, _⟩ => ⟨S1x778x3, .f32⟩
  | .local _ .vmem, ⟨1, _⟩ => ⟨S1x778x3, .f32⟩
  | .local _ .vmem, ⟨2, _⟩ => ⟨S1x40000x3, .f32⟩
  | .local _ .vmem, ⟨3, _⟩ => ⟨S1x40000x3, .f32⟩
  | .local _ .vmem, ⟨4, _⟩ => ⟨S1x1x778, .f32⟩
  | .local _ .vmem, ⟨5, _⟩ => ⟨S1x1x778, .f32⟩
  | .local _ .vmem, ⟨6, _⟩ => ⟨S1x778, .f32⟩
  | _, _ => ⟨S8x778x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_c_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_c_3 : Ref sig .tc := ⟨.hbm, 24, rfl⟩
abbrev main_v15 : Ref sig .tc := ⟨.hbm, 25, rfl⟩
abbrev main_cst_4 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_cst_5 : Ref sig .tc := ⟨.hbm, 30, rfl⟩
abbrev main_v17 : Ref sig .tc := ⟨.hbm, 31, rfl⟩
abbrev main_c_6 : Ref sig .tc := ⟨.hbm, 32, rfl⟩
abbrev main_v18 : Ref sig .tc := ⟨.hbm, 33, rfl⟩
abbrev main_c_7 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_8 : Ref sig .tc := ⟨.hbm, 38, rfl⟩
abbrev main_v22 : Ref sig .tc := ⟨.hbm, 39, rfl⟩
abbrev main_cst_9 : Ref sig .tc := ⟨.hbm, 40, rfl⟩
abbrev main_v23 : Ref sig .tc := ⟨.hbm, 41, rfl⟩
abbrev main_v24 : Ref sig .tc := ⟨.hbm, 42, rfl⟩
abbrev main_cst_10 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_c_11 : Ref sig .tc := ⟨.hbm, 49, rfl⟩
abbrev main_v30 : Ref sig .tc := ⟨.hbm, 50, rfl⟩
abbrev main_cst_12 : Ref sig .tc := ⟨.hbm, 51, rfl⟩
abbrev main_call2_v0 : Ref sig .tc := ⟨.hbm, 52, rfl⟩
abbrev main_call2_v1 : Ref sig .tc := ⟨.hbm, 53, rfl⟩
abbrev main_v31 : Ref sig .tc := ⟨.hbm, 54, rfl⟩
abbrev main_cst_13 : Ref sig .tc := ⟨.hbm, 55, rfl⟩
abbrev main_v32 : Ref sig .tc := ⟨.hbm, 56, rfl⟩
abbrev main_c_14 : Ref sig .tc := ⟨.hbm, 57, rfl⟩
abbrev main_v33 : Ref sig .tc := ⟨.hbm, 58, rfl⟩
abbrev main_c_15 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_cst_16 : Ref sig .tc := ⟨.hbm, 63, rfl⟩
abbrev main_v37 : Ref sig .tc := ⟨.hbm, 64, rfl⟩
abbrev main_cst_17 : Ref sig .tc := ⟨.hbm, 65, rfl⟩
abbrev main_v38 : Ref sig .tc := ⟨.hbm, 66, rfl⟩
abbrev main_cst_18 : Ref sig .tc := ⟨.hbm, 67, rfl⟩
abbrev main_v39 : Ref sig .tc := ⟨.hbm, 68, rfl⟩
abbrev main_v40 : Ref sig .tc := ⟨.hbm, 69, rfl⟩
abbrev main_cst_19 : Ref sig .tc := ⟨.hbm, 70, rfl⟩
abbrev main_v41 : Ref sig .tc := ⟨.hbm, 71, rfl⟩
abbrev main_cst_20 : Ref sig .tc := ⟨.hbm, 72, rfl⟩
abbrev main_v42 : Ref sig .tc := ⟨.hbm, 73, rfl⟩
abbrev main_v43 : Ref sig .tc := ⟨.hbm, 74, rfl⟩
abbrev main_c_21 : Ref sig .tc := ⟨.hbm, 75, rfl⟩
abbrev main_v44 : Ref sig .tc := ⟨.hbm, 76, rfl⟩
abbrev main_v45 : Ref sig .tc := ⟨.hbm, 77, rfl⟩
abbrev main_c_22 : Ref sig .tc := ⟨.hbm, 78, rfl⟩
abbrev main_v46 : Ref sig .tc := ⟨.hbm, 79, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![8], ![false]⟩

def k0_mult1 : BitVec 32 :=
  let c0_i32 : BitVec 32 := 0#32
  let c2000_i32 : BitVec 32 := 2000#32
  let v8 : BitVec 32 := Scalar.muli c0_i32 c2000_i32
  v8
def k0_off1 (c0_i32 : BitVec 32) : Fin 3 → Nat :=
  let c0_5 : Index := 0#32
  let c2000_i32 : BitVec 32 := 2000#32
  let v8 : BitVec 32 := Scalar.muli c0_i32 c2000_i32
  let v9 : BitVec 32 := v8
  let v10 : Index := Scalar.indexCast v9
  let c0_6 : Index := 0#32
  ![0, v10.toNat, 0]
def k0_mult2 : BitVec 32 :=
  let c1_i32 : BitVec 32 := 1#32
  let c2000_i32_16 : BitVec 32 := 2000#32
  let v33 : BitVec 32 := Scalar.muli c1_i32 c2000_i32_16
  v33
def k0_mult3 : BitVec 32 :=
  let c2_i32 : BitVec 32 := 2#32
  let c2000_i32_28 : BitVec 32 := 2000#32
  let v58 : BitVec 32 := Scalar.muli c2_i32 c2000_i32_28
  v58
def k0_mult4 : BitVec 32 :=
  let c3_i32 : BitVec 32 := 3#32
  let c2000_i32_40 : BitVec 32 := 2000#32
  let v83 : BitVec 32 := Scalar.muli c3_i32 c2000_i32_40
  v83
def k0_mult5 : BitVec 32 :=
  let c4_i32 : BitVec 32 := 4#32
  let c2000_i32_52 : BitVec 32 := 2000#32
  let v108 : BitVec 32 := Scalar.muli c4_i32 c2000_i32_52
  v108
def k0_mult6 : BitVec 32 :=
  let c5_i32 : BitVec 32 := 5#32
  let c2000_i32_64 : BitVec 32 := 2000#32
  let v133 : BitVec 32 := Scalar.muli c5_i32 c2000_i32_64
  v133
def k0_mult7 : BitVec 32 :=
  let c6_i32 : BitVec 32 := 6#32
  let c2000_i32_76 : BitVec 32 := 2000#32
  let v158 : BitVec 32 := Scalar.muli c6_i32 c2000_i32_76
  v158
def k0_mult8 : BitVec 32 :=
  let c7_i32 : BitVec 32 := 7#32
  let c2000_i32_88 : BitVec 32 := 2000#32
  let v183 : BitVec 32 := Scalar.muli c7_i32 c2000_i32_88
  v183
def k0_mult9 : BitVec 32 :=
  let c8_i32 : BitVec 32 := 8#32
  let c2000_i32_100 : BitVec 32 := 2000#32
  let v208 : BitVec 32 := Scalar.muli c8_i32 c2000_i32_100
  v208
def k0_mult10 : BitVec 32 :=
  let c9_i32 : BitVec 32 := 9#32
  let c2000_i32_112 : BitVec 32 := 2000#32
  let v233 : BitVec 32 := Scalar.muli c9_i32 c2000_i32_112
  v233
def k0_mult11 : BitVec 32 :=
  let c10_i32 : BitVec 32 := 10#32
  let c2000_i32_124 : BitVec 32 := 2000#32
  let v258 : BitVec 32 := Scalar.muli c10_i32 c2000_i32_124
  v258
def k0_mult12 : BitVec 32 :=
  let c11_i32 : BitVec 32 := 11#32
  let c2000_i32_136 : BitVec 32 := 2000#32
  let v283 : BitVec 32 := Scalar.muli c11_i32 c2000_i32_136
  v283
def k0_mult13 : BitVec 32 :=
  let c12_i32 : BitVec 32 := 12#32
  let c2000_i32_148 : BitVec 32 := 2000#32
  let v308 : BitVec 32 := Scalar.muli c12_i32 c2000_i32_148
  v308
def k0_mult14 : BitVec 32 :=
  let c13_i32 : BitVec 32 := 13#32
  let c2000_i32_160 : BitVec 32 := 2000#32
  let v333 : BitVec 32 := Scalar.muli c13_i32 c2000_i32_160
  v333
def k0_mult15 : BitVec 32 :=
  let c14_i32 : BitVec 32 := 14#32
  let c2000_i32_172 : BitVec 32 := 2000#32
  let v358 : BitVec 32 := Scalar.muli c14_i32 c2000_i32_172
  v358
def k0_mult16 : BitVec 32 :=
  let c15_i32 : BitVec 32 := 15#32
  let c2000_i32_184 : BitVec 32 := 2000#32
  let v383 : BitVec 32 := Scalar.muli c15_i32 c2000_i32_184
  v383
def k0_mult17 : BitVec 32 :=
  let c16_i32 : BitVec 32 := 16#32
  let c2000_i32_196 : BitVec 32 := 2000#32
  let v408 : BitVec 32 := Scalar.muli c16_i32 c2000_i32_196
  v408
def k0_mult18 : BitVec 32 :=
  let c17_i32 : BitVec 32 := 17#32
  let c2000_i32_208 : BitVec 32 := 2000#32
  let v433 : BitVec 32 := Scalar.muli c17_i32 c2000_i32_208
  v433
def k0_mult19 : BitVec 32 :=
  let c18_i32 : BitVec 32 := 18#32
  let c2000_i32_220 : BitVec 32 := 2000#32
  let v458 : BitVec 32 := Scalar.muli c18_i32 c2000_i32_220
  v458
def k0_mult20 : BitVec 32 :=
  let c19_i32 : BitVec 32 := 19#32
  let c2000_i32_232 : BitVec 32 := 2000#32
  let v483 : BitVec 32 := Scalar.muli c19_i32 c2000_i32_232
  v483
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x778x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x40000x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x778 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S1x778x3_S1x778x3_0_0_0 : ∀ a, (![0, 0, 0] : Fin 3 → Nat) a + S1x778x3.size a ≤ S1x778x3.size a
  h_S1x778x3 : 0 < S1x778x3.numel
  shapeCasts_S1x778x3_S778x3 : S1x778x3.ShapeCasts S778x3
  reduces_S778x3_S778 : S778x3.Reduces [1] S778
  inb_S1x778_S1x778_0_0 : ∀ a, (![0, 0] : Fin 2 → Nat) a + S1x778.size a ≤ S1x778.size a
  h_S1x778 : 0 < S1x778.numel
  shapeCasts_S1x778_S1x778 : S1x778.ShapeCasts S1x778
  h_S1x2000x3 : 0 < S1x2000x3.numel
  shapeCasts_S1x2000x3_S2000x3 : S1x2000x3.ShapeCasts S2000x3
  reduces_S2000x3_S2000 : S2000x3.Reduces [1] S2000
  shapeCasts_S2000_S2000x1 : S2000.ShapeCasts S2000x1
  shapeCasts_S778_S1x778 : S778.ShapeCasts S1x778
  broadcasts_S2000x1_S2000x778 : S2000x1.Broadcasts S2000x778
  broadcasts_S1x778_S2000x778 : S1x778.Broadcasts S2000x778
  reduces_S2000x778_S778 : S2000x778.Reduces [0] S778
  shapeCasts_S1x778_S1x1x778 : S1x778.ShapeCasts S1x1x778
  inb_S1x1x778_S1x1x778_0_0_0 : ∀ a, (![0, 0, 0] : Fin 3 → Nat) a + S1x1x778.size a ≤ S1x1x778.size a
  h_S1x1x778 : 0 < S1x1x778.numel
  shapeCasts_S8x1x778_S8x778 : S8x1x778.ShapeCasts S8x778
  bcast_S_S10 : S_.BroadcastsInDim S10 (![] : Fin 0 → Fin S10.rank)
  bcast_S10_S10x1_0 : S10.BroadcastsInDim S10x1 (![0] : Fin 1 → Fin S10x1.rank)
  bcast_S_S8x778 : S_.BroadcastsInDim S8x778 (![] : Fin 0 → Fin S8x778.rank)
  natLt_1_32 : 1 < 32
  reducesTo_S8x778_S_d0_1 : S8x778.ReducesTo [0, 1] S_
  h_S_ : 0 < S_.numel
  bcast_S_S8x10 : S_.BroadcastsInDim S8x10 (![] : Fin 0 → Fin S8x10.rank)
  reducesTo_S8x10_S_d0_1 : S8x10.ReducesTo [0, 1] S_
  dot_S2000x3_S778x3_S2000x778_1_1_0_0_n_n_wf : DotDims.WF S2000x3 S778x3 S2000x778 [1] [1] [0] [0] [] []
  gather_S8x778_S10x1_S8x10_0_1_n_n_1_1_81_wf : GatherDims.WF S8x778 S10x1 S8x10 [0] [1] [] [1] [] 1 ![8, 1]
  hrank0 : 0 < grid0.rank
  k0_mult1_dvd : 2000 ∣ k0_mult1.toNat
  k0_off1_inb : ∀ (r : Fin 20), ∀ a, (k0_off1 (BitVec.ofNat 32 r.val)) a + S1x2000x3.size a ≤ S1x40000x3.size a
  k0_mult2_dvd : 2000 ∣ k0_mult2.toNat
  k0_mult3_dvd : 2000 ∣ k0_mult3.toNat
  k0_mult4_dvd : 2000 ∣ k0_mult4.toNat
  k0_mult5_dvd : 2000 ∣ k0_mult5.toNat
  k0_mult6_dvd : 2000 ∣ k0_mult6.toNat
  k0_mult7_dvd : 2000 ∣ k0_mult7.toNat
  k0_mult8_dvd : 2000 ∣ k0_mult8.toNat
  k0_mult9_dvd : 2000 ∣ k0_mult9.toNat
  k0_mult10_dvd : 2000 ∣ k0_mult10.toNat
  k0_mult11_dvd : 2000 ∣ k0_mult11.toNat
  k0_mult12_dvd : 2000 ∣ k0_mult12.toNat
  k0_mult13_dvd : 2000 ∣ k0_mult13.toNat
  k0_mult14_dvd : 2000 ∣ k0_mult14.toNat
  k0_mult15_dvd : 2000 ∣ k0_mult15.toNat
  k0_mult16_dvd : 2000 ∣ k0_mult16.toNat
  k0_mult17_dvd : 2000 ∣ k0_mult17.toNat
  k0_mult18_dvd : 2000 ∣ k0_mult18.toNat
  k0_mult19_dvd : 2000 ∣ k0_mult19.toNat
  k0_mult20_dvd : 2000 ∣ k0_mult20.toNat
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x778x3.size a ≤ S8x778x3.size a
  hwx0_0 : ∀ i : grid0.Coords, EltTy.bits .f32 = 32 ∨ (Rect.block (s := S8x778x3) S1x778x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x40000x3.size a ≤ S8x40000x3.size a
  hwx0_1 : ∀ i : grid0.Coords, EltTy.bits .f32 = 32 ∨ (Rect.block (s := S8x40000x3) S1x40000x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x778.size a ≤ S8x1x778.size a
  hwx0_2 : ∀ i : grid0.Coords, EltTy.bits .f32 = 32 ∨ (Rect.block (s := S8x1x778) S1x1x778.size (cc0_transform_2 i) (hinb0_2 i)).WholeWords (EltTy.packing .f32)

variable [Facts₀]

def dot_S2000x3_S778x3_S2000x778_1_1_0_0_n_n : DotDims S2000x3 S778x3 S2000x778 where
  lhsContracting := [1]
  rhsContracting := [1]
  lhsNonContracting := [0]
  rhsNonContracting := [0]
  lhsBatch := []
  rhsBatch := []
  wf := dot_S2000x3_S778x3_S2000x778_1_1_0_0_n_n_wf
def gather_S8x778_S10x1_S8x10_0_1_n_n_1_1_81 : GatherDims S8x778 S10x1 S8x10 where
  offsetDims := [0]
  collapsedSliceDims := [1]
  operandBatchingDims := []
  startIndicesBatchingDims := []
  startIndexMap := [1]
  indexVectorDim := 1
  sliceSizes := ![8, 1]
  wf := gather_S8x778_S10x1_S8x10_0_1_n_n_1_1_81_wf

abbrev win0_0 : Pipeline.Window sig grid0 :=
  Pipeline.Window.ofSpec (Memref.whole main_arg0) S1x778x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x40000x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1x778.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x778x3 : Shape := ⟨3, ![8, 778, 3]⟩
abbrev S8x40000x3 : Shape := ⟨3, ![8, 40000, 3]⟩
abbrev S1538x3 : Shape := ⟨2, ![1538, 3]⟩
abbrev S79996x3 : Shape := ⟨2, ![79996, 3]⟩
abbrev S10 : Shape := ⟨1, ![10]⟩
abbrev S_ : Shape := ⟨0, ![]⟩
abbrev S8x778 : Shape := ⟨2, ![8, 778]⟩
abbrev S8x778x1 : Shape := ⟨3, ![8, 778, 1]⟩
abbrev S8x40000 : Shape := ⟨2, ![8, 40000]⟩
abbrev S8x778x40000 : Shape := ⟨3, ![8, 778, 40000]⟩
abbrev S8x1x40000 : Shape := ⟨3, ![8, 1, 40000]⟩
abbrev S10x1 : Shape := ⟨2, ![10, 1]⟩
abbrev S8x10x3 : Shape := ⟨3, ![8, 10, 3]⟩
abbrev S8x10 : Shape := ⟨2, ![8, 10]⟩
abbrev S8x10x1 : Shape := ⟨3, ![8, 10, 1]⟩
abbrev S8x10x40000 : Shape := ⟨3, ![8, 10, 40000]⟩

abbrev nBuf : Space → Nat
  | .hbm => 122
  | .vmem => 0
  | .smem => 0
  | _ => 0

abbrev bufTy : (tb : Table) → Fin (tcTables nBuf tb) → BufTy
  | .hbm, ⟨0, _⟩ => ⟨S8x778x3, .f32⟩
  | .hbm, ⟨1, _⟩ => ⟨S8x40000x3, .f32⟩
  | .hbm, ⟨2, _⟩ => ⟨S1538x3, .i32⟩
  | .hbm, ⟨3, _⟩ => ⟨S79996x3, .i32⟩
  | .hbm, ⟨4, _⟩ => ⟨S10, .i32⟩
  | .hbm, ⟨5, _⟩ => ⟨S8x778x3, .f32⟩
  | .hbm, ⟨6, _⟩ => ⟨S_, .f32⟩
  | .hbm, ⟨7, _⟩ => ⟨S8x778, .f32⟩
  | .hbm, ⟨8, _⟩ => ⟨S8x778x1, .f32⟩
  | .hbm, ⟨9, _⟩ => ⟨S8x40000x3, .f32⟩
  | .hbm, ⟨10, _⟩ => ⟨S_, .f32⟩
  | .hbm, ⟨11, _⟩ => ⟨S8x40000, .f32⟩
  | .hbm, ⟨12, _⟩ => ⟨S8x778x40000, .f32⟩
  | .hbm, ⟨13, _⟩ => ⟨S8x1x40000, .f32⟩
  | .hbm, ⟨14, _⟩ => ⟨S8x778x40000, .f32⟩
  | .hbm, ⟨15, _⟩ => ⟨S8x778x40000, .f32⟩
  | .hbm, ⟨16, _⟩ => ⟨S8x778x40000, .f32⟩
  | .hbm, ⟨17, _⟩ => ⟨S_, .f32⟩
  | .hbm, ⟨18, _⟩ => ⟨S8x778x40000, .f32⟩
  | .hbm, ⟨19, _⟩ => ⟨S8x778x40000, .f32⟩
  | .hbm, ⟨20, _⟩ => ⟨S8x778x40000, .f32⟩
  | .hbm, ⟨21, _⟩ => ⟨S_, .f32⟩
  | .hbm, ⟨22, _⟩ => ⟨S8x778x40000, .f32⟩
  | .hbm, ⟨23, _⟩ => ⟨S8x778x40000, .f32⟩
  | .hbm, ⟨24, _⟩ => ⟨S_, .f32⟩
  | .hbm, ⟨25, _⟩ => ⟨S8x778, .f32⟩
  | .hbm, ⟨26, _⟩ => ⟨S8x778, .f32⟩
  | .hbm, ⟨27, _⟩ => ⟨S_, .i32⟩
  | .hbm, ⟨28, _⟩ => ⟨S10, .i32⟩
  | .hbm, ⟨29, _⟩ => ⟨S10, .i1⟩
  | .hbm, ⟨30, _⟩ => ⟨S_, .i32⟩
  | .hbm, ⟨31, _⟩ => ⟨S10, .i32⟩
  | .hbm, ⟨32, _⟩ => ⟨S10, .i32⟩
  | .hbm, ⟨33, _⟩ => ⟨S10, .i32⟩
  | .hbm, ⟨34, _⟩ => ⟨S10x1, .i32⟩
  | .hbm, ⟨35, _⟩ => ⟨S8x10x3, .f32⟩
  | .hbm, ⟨36, _⟩ => ⟨S8x10x3, .f32⟩
  | .hbm, ⟨37, _⟩ => ⟨S_, .f32⟩
  | .hbm, ⟨38, _⟩ => ⟨S8x10, .f32⟩
  | .hbm, ⟨39, _⟩ => ⟨S8x10x1, .f32⟩
  | .hbm, ⟨40, _⟩ => ⟨S8x40000x3, .f32⟩
  | .hbm, ⟨41, _⟩ => ⟨S_, .f32⟩
  | .hbm, ⟨42, _⟩ => ⟨S8x40000, .f32⟩
  | .hbm, ⟨43, _⟩ => ⟨S8x10x40000, .f32⟩
  | .hbm, ⟨44, _⟩ => ⟨S8x1x40000, .f32⟩
  | .hbm, ⟨45, _⟩ => ⟨S8x10x40000, .f32⟩
  | .hbm, ⟨46, _⟩ => ⟨S8x10x40000, .f32⟩
  | .hbm, ⟨47, _⟩ => ⟨S8x10x40000, .f32⟩
  | .hbm, ⟨48, _⟩ => ⟨S_, .f32⟩
  | .hbm, ⟨49, _⟩ => ⟨S8x10x40000, .f32⟩
  | .hbm, ⟨50, _⟩ => ⟨S8x10x40000, .f32⟩
  | .hbm, ⟨51, _⟩ => ⟨S8x10x40000, .f32⟩
  | .hbm, ⟨52, _⟩ => ⟨S_, .f32⟩
  | .hbm, ⟨53, _⟩ => ⟨S8x10x40000, .f32⟩
  | .hbm, ⟨54, _⟩ => ⟨S8x10x40000, .f32⟩
  | .hbm, ⟨55, _⟩ => ⟨S_, .f32⟩
  | .hbm, ⟨56, _⟩ => ⟨S8x10, .f32⟩
  | .hbm, ⟨57, _⟩ => ⟨S8x10, .f32⟩
  | .hbm, ⟨58, _⟩ => ⟨S_, .f32⟩
  | .hbm, ⟨59, _⟩ => ⟨S8x778, .f32⟩
  | .hbm, ⟨60, _⟩ => ⟨S8x778, .i1⟩
  | .hbm, ⟨61, _⟩ => ⟨S_, .f32⟩
  | .hbm, ⟨62, _⟩ => ⟨S8x778, .f32⟩
  | .hbm, ⟨63, _⟩ => ⟨S8x778, .f32⟩
  | .hbm, ⟨64, _⟩ => ⟨S8x778, .f32⟩
  | .hbm, ⟨65, _⟩ => ⟨S8x778, .i32⟩
  | .hbm, ⟨66, _⟩ => ⟨S_, .i32⟩
  | .hbm, ⟨67, _⟩ => ⟨S_, .i32⟩
  | .hbm, ⟨68, _⟩ => ⟨S_, .f32⟩
  | .hbm, ⟨69, _⟩ => ⟨S_, .f32⟩
  | .hbm, ⟨70, _⟩ => ⟨S8x778, .f32⟩
  | .hbm, ⟨71, _⟩ => ⟨S8x778, .f32⟩
  | .hbm, ⟨72, _⟩ => ⟨S_, .f32⟩
  | .hbm, ⟨73, _⟩ => ⟨S_, .f32⟩
  | .hbm, ⟨74, _⟩ => ⟨S_, .i32⟩
  | .hbm, ⟨75, _⟩ => ⟨S_, .i1⟩
  | .hbm, ⟨76, _⟩ => ⟨S_, .i32⟩
  | .hbm, ⟨77, _⟩ => ⟨S_, .i32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S8x10, .f32⟩
  | .hbm, ⟨84, _⟩ => ⟨S8x10, .i1⟩
  | .hbm, ⟨85, _⟩ => ⟨S_, .f32⟩
  | .hbm, ⟨86, _⟩ => ⟨S8x10, .f32⟩
  | .hbm, ⟨87, _⟩ => ⟨S8x10, .i1⟩
  | .hbm, ⟨88, _⟩ => ⟨S8x10, .i1⟩
  | .hbm, ⟨89, _⟩ => ⟨S8x10, .f32⟩
  | .hbm, ⟨90, _⟩ => ⟨S8x10, .i32⟩
  | .hbm, ⟨91, _⟩ => ⟨S_, .i32⟩
  | .hbm, ⟨92, _⟩ => ⟨S_, .i32⟩
  | .hbm, ⟨93, _⟩ => ⟨S_, .f32⟩
  | .hbm, ⟨94, _⟩ => ⟨S_, .f32⟩
  | .hbm, ⟨95, _⟩ => ⟨S8x10, .f32⟩
  | .hbm, ⟨96, _⟩ => ⟨S8x10, .f32⟩
  | .hbm, ⟨97, _⟩ => ⟨S_, .f32⟩
  | .hbm, ⟨98, _⟩ => ⟨S_, .f32⟩
  | .hbm, ⟨99, _⟩ => ⟨S_, .i32⟩
  | .hbm, ⟨100, _⟩ => ⟨S_, .i1⟩
  | .hbm, ⟨101, _⟩ => ⟨S_, .i32⟩
  | .hbm, ⟨102, _⟩ => ⟨S_, .i32⟩
  | .hbm, ⟨103, _⟩ => ⟨S_, .f32⟩
  | .hbm, ⟨104, _⟩ => ⟨S_, .f32⟩
  | .hbm, ⟨105, _⟩ => ⟨S_, .f32⟩
  | .hbm, ⟨106, _⟩ => ⟨S_, .f32⟩
  | .hbm, ⟨107, _⟩ => ⟨S_, .f32⟩
  | .hbm, ⟨108, _⟩ => ⟨S_, .f32⟩
  | .hbm, ⟨109, _⟩ => ⟨S_, .f32⟩
  | .hbm, ⟨110, _⟩ => ⟨S_, .f32⟩
  | .hbm, ⟨111, _⟩ => ⟨S_, .f32⟩
  | .hbm, ⟨112, _⟩ => ⟨S_, .f32⟩
  | .hbm, ⟨113, _⟩ => ⟨S_, .f32⟩
  | .hbm, ⟨114, _⟩ => ⟨S_, .f32⟩
  | .hbm, ⟨115, _⟩ => ⟨S_, .f32⟩
  | .hbm, ⟨116, _⟩ => ⟨S8x10, .i32⟩
  | .hbm, ⟨117, _⟩ => ⟨S_, .i32⟩
  | .hbm, ⟨118, _⟩ => ⟨S_, .i32⟩
  | .hbm, ⟨119, _⟩ => ⟨S8x778, .i32⟩
  | .hbm, ⟨120, _⟩ => ⟨S_, .i32⟩
  | .hbm, ⟨121, _⟩ => ⟨S_, .i32⟩
  | _, _ => ⟨S8x778x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_c_4 : Ref sig .tc := ⟨.hbm, 27, rfl⟩
abbrev main_v17 : Ref sig .tc := ⟨.hbm, 28, rfl⟩
abbrev main_v18 : Ref sig .tc := ⟨.hbm, 29, rfl⟩
abbrev main_c_5 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_6 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_7 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_8 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_9 : Ref sig .tc := ⟨.hbm, 52, rfl⟩
abbrev main_v37 : Ref sig .tc := ⟨.hbm, 53, rfl⟩
abbrev main_v38 : Ref sig .tc := ⟨.hbm, 54, rfl⟩
abbrev main_cst_10 : Ref sig .tc := ⟨.hbm, 55, rfl⟩
abbrev main_v39 : Ref sig .tc := ⟨.hbm, 56, rfl⟩
abbrev main_v40 : Ref sig .tc := ⟨.hbm, 57, rfl⟩
abbrev main_cst_11 : Ref sig .tc := ⟨.hbm, 58, rfl⟩
abbrev main_v41 : Ref sig .tc := ⟨.hbm, 59, rfl⟩
abbrev main_v42 : Ref sig .tc := ⟨.hbm, 60, rfl⟩
abbrev main_cst_12 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_c_13 : Ref sig .tc := ⟨.hbm, 66, rfl⟩
abbrev main_v47 : Ref sig .tc := ⟨.hbm, 67, rfl⟩
abbrev main_cst_14 : Ref sig .tc := ⟨.hbm, 68, rfl⟩
abbrev main_call0_v0 : Ref sig .tc := ⟨.hbm, 69, rfl⟩
abbrev main_call0_v1 : Ref sig .tc := ⟨.hbm, 70, rfl⟩
abbrev main_v48 : Ref sig .tc := ⟨.hbm, 71, rfl⟩
abbrev main_cst_15 : Ref sig .tc := ⟨.hbm, 72, rfl⟩
abbrev main_v49 : Ref sig .tc := ⟨.hbm, 73, rfl⟩
abbrev main_c_16 : Ref sig .tc := ⟨.hbm, 74, rfl⟩
abbrev main_v50 : Ref sig .tc := ⟨.hbm, 75, rfl⟩
abbrev main_c_17 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_cst_18 : Ref sig .tc := ⟨.hbm, 80, rfl⟩
abbrev main_v54 : Ref sig .tc := ⟨.hbm, 81, rfl⟩
abbrev main_cst_19 : Ref sig .tc := ⟨.hbm, 82, rfl⟩
abbrev main_v55 : Ref sig .tc := ⟨.hbm, 83, rfl⟩
abbrev main_v56 : Ref sig .tc := ⟨.hbm, 84, rfl⟩
abbrev main_cst_20 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_c_21 : Ref sig .tc := ⟨.hbm, 91, rfl⟩
abbrev main_v62 : Ref sig .tc := ⟨.hbm, 92, rfl⟩
abbrev main_cst_22 : Ref sig .tc := ⟨.hbm, 93, rfl⟩
abbrev main_call2_v0 : Ref sig .tc := ⟨.hbm, 94, rfl⟩
abbrev main_call2_v1 : Ref sig .tc := ⟨.hbm, 95, rfl⟩
abbrev main_v63 : Ref sig .tc := ⟨.hbm, 96, rfl⟩
abbrev main_cst_23 : Ref sig .tc := ⟨.hbm, 97, rfl⟩
abbrev main_v64 : Ref sig .tc := ⟨.hbm, 98, rfl⟩
abbrev main_c_24 : Ref sig .tc := ⟨.hbm, 99, rfl⟩
abbrev main_v65 : Ref sig .tc := ⟨.hbm, 100, rfl⟩
abbrev main_c_25 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_cst_26 : Ref sig .tc := ⟨.hbm, 105, rfl⟩
abbrev main_v69 : Ref sig .tc := ⟨.hbm, 106, rfl⟩
abbrev main_cst_27 : Ref sig .tc := ⟨.hbm, 107, rfl⟩
abbrev main_v70 : Ref sig .tc := ⟨.hbm, 108, rfl⟩
abbrev main_cst_28 : Ref sig .tc := ⟨.hbm, 109, rfl⟩
abbrev main_v71 : Ref sig .tc := ⟨.hbm, 110, rfl⟩
abbrev main_v72 : Ref sig .tc := ⟨.hbm, 111, rfl⟩
abbrev main_cst_29 : Ref sig .tc := ⟨.hbm, 112, rfl⟩
abbrev main_v73 : Ref sig .tc := ⟨.hbm, 113, rfl⟩
abbrev main_cst_30 : Ref sig .tc := ⟨.hbm, 114, rfl⟩
abbrev main_v74 : Ref sig .tc := ⟨.hbm, 115, rfl⟩
abbrev main_v75 : Ref sig .tc := ⟨.hbm, 116, rfl⟩
abbrev main_c_31 : Ref sig .tc := ⟨.hbm, 117, rfl⟩
abbrev main_v76 : Ref sig .tc := ⟨.hbm, 118, rfl⟩
abbrev main_v77 : Ref sig .tc := ⟨.hbm, 119, rfl⟩
abbrev main_c_32 : Ref sig .tc := ⟨.hbm, 120, rfl⟩
abbrev main_v78 : Ref sig .tc := ⟨.hbm, 121, rfl⟩

abbrev nD : Nat := 1
abbrev τ : Topo := Topo.v7x

variable {F : FTy → Type} [FloatOps F]

class Facts₀ : Prop where
  reducesTo_S8x778x3_S8x778_d2 : S8x778x3.ReducesTo [2] S8x778
  h_S_ : 0 < S_.numel
  bcast_S8x778_S8x778x1_0_1 : S8x778.BroadcastsInDim S8x778x1 (![0, 1] : Fin 2 → Fin S8x778x1.rank)
  reducesTo_S8x40000x3_S8x40000_d2 : S8x40000x3.ReducesTo [2] S8x40000
  bcast_S8x40000_S8x1x40000_0_2 : S8x40000.BroadcastsInDim S8x1x40000 (![0, 2] : Fin 2 → Fin S8x1x40000.rank)
  bcast_S8x778x1_S8x778x40000_0_1_2 : S8x778x1.BroadcastsInDim S8x778x40000 (![0, 1, 2] : Fin 3 → Fin S8x778x40000.rank)
  bcast_S8x1x40000_S8x778x40000_0_1_2 : S8x1x40000.BroadcastsInDim S8x778x40000 (![0, 1, 2] : Fin 3 → Fin S8x778x40000.rank)
  bcast_S_S8x778x40000 : S_.BroadcastsInDim S8x778x40000 (![] : Fin 0 → Fin S8x778x40000.rank)
  reducesTo_S8x778x40000_S8x778_d2 : S8x778x40000.ReducesTo [2] S8x778
  bcast_S_S10 : S_.BroadcastsInDim S10 (![] : Fin 0 → Fin S10.rank)
  bcast_S10_S10x1_0 : S10.BroadcastsInDim S10x1 (![0] : Fin 1 → Fin S10x1.rank)
  reducesTo_S8x10x3_S8x10_d2 : S8x10x3.ReducesTo [2] S8x10
  bcast_S8x10_S8x10x1_0_1 : S8x10.BroadcastsInDim S8x10x1 (![0, 1] : Fin 2 → Fin S8x10x1.rank)
  bcast_S8x10x1_S8x10x40000_0_1_2 : S8x10x1.BroadcastsInDim S8x10x40000 (![0, 1, 2] : Fin 3 → Fin S8x10x40000.rank)
  bcast_S8x1x40000_S8x10x40000_0_1_2 : S8x1x40000.BroadcastsInDim S8x10x40000 (![0, 1, 2] : Fin 3 → Fin S8x10x40000.rank)
  bcast_S_S8x10x40000 : S_.BroadcastsInDim S8x10x40000 (![] : Fin 0 → Fin S8x10x40000.rank)
  reducesTo_S8x10x40000_S8x10_d2 : S8x10x40000.ReducesTo [2] S8x10
  bcast_S_S8x778 : S_.BroadcastsInDim S8x778 (![] : Fin 0 → Fin S8x778.rank)
  natLt_1_32 : 1 < 32
  reducesTo_S8x778_S_d0_1 : S8x778.ReducesTo [0, 1] S_
  bcast_S_S8x10 : S_.BroadcastsInDim S8x10 (![] : Fin 0 → Fin S8x10.rank)
  reducesTo_S8x10_S_d0_1 : S8x10.ReducesTo [0, 1] S_
  dot_S8x778x3_S8x40000x3_S8x778x40000_2_2_1_1_0_0_wf : DotDims.WF S8x778x3 S8x40000x3 S8x778x40000 [2] [2] [1] [1] [0] [0]
  gather_S8x778x3_S10x1_S8x10x3_02_1_n_n_1_1_813_wf : GatherDims.WF S8x778x3 S10x1 S8x10x3 [0, 2] [1] [] [1] [] 1 ![8, 1, 3]
  dot_S8x10x3_S8x40000x3_S8x10x40000_2_2_1_1_0_0_wf : DotDims.WF S8x10x3 S8x40000x3 S8x10x40000 [2] [2] [1] [1] [0] [0]

variable [Facts₀]

def dot_S8x778x3_S8x40000x3_S8x778x40000_2_2_1_1_0_0 : DotDims S8x778x3 S8x40000x3 S8x778x40000 where
  lhsContracting := [2]
  rhsContracting := [2]
  lhsNonContracting := [1]
  rhsNonContracting := [1]
  lhsBatch := [0]
  rhsBatch := [0]
  wf := dot_S8x778x3_S8x40000x3_S8x778x40000_2_2_1_1_0_0_wf
def gather_S8x778x3_S10x1_S8x10x3_02_1_n_n_1_1_813 : GatherDims S8x778x3 S10x1 S8x10x3 where
  offsetDims := [0, 2]
  collapsedSliceDims := [1]
  operandBatchingDims := []
  startIndicesBatchingDims := []
  startIndexMap := [1]
  indexVectorDim := 1
  sliceSizes := ![8, 1, 3]
  wf := gather_S8x778x3_S10x1_S8x10x3_02_1_n_n_1_1_813_wf
def dot_S8x10x3_S8x40000x3_S8x10x40000_2_2_1_1_0_0 : DotDims S8x10x3 S8x40000x3 S8x10x40000 where
  lhsContracting := [2]
  rhsContracting := [2]
  lhsNonContracting := [1]
  rhsNonContracting := [1]
  lhsBatch := [0]
  rhsBatch := [0]
  wf := dot_S8x10x3_S8x40000x3_S8x10x40000_2_2_1_1_0_0_wf

class Facts : Prop extends Facts₀ where

variable [Facts]
-- ==== Proof.Kernel.Kit.lean ====
/-
  The kernel program around its one region: the buffer contents the region finds (the one constant table written
  before it), the lines after the region as nine consecutive stretches, the facts about those lines that the
  launch needs (they touch only unscoped TensorCore buffers, allocate nothing, write none of the three arrays the
  windows stage), each window's block at a grid point, and the passage from the run's post to the claim that the four
  argument arrays end unchanged: two are staged inputs, which the pipeline never writes back, two are touched by no line.
-/
import proofs.«164913_j87385404604975_2_alg».proof.Proof.Gen.Kernel.Launch
import proofs.«164913_j87385404604975_2_alg».proof.Proof.Gen.Kernel.Skeleton
import proofs.«164913_j87385404604975_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The buffer contents when the region is entered: the launch memory after the one line before the region. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- The lines after the region, stretch by stretch (an inlined call's lines are a stretch of their own). -/
abbrev tailOps : List (List (HloOp τ sig (Elt F))) :=
  [hostOps1, hostOps1_1, hostOps1_2, hostOps1_3, hostOps1_4, hostOps1_5, hostOps1_6, hostOps1_7, hostOps1_8]

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor
theorem hostOps1_5_fresh : (hostOps1_5 : List (HloOp τ sig (Elt F))).Forall fun op => op.fresh = ∅ := by
  simp only [List.Forall]; repeat' constructor
theorem hostOps1_6_fresh : (hostOps1_6 : List (HloOp τ sig (Elt F))).Forall fun op => op.fresh = ∅ := by
  simp only [List.Forall]; repeat' constructor
theorem hostOps1_7_fresh : (hostOps1_7 : List (HloOp τ sig (Elt F))).Forall fun op => op.fresh = ∅ := by
  simp only [List.Forall]; repeat' constructor
theorem hostOps1_8_fresh : (hostOps1_8 : List (HloOp τ sig (Elt F))).Forall fun op => op.fresh = ∅ := by
  simp only [List.Forall]; repeat' constructor

/-- @main is the line before the region, the region, and the later lines: it reduces to the region continued by them. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [hostOps0] tailOps (by simp only [List.Forall]; exact hostOps0_sub)
    (by simp only [List.Forall]; exact hostOps0_fresh) main_chain

/-- The later lines touch unscoped TensorCore buffers only. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [tailOps, List.mem_cons, List.mem_nil_iff, or_false] at hops
  rcases hops with rfl | rfl | rfl | rfl | rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
  · exact Pipeline.sub_ucRefs op ((List.forall_iff_forall_mem.mp hostOps1_5_sub) op hop)
  · exact Pipeline.sub_ucRefs op ((List.forall_iff_forall_mem.mp hostOps1_6_sub) op hop)
  · exact Pipeline.sub_ucRefs op ((List.forall_iff_forall_mem.mp hostOps1_7_sub) op hop)
  · exact Pipeline.sub_ucRefs op ((List.forall_iff_forall_mem.mp hostOps1_8_sub) op hop)

/-- They allocate nothing. -/
theorem sfx_fresh : ∀ ops ∈ (tailOps : List (List (HloOp τ sig (Elt F)))), ∀ op ∈ ops, op.fresh = ∅ := by
  intro ops hops op hop
  simp only [tailOps, List.mem_cons, List.mem_nil_iff, or_false] at hops
  rcases hops with rfl | rfl | rfl | rfl | rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop
  · exact (List.forall_iff_forall_mem.mp hostOps1_5_fresh) op hop
  · exact (List.forall_iff_forall_mem.mp hostOps1_6_fresh) op hop
  · exact (List.forall_iff_forall_mem.mp hostOps1_7_fresh) op hop
  · exact (List.forall_iff_forall_mem.mp hostOps1_8_fresh) op hop

/-- No line of this stretch writes an array a window stages: each writes its own result buffer only. -/
theorem keeps_hostOps1 : ∀ op ∈ (hostOps1 : List (HloOp τ sig (Elt F))), ∀ w, Proc.devRef .tc (Pipeline.arrRef spec0 w) ∉ op.writes := by
  intro op hop
  simp only [hostOps1, List.mem_cons, List.mem_nil_iff, or_false] at hop
  rcases hop with rfl | rfl | rfl | rfl | rfl | rfl | rfl | rfl | rfl | rfl | rfl | rfl | rfl | rfl | rfl | rfl | rfl | rfl | rfl | rfl | rfl
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
/-- No line of this stretch writes an array a window stages: each writes its own result buffer only. -/
theorem keeps_hostOps1_1 : ∀ op ∈ (hostOps1_1 : List (HloOp τ sig (Elt F))), ∀ w, Proc.devRef .tc (Pipeline.arrRef spec0 w) ∉ op.writes := by
  intro op hop
  simp only [hostOps1_1, List.mem_cons, List.mem_nil_iff, or_false] at hop
  rcases hop with rfl | rfl | rfl
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
/-- No line of this stretch writes an array a window stages: each writes its own result buffer only. -/
theorem keeps_hostOps1_2 : ∀ op ∈ (hostOps1_2 : List (HloOp τ sig (Elt F))), ∀ w, Proc.devRef .tc (Pipeline.arrRef spec0 w) ∉ op.writes := by
  intro op hop
  simp only [hostOps1_2, List.mem_cons, List.mem_nil_iff, or_false] at hop
  rcases hop with rfl | rfl | rfl | rfl | rfl | rfl | rfl | rfl | rfl
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
/-- No line of this stretch writes an array a window stages: each writes its own result buffer only. -/
theorem keeps_hostOps1_3 : ∀ op ∈ (hostOps1_3 : List (HloOp τ sig (Elt F))), ∀ w, Proc.devRef .tc (Pipeline.arrRef spec0 w) ∉ op.writes := by
  intro op hop
  simp only [hostOps1_3, List.mem_cons, List.mem_nil_iff, or_false] at hop
  rcases hop with rfl
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
/-- No line of this stretch writes an array a window stages: each writes its own result buffer only. -/
theorem keeps_hostOps1_4 : ∀ op ∈ (hostOps1_4 : List (HloOp τ sig (Elt F))), ∀ w, Proc.devRef .tc (Pipeline.arrRef spec0 w) ∉ op.writes := by
  intro op hop
  simp only [hostOps1_4, List.mem_cons, List.mem_nil_iff, or_false] at hop
  rcases hop with rfl | rfl | rfl | rfl | rfl | rfl | rfl | rfl | rfl | rfl | rfl | rfl
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
/-- No line of this stretch writes an array a window stages: each writes its own result buffer only. -/
theorem keeps_hostOps1_5 : ∀ op ∈ (hostOps1_5 : List (HloOp τ sig (Elt F))), ∀ w, Proc.devRef .tc (Pipeline.arrRef spec0 w) ∉ op.writes := by
  intro op hop
  simp only [hostOps1_5, List.mem_cons, List.mem_nil_iff, or_false] at hop
  rcases hop with rfl | rfl | rfl
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
/-- No line of this stretch writes an array a window stages: each writes its own result buffer only. -/
theorem keeps_hostOps1_6 : ∀ op ∈ (hostOps1_6 : List (HloOp τ sig (Elt F))), ∀ w, Proc.devRef .tc (Pipeline.arrRef spec0 w) ∉ op.writes := by
  intro op hop
  simp only [hostOps1_6, List.mem_cons, List.mem_nil_iff, or_false] at hop
  rcases hop with rfl | rfl | rfl | rfl | rfl | rfl | rfl | rfl | rfl
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
/-- No line of this stretch writes an array a window stages: each writes its own result buffer only. -/
theorem keeps_hostOps1_7 : ∀ op ∈ (hostOps1_7 : List (HloOp τ sig (Elt F))), ∀ w, Proc.devRef .tc (Pipeline.arrRef spec0 w) ∉ op.writes := by
  intro op hop
  simp only [hostOps1_7, List.mem_cons, List.mem_nil_iff, or_false] at hop
  rcases hop with rfl
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
/-- No line of this stretch writes an array a window stages: each writes its own result buffer only. -/
theorem keeps_hostOps1_8 : ∀ op ∈ (hostOps1_8 : List (HloOp τ sig (Elt F))), ∀ w, Proc.devRef .tc (Pipeline.arrRef spec0 w) ∉ op.writes := by
  intro op hop
  simp only [hostOps1_8, List.mem_cons, List.mem_nil_iff, or_false] at hop
  rcases hop with rfl | rfl | rfl | rfl | rfl | rfl | rfl | rfl | rfl | rfl | rfl | rfl | rfl | rfl | rfl
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

/-- No later line writes an array a window stages. -/
theorem sfx_keeps : ∀ ops ∈ (tailOps : List (List (HloOp τ sig (Elt F)))), ∀ op ∈ ops,
    ∀ w, Proc.devRef .tc (Pipeline.arrRef spec0 w) ∉ op.writes := by
  intro ops hops op hop
  simp only [tailOps, List.mem_cons, List.mem_nil_iff, or_false] at hops
  rcases hops with rfl | rfl | rfl | rfl | rfl | rfl | rfl | rfl | rfl
  · exact keeps_hostOps1 op hop
  · exact keeps_hostOps1_1 op hop
  · exact keeps_hostOps1_2 op hop
  · exact keeps_hostOps1_3 op hop
  · exact keeps_hostOps1_4 op hop
  · exact keeps_hostOps1_5 op hop
  · exact keeps_hostOps1_6 op hop
  · exact keeps_hostOps1_7 op hop
  · exact keeps_hostOps1_8 op hop

/-- The line before the region writes neither staged argument: the region finds them as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    exact StableHlo.devRef_ne_of_ne (by decide)))

/-- A buffer that no later line writes and no window stages ends at its region-entry contents. -/
theorem tail_of_untouched (dats : (p : Fin 1) → (c : Dev nD) → Dat τ (Elt F) Unit ℕ (UR sig nD τ) ℕ (cfgs p) c) (c : Dev nD)
    (b : Ref sig .tc) (hw : ∀ w, Pipeline.arrRef spec0 w ≠ b)
    (hb : ∀ ops ∈ (tailOps : List (List (HloOp τ sig (Elt F)))), ∀ op ∈ ops, Proc.devRef .tc b ∉ op.writes) :
    Pipeline.afterTail₀ cfgs dats 0 (V0 m) tailOps c b = V m c b := by
  unfold Pipeline.afterTail₀
  rw [StableHlo.after_of_forall_not_mem (b := Proc.devRef .tc b) _ _ (fun op hop => by
      obtain ⟨ops, hops, hop'⟩ := List.mem_flatten.mp hop
      exact hb ops hops op hop'),
    Pipeline.withArrays_of_ne _ c (V0 m c) _ b hw]

theorem nowrite_main_arg2_hostOps1 : ∀ op ∈ (hostOps1 : List (HloOp τ sig (Elt F))), Proc.devRef (τ := τ) .tc main_arg2 ∉ op.writes := by
  intro op hop
  simp only [hostOps1, List.mem_cons, List.mem_nil_iff, or_false] at hop
  rcases hop with rfl | rfl | rfl | rfl | rfl | rfl | rfl | rfl | rfl | rfl | rfl | rfl | rfl | rfl | rfl | rfl | rfl | rfl | rfl | rfl | rfl
  all_goals simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem nowrite_main_arg2_hostOps1_1 : ∀ op ∈ (hostOps1_1 : List (HloOp τ sig (Elt F))), Proc.devRef (τ := τ) .tc main_arg2 ∉ op.writes := by
  intro op hop
  simp only [hostOps1_1, List.mem_cons, List.mem_nil_iff, or_false] at hop
  rcases hop with rfl | rfl | rfl
  all_goals simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem nowrite_main_arg2_hostOps1_2 : ∀ op ∈ (hostOps1_2 : List (HloOp τ sig (Elt F))), Proc.devRef (τ := τ) .tc main_arg2 ∉ op.writes := by
  intro op hop
  simp only [hostOps1_2, List.mem_cons, List.mem_nil_iff, or_false] at hop
  rcases hop with rfl | rfl | rfl | rfl | rfl | rfl | rfl | rfl | rfl
  all_goals simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem nowrite_main_arg2_hostOps1_3 : ∀ op ∈ (hostOps1_3 : List (HloOp τ sig (Elt F))), Proc.devRef (τ := τ) .tc main_arg2 ∉ op.writes := by
  intro op hop
  simp only [hostOps1_3, List.mem_cons, List.mem_nil_iff, or_false] at hop
  rcases hop with rfl
  all_goals simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem nowrite_main_arg2_hostOps1_4 : ∀ op ∈ (hostOps1_4 : List (HloOp τ sig (Elt F))), Proc.devRef (τ := τ) .tc main_arg2 ∉ op.writes := by
  intro op hop
  simp only [hostOps1_4, List.mem_cons, List.mem_nil_iff, or_false] at hop
  rcases hop with rfl | rfl | rfl | rfl | rfl | rfl | rfl | rfl | rfl | rfl | rfl | rfl
  all_goals simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem nowrite_main_arg2_hostOps1_5 : ∀ op ∈ (hostOps1_5 : List (HloOp τ sig (Elt F))), Proc.devRef (τ := τ) .tc main_arg2 ∉ op.writes := by
  intro op hop
  simp only [hostOps1_5, List.mem_cons, List.mem_nil_iff, or_false] at hop
  rcases hop with rfl | rfl | rfl
  all_goals simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem nowrite_main_arg2_hostOps1_6 : ∀ op ∈ (hostOps1_6 : List (HloOp τ sig (Elt F))), Proc.devRef (τ := τ) .tc main_arg2 ∉ op.writes := by
  intro op hop
  simp only [hostOps1_6, List.mem_cons, List.mem_nil_iff, or_false] at hop
  rcases hop with rfl | rfl | rfl | rfl | rfl | rfl | rfl | rfl | rfl
  all_goals simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem nowrite_main_arg2_hostOps1_7 : ∀ op ∈ (hostOps1_7 : List (HloOp τ sig (Elt F))), Proc.devRef (τ := τ) .tc main_arg2 ∉ op.writes := by
  intro op hop
  simp only [hostOps1_7, List.mem_cons, List.mem_nil_iff, or_false] at hop
  rcases hop with rfl
  all_goals simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem nowrite_main_arg2_hostOps1_8 : ∀ op ∈ (hostOps1_8 : List (HloOp τ sig (Elt F))), Proc.devRef (τ := τ) .tc main_arg2 ∉ op.writes := by
  intro op hop
  simp only [hostOps1_8, List.mem_cons, List.mem_nil_iff, or_false] at hop
  rcases hop with rfl | rfl | rfl | rfl | rfl | rfl | rfl | rfl | rfl | rfl | rfl | rfl | rfl | rfl | rfl
  all_goals simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
/-- No later line writes `main_arg2`: it ends as launched. -/
theorem W_main_arg2 (dats : (p : Fin 1) → (c : Dev nD) → Dat τ (Elt F) Unit ℕ (UR sig nD τ) ℕ (cfgs p) c) (c : Dev nD) :
    Pipeline.afterTail₀ cfgs dats 0 (V0 m) tailOps c main_arg2 = m ((c : Thread nD τ).loc main_arg2) := by
  rw [tail_of_untouched m dats c main_arg2 (by decide) (by
    intro ops hops op hop
    simp only [tailOps, List.mem_cons, List.mem_nil_iff, or_false] at hops
    rcases hops with rfl | rfl | rfl | rfl | rfl | rfl | rfl | rfl | rfl
    · exact nowrite_main_arg2_hostOps1 op hop
    · exact nowrite_main_arg2_hostOps1_1 op hop
    · exact nowrite_main_arg2_hostOps1_2 op hop
    · exact nowrite_main_arg2_hostOps1_3 op hop
    · exact nowrite_main_arg2_hostOps1_4 op hop
    · exact nowrite_main_arg2_hostOps1_5 op hop
    · exact nowrite_main_arg2_hostOps1_6 op hop
    · exact nowrite_main_arg2_hostOps1_7 op hop
    · exact nowrite_main_arg2_hostOps1_8 op hop)]
  exact V_main_arg2 m c
theorem nowrite_main_arg3_hostOps1 : ∀ op ∈ (hostOps1 : List (HloOp τ sig (Elt F))), Proc.devRef (τ := τ) .tc main_arg3 ∉ op.writes := by
  intro op hop
  simp only [hostOps1, List.mem_cons, List.mem_nil_iff, or_false] at hop
  rcases hop with rfl | rfl | rfl | rfl | rfl | rfl | rfl | rfl | rfl | rfl | rfl | rfl | rfl | rfl | rfl | rfl | rfl | rfl | rfl | rfl | rfl
  all_goals simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem nowrite_main_arg3_hostOps1_1 : ∀ op ∈ (hostOps1_1 : List (HloOp τ sig (Elt F))), Proc.devRef (τ := τ) .tc main_arg3 ∉ op.writes := by
  intro op hop
  simp only [hostOps1_1, List.mem_cons, List.mem_nil_iff, or_false] at hop
  rcases hop with rfl | rfl | rfl
  all_goals simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem nowrite_main_arg3_hostOps1_2 : ∀ op ∈ (hostOps1_2 : List (HloOp τ sig (Elt F))), Proc.devRef (τ := τ) .tc main_arg3 ∉ op.writes := by
  intro op hop
  simp only [hostOps1_2, List.mem_cons, List.mem_nil_iff, or_false] at hop
  rcases hop with rfl | rfl | rfl | rfl | rfl | rfl | rfl | rfl | rfl
  all_goals simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem nowrite_main_arg3_hostOps1_3 : ∀ op ∈ (hostOps1_3 : List (HloOp τ sig (Elt F))), Proc.devRef (τ := τ) .tc main_arg3 ∉ op.writes := by
  intro op hop
  simp only [hostOps1_3, List.mem_cons, List.mem_nil_iff, or_false] at hop
  rcases hop with rfl
  all_goals simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem nowrite_main_arg3_hostOps1_4 : ∀ op ∈ (hostOps1_4 : List (HloOp τ sig (Elt F))), Proc.devRef (τ := τ) .tc main_arg3 ∉ op.writes := by
  intro op hop
  simp only [hostOps1_4, List.mem_cons, List.mem_nil_iff, or_false] at hop
  rcases hop with rfl | rfl | rfl | rfl | rfl | rfl | rfl | rfl | rfl | rfl | rfl | rfl
  all_goals simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem nowrite_main_arg3_hostOps1_5 : ∀ op ∈ (hostOps1_5 : List (HloOp τ sig (Elt F))), Proc.devRef (τ := τ) .tc main_arg3 ∉ op.writes := by
  intro op hop
  simp only [hostOps1_5, List.mem_cons, List.mem_nil_iff, or_false] at hop
  rcases hop with rfl | rfl | rfl
  all_goals simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem nowrite_main_arg3_hostOps1_6 : ∀ op ∈ (hostOps1_6 : List (HloOp τ sig (Elt F))), Proc.devRef (τ := τ) .tc main_arg3 ∉ op.writes := by
  intro op hop
  simp only [hostOps1_6, List.mem_cons, List.mem_nil_iff, or_false] at hop
  rcases hop with rfl | rfl | rfl | rfl | rfl | rfl | rfl | rfl | rfl
  all_goals simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem nowrite_main_arg3_hostOps1_7 : ∀ op ∈ (hostOps1_7 : List (HloOp τ sig (Elt F))), Proc.devRef (τ := τ) .tc main_arg3 ∉ op.writes := by
  intro op hop
  simp only [hostOps1_7, List.mem_cons, List.mem_nil_iff, or_false] at hop
  rcases hop with rfl
  all_goals simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem nowrite_main_arg3_hostOps1_8 : ∀ op ∈ (hostOps1_8 : List (HloOp τ sig (Elt F))), Proc.devRef (τ := τ) .tc main_arg3 ∉ op.writes := by
  intro op hop
  simp only [hostOps1_8, List.mem_cons, List.mem_nil_iff, or_false] at hop
  rcases hop with rfl | rfl | rfl | rfl | rfl | rfl | rfl | rfl | rfl | rfl | rfl | rfl | rfl | rfl | rfl
  all_goals simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
/-- No later line writes `main_arg3`: it ends as launched. -/
theorem W_main_arg3 (dats : (p : Fin 1) → (c : Dev nD) → Dat τ (Elt F) Unit ℕ (UR sig nD τ) ℕ (cfgs p) c) (c : Dev nD) :
    Pipeline.afterTail₀ cfgs dats 0 (V0 m) tailOps c main_arg3 = m ((c : Thread nD τ).loc main_arg3) := by
  rw [tail_of_untouched m dats c main_arg3 (by decide) (by
    intro ops hops op hop
    simp only [tailOps, List.mem_cons, List.mem_nil_iff, or_false] at hops
    rcases hops with rfl | rfl | rfl | rfl | rfl | rfl | rfl | rfl | rfl
    · exact nowrite_main_arg3_hostOps1 op hop
    · exact nowrite_main_arg3_hostOps1_1 op hop
    · exact nowrite_main_arg3_hostOps1_2 op hop
    · exact nowrite_main_arg3_hostOps1_3 op hop
    · exact nowrite_main_arg3_hostOps1_4 op hop
    · exact nowrite_main_arg3_hostOps1_5 op hop
    · exact nowrite_main_arg3_hostOps1_6 op hop
    · exact nowrite_main_arg3_hostOps1_7 op hop
    · exact nowrite_main_arg3_hostOps1_8 op hop)]
  exact V_main_arg3 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, for any proof data whose array is the
    region-entry one and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- From a run whose post has every staged array at what the proof data give and every other unscoped buffer at what
    the later lines leave, the four argument arrays end as launched. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) tailOps))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).1 0).trans (((dats 0 c).arrAt_in 0 rfl _).trans ((hA c 0).trans (V_main_arg0 m c))),
    ((h c).1 1).trans (((dats 0 c).arrAt_in 1 rfl _).trans ((hA c 1).trans (V_main_arg1 m c))),
    ((h c).2 main_arg2 (Pipeline.mem_restRefs_of main_arg2 (by decide) (by decide))).trans (W_main_arg2 m dats c),
    ((h c).2 main_arg3 (Pipeline.mem_restRefs_of main_arg3 (by decide) (by decide))).trans (W_main_arg3 m dats c)⟩) h

/-! ## The staging memrefs and the scratch -/

/-- Each window's current staging memref at point `t`, as the pipeline passes it, and its wholeness. -/
abbrev ms0_0 (t : Fin cfg0.N) : Memref sig .tc .vmem S1x778x3 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x40000x3 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1x778 .f32 := win0_2.stage (cfg0.slots t 2)
abbrev hs0_2 (t : Fin cfg0.N) : (ms0_2 t).IsWhole := hstage0_2 ((cfg0.slots t 2).cast nbuf0_2)
/-- The scratch operand: a whole scoped buffer of the kernel's own, rewritten from the top at every point. -/
abbrev scM0_0 : Memref sig .tc .vmem S1x778 .f32 := Memref.whole cc0_scratch0
/-- One staging buffer of the output window, through which its contents are stated. -/
abbrev VO0_2 : View sig .tc .vmem S1x1x778 .f32 := (Memref.whole cc0_stg2_0 : Memref sig .tc .vmem S1x1x778 .f32).view

/-- The region invariant — the scoped rest at anything and the generator register at some state — with the scratch
    as a memref owned at some contents. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.Kernel.Hand

end
-- ==== Proof.Kernel.Run.lean ====
/-
  The kernel body run once, symbolically, on any whole staging memrefs: with the hand block and the object block at
  their contents, the output block's buffer and the scratch at anything, the body runs to its end, leaves both inputs as
  they were, and leaves in the output buffer and in the scratch the stores it made, as pieces (last first) found by the run.
-/
import proofs.«164913_j87385404604975_2_alg».proof.Proof.Kernel.Kit

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the body's stores leave in the output block's buffer and in the scratch, with the body's triple. -/
noncomputable def kernelRun0 (c : Dev nD) (i : grid0.Coords) (arg1 : Memref sig .tc .vmem S1x778x3 .f32) (harg1 : arg1.IsWhole) (arg2 : Memref sig .tc .vmem S1x40000x3 .f32) (harg2 : arg2.IsWhole) (arg3 : Memref sig .tc .vmem S1x1x778 .f32) (harg3 : arg3.IsWhole) (arg4 : Memref sig .tc .vmem S1x778 .f32) (harg4 : arg4.IsWhole)
    (x0 : Vec F S1x778x3 .f32) (x1 : Vec F S1x40000x3 .f32) :
    Σ' (L2 : List (View.Piece (Elt F) S1x1x778 .f32)), { LS0 : List (View.Piece (Elt F) S1x778 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d)
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f LS0)) -∗ K ⟨⟩))
          ⊢ wp frame (wpE (defs₀ (F := F)) Variants.none c none) E (cc0__min_dist_kernel i arg1 harg1 arg2 harg2 arg3 harg3 arg4 harg4) K } := by
  refine ⟨?_, ?_, fun E K => ?run⟩
  case run =>
    simp only [cc0__min_dist_kernel_eq_skeleton]; unfold cc0__min_dist_kernel_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton]
    unfold owns
    iintro ⟨⟨%f0, %hf0, H0⟩, ⟨%f1, %hf1, H1⟩, ⟨%d2, %f2, -, H2⟩, ⟨%ds0, %fs0, -, HS0⟩, Hk⟩
    obtain rfl := harg1.eq_unread hf0; obtain rfl := harg2.eq_unread hf1
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    iexists _; iexact HS0

end Cert.Kernel.Hand

end
-- ==== Proof.Kernel.Frame.lean ====
/-
  The frame of the kernel program. The output block's buffer after the body is the run's stores read back (they cover
  the block); the proof data say: each input window's buffer holds its block, the output window's the body's result at
  the point's two input blocks, the invariant is the scoped rest (the scratch at anything: the body rewrites it from the
  top at every point) with the generator register; the body obligation is the one symbolic run at a generic point; the
  launch theorem for a region followed by host lines then gives the run, and its post read at the four arguments the
  frame claim.
-/
import proofs.«164913_j87385404604975_2_alg».proof.Proof.Kernel.Run

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The run's pieces for the output block tile it, so they cover it. -/
theorem cover0_2 (c : Dev nD) (i : grid0.Coords) (arg1 : Memref sig .tc .vmem S1x778x3 .f32) (harg1 : arg1.IsWhole) (arg2 : Memref sig .tc .vmem S1x40000x3 .f32) (harg2 : arg2.IsWhole) (arg3 : Memref sig .tc .vmem S1x1x778 .f32) (harg3 : arg3.IsWhole) (arg4 : Memref sig .tc .vmem S1x778 .f32) (harg4 : arg4.IsWhole)
    (x0 : Vec F S1x778x3 .f32) (x1 : Vec F S1x40000x3 .f32) (y : S1x1x778.Idx) :
    ∃ pc ∈ (kernelRun0 c i arg1 harg1 arg2 harg2 arg3 harg3 arg4 harg4 x0 x1).1, y ∈ pc.1.set :=
  View.cover_of_tiledL (kernelRun0 c i arg1 harg1 arg2 harg2 arg3 harg3 arg4 harg4 x0 x1).1 S1x1x778.size (by sl_kernel_rfl) y

/-- What the body leaves in the output block's buffer: its pieces read back. -/
def out0_2 (c : Dev nD) (i : grid0.Coords) (arg1 : Memref sig .tc .vmem S1x778x3 .f32) (harg1 : arg1.IsWhole) (arg2 : Memref sig .tc .vmem S1x40000x3 .f32) (harg2 : arg2.IsWhole) (arg3 : Memref sig .tc .vmem S1x1x778 .f32) (harg3 : arg3.IsWhole) (arg4 : Memref sig .tc .vmem S1x778 .f32) (harg4 : arg4.IsWhole)
    (x0 : Vec F S1x778x3 .f32) (x1 : Vec F S1x40000x3 .f32) : Vec F S1x1x778 .f32 :=
  VO0_2.read (Elt F) (VO0_2.writes (Elt F) VO0_2.junk (kernelRun0 c i arg1 harg1 arg2 harg2 arg3 harg3 arg4 harg4 x0 x1).1)

/-! ## The pipeline's proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => out0_2 c (grid0.coords t) (ms0_0 t) (hs0_0 t) (ms0_1 t) (hs0_1 t) (ms0_2 t) (hs0_2 t) scM0_0 (Memref.isWhole_whole _) (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = out0_2 c (grid0.coords t) (ms0_0 t) (hs0_0 t) (ms0_1 t) (hs0_1 t) (ms0_2 t) (hs0_2 t) scM0_0 (Memref.isWhole_whole _) (iblk m c 0 t) (iblk m c 1 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

set_option maxHeartbeats 4000000 in
/-- The body at any point: the inputs' memrefs hold their blocks, so the run applies; the invariant lends the scratch at
    anything and takes it back at anything; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl,
    after0_0, after0_1, after0_2, PhiA0_eq]
  unfold out0_2
  iintro ⟨⟨HS0, Hg⟩, Ho, ⟨%d0, H0⟩, ⟨%d1, H1⟩, ⟨%d2, H2⟩⟩
  iapply ((kernelRun0 c (grid0.coords t) _ _ _ _ _ _ _ _ (iblk m c 0 t) (iblk m c 1 t)).2.2 Set.univ _)
  isplitl [H0]; · iexact H0
  isplitl [H1]; · iexact H1
  isplitl [H2]; · iexists _; iexact H2
  isplitl [HS0]; · iexact HS0
  iintro ⟨H0, H1, ⟨%e2, H2⟩, ⟨%es0, HS0⟩⟩
  isplitl [HS0 Hg]
  · isplitl [HS0]
    · iexists _; unfold owns; iexists _; isplitr
      swap; · iexact HS0
      ipureintro; rfl
    iexact Hg
  isplitl [Ho]; · iexact Ho
  isplitl [H0]; · iexact H0
  isplitl [H1]; · iexact H1
  unfold owns; iexists _; isplitr
  swap; · iexact H2
  ipureintro; exact View.read_writes_of_cover _ _ _ _ _ (cover0_2 c _ _ _ _ _ _ _ _ _ _ _)

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, and every final state has every staged array at what the proof
    data give and every other unscoped buffer as the lines after the region leave it. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hΦ := fun _ _ => rfl)

/-- The frame: the program runs to the end without a fault and its four argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.Kernel.Hand

end
-- ==== Proof.KernelIdeal.Kit.lean ====
/-
  The kernel program around its one region: the buffer contents the region finds (the one constant table written
  before it), the lines after the region as nine consecutive stretches, the facts about those lines that the
  launch needs (they touch only unscoped TensorCore buffers, allocate nothing, write none of the three arrays the
  windows stage), each window's block at a grid point, and the passage from the run's post to the claim that the four
  argument arrays end unchanged: two are staged inputs, which the pipeline never writes back, two are touched by no line.
-/
import proofs.«164913_j87385404604975_2_alg».proof.Proof.Gen.KernelIdeal.Launch
import proofs.«164913_j87385404604975_2_alg».proof.Proof.Gen.KernelIdeal.Skeleton
import proofs.«164913_j87385404604975_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The buffer contents when the region is entered: the launch memory after the one line before the region. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- The lines after the region, stretch by stretch (an inlined call's lines are a stretch of their own). -/
abbrev tailOps : List (List (HloOp τ sig (Elt F))) :=
  [hostOps1, hostOps1_1, hostOps1_2, hostOps1_3, hostOps1_4, hostOps1_5, hostOps1_6, hostOps1_7, hostOps1_8]

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor
theorem hostOps1_5_fresh : (hostOps1_5 : List (HloOp τ sig (Elt F))).Forall fun op => op.fresh = ∅ := by
  simp only [List.Forall]; repeat' constructor
theorem hostOps1_6_fresh : (hostOps1_6 : List (HloOp τ sig (Elt F))).Forall fun op => op.fresh = ∅ := by
  simp only [List.Forall]; repeat' constructor
theorem hostOps1_7_fresh : (hostOps1_7 : List (HloOp τ sig (Elt F))).Forall fun op => op.fresh = ∅ := by
  simp only [List.Forall]; repeat' constructor
theorem hostOps1_8_fresh : (hostOps1_8 : List (HloOp τ sig (Elt F))).Forall fun op => op.fresh = ∅ := by
  simp only [List.Forall]; repeat' constructor

/-- @main is the line before the region, the region, and the later lines: it reduces to the region continued by them. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [hostOps0] tailOps (by simp only [List.Forall]; exact hostOps0_sub)
    (by simp only [List.Forall]; exact hostOps0_fresh) main_chain

/-- The later lines touch unscoped TensorCore buffers only. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [tailOps, List.mem_cons, List.mem_nil_iff, or_false] at hops
  rcases hops with rfl | rfl | rfl | rfl | rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
  · exact Pipeline.sub_ucRefs op ((List.forall_iff_forall_mem.mp hostOps1_5_sub) op hop)
  · exact Pipeline.sub_ucRefs op ((List.forall_iff_forall_mem.mp hostOps1_6_sub) op hop)
  · exact Pipeline.sub_ucRefs op ((List.forall_iff_forall_mem.mp hostOps1_7_sub) op hop)
  · exact Pipeline.sub_ucRefs op ((List.forall_iff_forall_mem.mp hostOps1_8_sub) op hop)

/-- They allocate nothing. -/
theorem sfx_fresh : ∀ ops ∈ (tailOps : List (List (HloOp τ sig (Elt F)))), ∀ op ∈ ops, op.fresh = ∅ := by
  intro ops hops op hop
  simp only [tailOps, List.mem_cons, List.mem_nil_iff, or_false] at hops
  rcases hops with rfl | rfl | rfl | rfl | rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop
  · exact (List.forall_iff_forall_mem.mp hostOps1_5_fresh) op hop
  · exact (List.forall_iff_forall_mem.mp hostOps1_6_fresh) op hop
  · exact (List.forall_iff_forall_mem.mp hostOps1_7_fresh) op hop
  · exact (List.forall_iff_forall_mem.mp hostOps1_8_fresh) op hop

/-- No line of this stretch writes an array a window stages: each writes its own result buffer only. -/
theorem keeps_hostOps1 : ∀ op ∈ (hostOps1 : List (HloOp τ sig (Elt F))), ∀ w, Proc.devRef .tc (Pipeline.arrRef spec0 w) ∉ op.writes := by
  intro op hop
  simp only [hostOps1, List.mem_cons, List.mem_nil_iff, or_false] at hop
  rcases hop with rfl | rfl | rfl | rfl | rfl | rfl | rfl | rfl | rfl | rfl | rfl | rfl | rfl | rfl | rfl | rfl | rfl | rfl | rfl | rfl | rfl
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
/-- No line of this stretch writes an array a window stages: each writes its own result buffer only. -/
theorem keeps_hostOps1_1 : ∀ op ∈ (hostOps1_1 : List (HloOp τ sig (Elt F))), ∀ w, Proc.devRef .tc (Pipeline.arrRef spec0 w) ∉ op.writes := by
  intro op hop
  simp only [hostOps1_1, List.mem_cons, List.mem_nil_iff, or_false] at hop
  rcases hop with rfl | rfl | rfl
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
/-- No line of this stretch writes an array a window stages: each writes its own result buffer only. -/
theorem keeps_hostOps1_2 : ∀ op ∈ (hostOps1_2 : List (HloOp τ sig (Elt F))), ∀ w, Proc.devRef .tc (Pipeline.arrRef spec0 w) ∉ op.writes := by
  intro op hop
  simp only [hostOps1_2, List.mem_cons, List.mem_nil_iff, or_false] at hop
  rcases hop with rfl | rfl | rfl | rfl | rfl | rfl | rfl | rfl | rfl
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
/-- No line of this stretch writes an array a window stages: each writes its own result buffer only. -/
theorem keeps_hostOps1_3 : ∀ op ∈ (hostOps1_3 : List (HloOp τ sig (Elt F))), ∀ w, Proc.devRef .tc (Pipeline.arrRef spec0 w) ∉ op.writes := by
  intro op hop
  simp only [hostOps1_3, List.mem_cons, List.mem_nil_iff, or_false] at hop
  rcases hop with rfl
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
/-- No line of this stretch writes an array a window stages: each writes its own result buffer only. -/
theorem keeps_hostOps1_4 : ∀ op ∈ (hostOps1_4 : List (HloOp τ sig (Elt F))), ∀ w, Proc.devRef .tc (Pipeline.arrRef spec0 w) ∉ op.writes := by
  intro op hop
  simp only [hostOps1_4, List.mem_cons, List.mem_nil_iff, or_false] at hop
  rcases hop with rfl | rfl | rfl | rfl | rfl | rfl | rfl | rfl | rfl | rfl | rfl | rfl
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
/-- No line of this stretch writes an array a window stages: each writes its own result buffer only. -/
theorem keeps_hostOps1_5 : ∀ op ∈ (hostOps1_5 : List (HloOp τ sig (Elt F))), ∀ w, Proc.devRef .tc (Pipeline.arrRef spec0 w) ∉ op.writes := by
  intro op hop
  simp only [hostOps1_5, List.mem_cons, List.mem_nil_iff, or_false] at hop
  rcases hop with rfl | rfl | rfl
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
/-- No line of this stretch writes an array a window stages: each writes its own result buffer only. -/
theorem keeps_hostOps1_6 : ∀ op ∈ (hostOps1_6 : List (HloOp τ sig (Elt F))), ∀ w, Proc.devRef .tc (Pipeline.arrRef spec0 w) ∉ op.writes := by
  intro op hop
  simp only [hostOps1_6, List.mem_cons, List.mem_nil_iff, or_false] at hop
  rcases hop with rfl | rfl | rfl | rfl | rfl | rfl | rfl | rfl | rfl
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
/-- No line of this stretch writes an array a window stages: each writes its own result buffer only. -/
theorem keeps_hostOps1_7 : ∀ op ∈ (hostOps1_7 : List (HloOp τ sig (Elt F))), ∀ w, Proc.devRef .tc (Pipeline.arrRef spec0 w) ∉ op.writes := by
  intro op hop
  simp only [hostOps1_7, List.mem_cons, List.mem_nil_iff, or_false] at hop
  rcases hop with rfl
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
/-- No line of this stretch writes an array a window stages: each writes its own result buffer only. -/
theorem keeps_hostOps1_8 : ∀ op ∈ (hostOps1_8 : List (HloOp τ sig (Elt F))), ∀ w, Proc.devRef .tc (Pipeline.arrRef spec0 w) ∉ op.writes := by
  intro op hop
  simp only [hostOps1_8, List.mem_cons, List.mem_nil_iff, or_false] at hop
  rcases hop with rfl | rfl | rfl | rfl | rfl | rfl | rfl | rfl | rfl | rfl | rfl | rfl | rfl | rfl | rfl
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

/-- No later line writes an array a window stages. -/
theorem sfx_keeps : ∀ ops ∈ (tailOps : List (List (HloOp τ sig (Elt F)))), ∀ op ∈ ops,
    ∀ w, Proc.devRef .tc (Pipeline.arrRef spec0 w) ∉ op.writes := by
  intro ops hops op hop
  simp only [tailOps, List.mem_cons, List.mem_nil_iff, or_false] at hops
  rcases hops with rfl | rfl | rfl | rfl | rfl | rfl | rfl | rfl | rfl
  · exact keeps_hostOps1 op hop
  · exact keeps_hostOps1_1 op hop
  · exact keeps_hostOps1_2 op hop
  · exact keeps_hostOps1_3 op hop
  · exact keeps_hostOps1_4 op hop
  · exact keeps_hostOps1_5 op hop
  · exact keeps_hostOps1_6 op hop
  · exact keeps_hostOps1_7 op hop
  · exact keeps_hostOps1_8 op hop

/-- The line before the region writes neither staged argument: the region finds them as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    exact StableHlo.devRef_ne_of_ne (by decide)))

/-- A buffer that no later line writes and no window stages ends at its region-entry contents. -/
theorem tail_of_untouched (dats : (p : Fin 1) → (c : Dev nD) → Dat τ (Elt F) Unit ℕ (UR sig nD τ) ℕ (cfgs p) c) (c : Dev nD)
    (b : Ref sig .tc) (hw : ∀ w, Pipeline.arrRef spec0 w ≠ b)
    (hb : ∀ ops ∈ (tailOps : List (List (HloOp τ sig (Elt F)))), ∀ op ∈ ops, Proc.devRef .tc b ∉ op.writes) :
    Pipeline.afterTail₀ cfgs dats 0 (V0 m) tailOps c b = V m c b := by
  unfold Pipeline.afterTail₀
  rw [StableHlo.after_of_forall_not_mem (b := Proc.devRef .tc b) _ _ (fun op hop => by
      obtain ⟨ops, hops, hop'⟩ := List.mem_flatten.mp hop
      exact hb ops hops op hop'),
    Pipeline.withArrays_of_ne _ c (V0 m c) _ b hw]

theorem nowrite_main_arg2_hostOps1 : ∀ op ∈ (hostOps1 : List (HloOp τ sig (Elt F))), Proc.devRef (τ := τ) .tc main_arg2 ∉ op.writes := by
  intro op hop
  simp only [hostOps1, List.mem_cons, List.mem_nil_iff, or_false] at hop
  rcases hop with rfl | rfl | rfl | rfl | rfl | rfl | rfl | rfl | rfl | rfl | rfl | rfl | rfl | rfl | rfl | rfl | rfl | rfl | rfl | rfl | rfl
  all_goals simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem nowrite_main_arg2_hostOps1_1 : ∀ op ∈ (hostOps1_1 : List (HloOp τ sig (Elt F))), Proc.devRef (τ := τ) .tc main_arg2 ∉ op.writes := by
  intro op hop
  simp only [hostOps1_1, List.mem_cons, List.mem_nil_iff, or_false] at hop
  rcases hop with rfl | rfl | rfl
  all_goals simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem nowrite_main_arg2_hostOps1_2 : ∀ op ∈ (hostOps1_2 : List (HloOp τ sig (Elt F))), Proc.devRef (τ := τ) .tc main_arg2 ∉ op.writes := by
  intro op hop
  simp only [hostOps1_2, List.mem_cons, List.mem_nil_iff, or_false] at hop
  rcases hop with rfl | rfl | rfl | rfl | rfl | rfl | rfl | rfl | rfl
  all_goals simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem nowrite_main_arg2_hostOps1_3 : ∀ op ∈ (hostOps1_3 : List (HloOp τ sig (Elt F))), Proc.devRef (τ := τ) .tc main_arg2 ∉ op.writes := by
  intro op hop
  simp only [hostOps1_3, List.mem_cons, List.mem_nil_iff, or_false] at hop
  rcases hop with rfl
  all_goals simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem nowrite_main_arg2_hostOps1_4 : ∀ op ∈ (hostOps1_4 : List (HloOp τ sig (Elt F))), Proc.devRef (τ := τ) .tc main_arg2 ∉ op.writes := by
  intro op hop
  simp only [hostOps1_4, List.mem_cons, List.mem_nil_iff, or_false] at hop
  rcases hop with rfl | rfl | rfl | rfl | rfl | rfl | rfl | rfl | rfl | rfl | rfl | rfl
  all_goals simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem nowrite_main_arg2_hostOps1_5 : ∀ op ∈ (hostOps1_5 : List (HloOp τ sig (Elt F))), Proc.devRef (τ := τ) .tc main_arg2 ∉ op.writes := by
  intro op hop
  simp only [hostOps1_5, List.mem_cons, List.mem_nil_iff, or_false] at hop
  rcases hop with rfl | rfl | rfl
  all_goals simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem nowrite_main_arg2_hostOps1_6 : ∀ op ∈ (hostOps1_6 : List (HloOp τ sig (Elt F))), Proc.devRef (τ := τ) .tc main_arg2 ∉ op.writes := by
  intro op hop
  simp only [hostOps1_6, List.mem_cons, List.mem_nil_iff, or_false] at hop
  rcases hop with rfl | rfl | rfl | rfl | rfl | rfl | rfl | rfl | rfl
  all_goals simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem nowrite_main_arg2_hostOps1_7 : ∀ op ∈ (hostOps1_7 : List (HloOp τ sig (Elt F))), Proc.devRef (τ := τ) .tc main_arg2 ∉ op.writes := by
  intro op hop
  simp only [hostOps1_7, List.mem_cons, List.mem_nil_iff, or_false] at hop
  rcases hop with rfl
  all_goals simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem nowrite_main_arg2_hostOps1_8 : ∀ op ∈ (hostOps1_8 : List (HloOp τ sig (Elt F))), Proc.devRef (τ := τ) .tc main_arg2 ∉ op.writes := by
  intro op hop
  simp only [hostOps1_8, List.mem_cons, List.mem_nil_iff, or_false] at hop
  rcases hop with rfl | rfl | rfl | rfl | rfl | rfl | rfl | rfl | rfl | rfl | rfl | rfl | rfl | rfl | rfl
  all_goals simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
/-- No later line writes `main_arg2`: it ends as launched. -/
theorem W_main_arg2 (dats : (p : Fin 1) → (c : Dev nD) → Dat τ (Elt F) Unit ℕ (UR sig nD τ) ℕ (cfgs p) c) (c : Dev nD) :
    Pipeline.afterTail₀ cfgs dats 0 (V0 m) tailOps c main_arg2 = m ((c : Thread nD τ).loc main_arg2) := by
  rw [tail_of_untouched m dats c main_arg2 (by decide) (by
    intro ops hops op hop
    simp only [tailOps, List.mem_cons, List.mem_nil_iff, or_false] at hops
    rcases hops with rfl | rfl | rfl | rfl | rfl | rfl | rfl | rfl | rfl
    · exact nowrite_main_arg2_hostOps1 op hop
    · exact nowrite_main_arg2_hostOps1_1 op hop
    · exact nowrite_main_arg2_hostOps1_2 op hop
    · exact nowrite_main_arg2_hostOps1_3 op hop
    · exact nowrite_main_arg2_hostOps1_4 op hop
    · exact nowrite_main_arg2_hostOps1_5 op hop
    · exact nowrite_main_arg2_hostOps1_6 op hop
    · exact nowrite_main_arg2_hostOps1_7 op hop
    · exact nowrite_main_arg2_hostOps1_8 op hop)]
  exact V_main_arg2 m c
theorem nowrite_main_arg3_hostOps1 : ∀ op ∈ (hostOps1 : List (HloOp τ sig (Elt F))), Proc.devRef (τ := τ) .tc main_arg3 ∉ op.writes := by
  intro op hop
  simp only [hostOps1, List.mem_cons, List.mem_nil_iff, or_false] at hop
  rcases hop with rfl | rfl | rfl | rfl | rfl | rfl | rfl | rfl | rfl | rfl | rfl | rfl | rfl | rfl | rfl | rfl | rfl | rfl | rfl | rfl | rfl
  all_goals simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem nowrite_main_arg3_hostOps1_1 : ∀ op ∈ (hostOps1_1 : List (HloOp τ sig (Elt F))), Proc.devRef (τ := τ) .tc main_arg3 ∉ op.writes := by
  intro op hop
  simp only [hostOps1_1, List.mem_cons, List.mem_nil_iff, or_false] at hop
  rcases hop with rfl | rfl | rfl
  all_goals simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem nowrite_main_arg3_hostOps1_2 : ∀ op ∈ (hostOps1_2 : List (HloOp τ sig (Elt F))), Proc.devRef (τ := τ) .tc main_arg3 ∉ op.writes := by
  intro op hop
  simp only [hostOps1_2, List.mem_cons, List.mem_nil_iff, or_false] at hop
  rcases hop with rfl | rfl | rfl | rfl | rfl | rfl | rfl | rfl | rfl
  all_goals simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem nowrite_main_arg3_hostOps1_3 : ∀ op ∈ (hostOps1_3 : List (HloOp τ sig (Elt F))), Proc.devRef (τ := τ) .tc main_arg3 ∉ op.writes := by
  intro op hop
  simp only [hostOps1_3, List.mem_cons, List.mem_nil_iff, or_false] at hop
  rcases hop with rfl
  all_goals simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem nowrite_main_arg3_hostOps1_4 : ∀ op ∈ (hostOps1_4 : List (HloOp τ sig (Elt F))), Proc.devRef (τ := τ) .tc main_arg3 ∉ op.writes := by
  intro op hop
  simp only [hostOps1_4, List.mem_cons, List.mem_nil_iff, or_false] at hop
  rcases hop with rfl | rfl | rfl | rfl | rfl | rfl | rfl | rfl | rfl | rfl | rfl | rfl
  all_goals simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem nowrite_main_arg3_hostOps1_5 : ∀ op ∈ (hostOps1_5 : List (HloOp τ sig (Elt F))), Proc.devRef (τ := τ) .tc main_arg3 ∉ op.writes := by
  intro op hop
  simp only [hostOps1_5, List.mem_cons, List.mem_nil_iff, or_false] at hop
  rcases hop with rfl | rfl | rfl
  all_goals simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem nowrite_main_arg3_hostOps1_6 : ∀ op ∈ (hostOps1_6 : List (HloOp τ sig (Elt F))), Proc.devRef (τ := τ) .tc main_arg3 ∉ op.writes := by
  intro op hop
  simp only [hostOps1_6, List.mem_cons, List.mem_nil_iff, or_false] at hop
  rcases hop with rfl | rfl | rfl | rfl | rfl | rfl | rfl | rfl | rfl
  all_goals simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem nowrite_main_arg3_hostOps1_7 : ∀ op ∈ (hostOps1_7 : List (HloOp τ sig (Elt F))), Proc.devRef (τ := τ) .tc main_arg3 ∉ op.writes := by
  intro op hop
  simp only [hostOps1_7, List.mem_cons, List.mem_nil_iff, or_false] at hop
  rcases hop with rfl
  all_goals simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem nowrite_main_arg3_hostOps1_8 : ∀ op ∈ (hostOps1_8 : List (HloOp τ sig (Elt F))), Proc.devRef (τ := τ) .tc main_arg3 ∉ op.writes := by
  intro op hop
  simp only [hostOps1_8, List.mem_cons, List.mem_nil_iff, or_false] at hop
  rcases hop with rfl | rfl | rfl | rfl | rfl | rfl | rfl | rfl | rfl | rfl | rfl | rfl | rfl | rfl | rfl
  all_goals simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
/-- No later line writes `main_arg3`: it ends as launched. -/
theorem W_main_arg3 (dats : (p : Fin 1) → (c : Dev nD) → Dat τ (Elt F) Unit ℕ (UR sig nD τ) ℕ (cfgs p) c) (c : Dev nD) :
    Pipeline.afterTail₀ cfgs dats 0 (V0 m) tailOps c main_arg3 = m ((c : Thread nD τ).loc main_arg3) := by
  rw [tail_of_untouched m dats c main_arg3 (by decide) (by
    intro ops hops op hop
    simp only [tailOps, List.mem_cons, List.mem_nil_iff, or_false] at hops
    rcases hops with rfl | rfl | rfl | rfl | rfl | rfl | rfl | rfl | rfl
    · exact nowrite_main_arg3_hostOps1 op hop
    · exact nowrite_main_arg3_hostOps1_1 op hop
    · exact nowrite_main_arg3_hostOps1_2 op hop
    · exact nowrite_main_arg3_hostOps1_3 op hop
    · exact nowrite_main_arg3_hostOps1_4 op hop
    · exact nowrite_main_arg3_hostOps1_5 op hop
    · exact nowrite_main_arg3_hostOps1_6 op hop
    · exact nowrite_main_arg3_hostOps1_7 op hop
    · exact nowrite_main_arg3_hostOps1_8 op hop)]
  exact V_main_arg3 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, for any proof data whose array is the
    region-entry one and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- From a run whose post has every staged array at what the proof data give and every other unscoped buffer at what
    the later lines leave, the four argument arrays end as launched. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) tailOps))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).1 0).trans (((dats 0 c).arrAt_in 0 rfl _).trans ((hA c 0).trans (V_main_arg0 m c))),
    ((h c).1 1).trans (((dats 0 c).arrAt_in 1 rfl _).trans ((hA c 1).trans (V_main_arg1 m c))),
    ((h c).2 main_arg2 (Pipeline.mem_restRefs_of main_arg2 (by decide) (by decide))).trans (W_main_arg2 m dats c),
    ((h c).2 main_arg3 (Pipeline.mem_restRefs_of main_arg3 (by decide) (by decide))).trans (W_main_arg3 m dats c)⟩) h

/-! ## The staging memrefs and the scratch -/

/-- Each window's current staging memref at point `t`, as the pipeline passes it, and its wholeness. -/
abbrev ms0_0 (t : Fin cfg0.N) : Memref sig .tc .vmem S1x778x3 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x40000x3 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1x778 .f32 := win0_2.stage (cfg0.slots t 2)
abbrev hs0_2 (t : Fin cfg0.N) : (ms0_2 t).IsWhole := hstage0_2 ((cfg0.slots t 2).cast nbuf0_2)
/-- The scratch operand: a whole scoped buffer of the kernel's own, rewritten from the top at every point. -/
abbrev scM0_0 : Memref sig .tc .vmem S1x778 .f32 := Memref.whole cc0_scratch0
/-- One staging buffer of the output window, through which its contents are stated. -/
abbrev VO0_2 : View sig .tc .vmem S1x1x778 .f32 := (Memref.whole cc0_stg2_0 : Memref sig .tc .vmem S1x1x778 .f32).view

/-- The region invariant — the scoped rest at anything and the generator register at some state — with the scratch
    as a memref owned at some contents. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.KernelIdeal.Hand

end
-- ==== Proof.Tail.lean ====
/-
  The host tail shared by the two programs: from the per-vertex distances d : [8,778] and the
  contact distances cd : [8,10] to the six scalar results, as pure functions at the ideal
  instance.  Each function is the composition of the pure operations in the order the programs
  apply them, with the same literal words; every shape relation the operations need is a field
  of `Facts`, so two instantiations of it are equal by proof irrelevance.
-/
import Idealize.ShloMosaic.PureOps
import Idealize.ShloMosaic.PureOps.Ideal

noncomputable section

namespace Cert.Tail

open Idealize.ShloMosaic

abbrev S_ : Shape := ⟨0, ![]⟩
abbrev S8x778 : Shape := ⟨2, ![8, 778]⟩
abbrev S8x10 : Shape := ⟨2, ![8, 10]⟩

/-- The shape relations the tail's operations take as evidence. -/
structure Facts : Prop where
  bcast778 : S_.BroadcastsInDim S8x778 (![] : Fin 0 → Fin S8x778.rank)
  bcast10 : S_.BroadcastsInDim S8x10 (![] : Fin 0 → Fin S8x10.rank)
  red778 : S8x778.ReducesTo [0, 1] S_
  red10 : S8x10.ReducesTo [0, 1] S_
  hS : 0 < S_.numel
  lt : 1 < 32

variable (h : Facts)

/-- The vertices closer than 5.0e-3: d < 5.0e-3 (ordered less-than), one bit per vertex. -/
def penMask (d : FVec Ideal S8x778 .f32) : IVec S8x778 1 :=
  cmpf .olt d (broadcastInDim S8x778 ![] h.bcast778 (constant S_ .f32 0x3BA3D70A#32))

/-- (5.0e-3 - d)², per vertex. -/
def penSq (d : FVec Ideal S8x778 .f32) : FVec Ideal S8x778 .f32 :=
  mulf (subf (broadcastInDim S8x778 ![] h.bcast778 (constant S_ .f32 0x3BA3D70A#32)) d)
    (subf (broadcastInDim S8x778 ![] h.bcast778 (constant S_ .f32 0x3BA3D70A#32)) d)

/-- How many vertices the mask holds, as a 32-bit integer: the sum of the zero-extended bits from 0. -/
def penCount (d : FVec Ideal S8x778 .f32) : IVec S_ 32 :=
  Host.reduce IntOp.addi (extui 32 (penMask h d) h.lt) (constantI S_ 32 0#32) h.red778 h.hS

/-- The sum over the masked vertices of (5.0e-3 - d)²: the unmasked ones replaced by 0, summed from 0. -/
def penSum (d : FVec Ideal S8x778 .f32) : FVec Ideal S_ .f32 :=
  Host.reduceAdd
    (select (penMask h d) (penSq h d)
      (broadcastInDim S8x778 ![] h.bcast778 (id (constant S_ .f32 0x00000000#32))))
    (constant S_ .f32 0x00000000#32) h.red778 h.hS

/-- The masked mean of (5.0e-3 - d)² over the vertices closer than 5.0e-3, or 0 when there is none:
    select(count > 0, sum / float(max(count, 1)), 0). -/
def penLoss (d : FVec Ideal S8x778 .f32) : FVec Ideal S_ .f32 :=
  select (cmpi .sgt (penCount h d) (constantI S_ 32 0#32))
    (Host.divf (penSum h d) (sitofp .f32 (maxsi (penCount h d) (constantI S_ 32 1#32))))
    (constant S_ .f32 0x00000000#32)

/-- The contact vertices whose distance is in the open interval (5.0e-3, 0.01), one bit each. -/
def attMask (cd : FVec Ideal S8x10 .f32) : IVec S8x10 1 :=
  andi (cmpf .ogt cd (broadcastInDim S8x10 ![] h.bcast10 (constant S_ .f32 0x3BA3D70A#32)))
    (cmpf .olt cd (broadcastInDim S8x10 ![] h.bcast10 (constant S_ .f32 0x3C23D70A#32)))

/-- How many contact vertices the mask holds. -/
def attCount (cd : FVec Ideal S8x10 .f32) : IVec S_ 32 :=
  Host.reduce IntOp.addi (extui 32 (attMask h cd) h.lt) (constantI S_ 32 0#32) h.red10 h.hS

/-- The sum over the masked contact vertices of cd². -/
def attSum (cd : FVec Ideal S8x10 .f32) : FVec Ideal S_ .f32 :=
  Host.reduceAdd
    (select (attMask h cd) (mulf cd cd)
      (broadcastInDim S8x10 ![] h.bcast10 (id (constant S_ .f32 0x00000000#32))))
    (constant S_ .f32 0x00000000#32) h.red10 h.hS

/-- The masked mean of cd² over the masked contact vertices, or 0 when there is none. -/
def attLoss (cd : FVec Ideal S8x10 .f32) : FVec Ideal S_ .f32 :=
  select (cmpi .sgt (attCount h cd) (constantI S_ 32 0#32))
    (Host.divf (attSum h cd) (sitofp .f32 (maxsi (attCount h cd) (constantI S_ 32 1#32))))
    (constant S_ .f32 0x00000000#32)

/-- 100 · penLoss + 10 · attLoss. -/
def contactLoss (d : FVec Ideal S8x778 .f32) (cd : FVec Ideal S8x10 .f32) : FVec Ideal S_ .f32 :=
  addf (mulf (constant S_ .f32 0x42C80000#32) (penLoss h d))
    (mulf (constant S_ .f32 0x41200000#32) (attLoss h cd))

/-- The mean distance: the sum of d from 0, divided by 6224 = 8 · 778. -/
def distMean (d : FVec Ideal S8x778 .f32) : FVec Ideal S_ .f32 :=
  Host.divf (Host.reduceAdd d (constant S_ .f32 0x00000000#32) h.red778 h.hS)
    (constant S_ .f32 0x45C28000#32)

/-- The number of masked contact vertices. -/
def numContacts (cd : FVec Ideal S8x10 .f32) : IVec S_ 32 :=
  Host.reduce IntOp.addi (extui 32 (attMask h cd) h.lt) (constantI S_ 32 0#32) h.red10 h.hS

/-- The number of vertices closer than 5.0e-3. -/
def numPen (d : FVec Ideal S8x778 .f32) : IVec S_ 32 :=
  Host.reduce IntOp.addi (extui 32 (penMask h d) h.lt) (constantI S_ 32 0#32) h.red778 h.hS

end Cert.Tail
-- ==== Proof.KernelTailDefs.lean ====
/-
  The quantities the lines after the region compute from the region's result array: d, the result array [8,1,778]
  re-laid as [8,778], and cd, the gather of d at the contact vertices' start indices, which the program computes from
  its literal table; and the shared tail's shape relations, from the kernel program's own facts.
-/
import proofs.«164913_j87385404604975_2_alg».proof.Proof.KernelIdeal.Kit
import proofs.«164913_j87385404604975_2_alg».proof.Proof.Tail

set_option maxRecDepth 16384

noncomputable section

namespace Cert.KernelIdeal.Hand

open Idealize.ShloMosaic Idealize.ShloMosaic.TcCoe Idealize.ShloMosaic.StableHlo Idealize.SL.Sem
open Cert.KernelIdeal Cert.KernelIdeal.Gen

/-- The shape relations of the shared tail, from the kernel program's own facts. -/
theorem tailFacts : Cert.Tail.Facts :=
  ⟨Facts₀.bcast_S_S8x778, Facts₀.bcast_S_S8x10, Facts₀.reducesTo_S8x778_S_d0_1, Facts₀.reducesTo_S8x10_S_d0_1, Facts₀.h_S_, Facts₀.natLt_1_32⟩

/-- The distances as an [8,778] array: the region's result array [8,1,778] re-laid. -/
def kDists (A : FVec Ideal S8x1x778 .f32) : FVec Ideal S8x778 .f32 :=
  shapeCast S8x778 A Facts₀.shapeCasts_S8x1x778_S8x778

/-- The gather's start indices, as the program computes them from the table `c` of contact vertices: a negative
    entry moved up by 778, the entries as a column. -/
def startIdxOf (c : IVec S10 32) : IVec S10x1 32 :=
  broadcastInDim S10x1 ![0] Facts₀.bcast_S10_S10x1_0
    (select (cmpi .slt c (broadcastInDim S10 ![] Facts₀.bcast_S_S10 (constantI S_ 32 0#32)))
      (addi c (broadcastInDim S10 ![] Facts₀.bcast_S_S10 (constantI S_ 32 778#32))) c)

/-- The contact distances: the distances gathered at the start indices. -/
def kContact (d : FVec Ideal S8x778 .f32) (c : IVec S10 32) : FVec Ideal S8x10 .f32 :=
  Host.gather gather_S8x778_S10x1_S8x10_0_1_n_n_1_1_81 d (startIdxOf c)

end Cert.KernelIdeal.Hand

end
-- ==== Proof.KernelTailA.lean ====
/-
  The lines after the region, read back: from any buffer contents `W` at the region's exit, a result buffer after the
  later lines is the shared tail's function of d and cd (the outlined selects' transports along equal types removed).
-/
import proofs.«164913_j87385404604975_2_alg».proof.Proof.KernelTailDefs
import Idealize.ShloMosaic.Lib.StableHlo.Run

set_option maxRecDepth 16384

noncomputable section

namespace Cert.KernelIdeal.Hand

open Idealize.ShloMosaic Idealize.ShloMosaic.TcCoe Idealize.ShloMosaic.StableHlo Idealize.SL.Sem
open Cert.KernelIdeal Cert.KernelIdeal.Gen

variable (W : Valuation τ sig (Elt Ideal))

set_option maxHeartbeats 4000000 in
theorem tail_v40 : StableHlo.after (List.flatten (tailOps (F := Ideal))) W (Proc.devRef .tc main_v40)
    = Cert.Tail.contactLoss tailFacts (kDists (W (Proc.devRef .tc main_v0))) (kContact (kDists (W (Proc.devRef .tc main_v0))) (W (Proc.devRef .tc main_c))) := by
  simp only [tailOps, hostOps1, hostOps1_1, hostOps1_2, hostOps1_3, hostOps1_4, hostOps1_5, hostOps1_6, hostOps1_7, hostOps1_8, List.flatten_cons, List.flatten_nil, List.append_nil, List.cons_append, List.nil_append]
  after_results_simp
  simp only [TRef.ofBuf, TRef.toBuf, cast_eq]
  unfold Cert.Tail.contactLoss Cert.Tail.penLoss Cert.Tail.attLoss Cert.Tail.penSum Cert.Tail.penCount Cert.Tail.penSq Cert.Tail.penMask Cert.Tail.attSum Cert.Tail.attCount Cert.Tail.attMask kContact kDists startIdxOf
  rfl

set_option maxHeartbeats 4000000 in
theorem tail_v22 : StableHlo.after (List.flatten (tailOps (F := Ideal))) W (Proc.devRef .tc main_v22)
    = Cert.Tail.penLoss tailFacts (kDists (W (Proc.devRef .tc main_v0))) := by
  simp only [tailOps, hostOps1, hostOps1_1, hostOps1_2, hostOps1_3, hostOps1_4, hostOps1_5, hostOps1_6, hostOps1_7, hostOps1_8, List.flatten_cons, List.flatten_nil, List.append_nil, List.cons_append, List.nil_append]
  after_results_simp
  simp only [TRef.ofBuf, TRef.toBuf, cast_eq]
  unfold Cert.Tail.penLoss Cert.Tail.penSum Cert.Tail.penCount Cert.Tail.penSq Cert.Tail.penMask kDists
  rfl

set_option maxHeartbeats 4000000 in
theorem tail_v37 : StableHlo.after (List.flatten (tailOps (F := Ideal))) W (Proc.devRef .tc main_v37)
    = Cert.Tail.attLoss tailFacts (kContact (kDists (W (Proc.devRef .tc main_v0))) (W (Proc.devRef .tc main_c))) := by
  simp only [tailOps, hostOps1, hostOps1_1, hostOps1_2, hostOps1_3, hostOps1_4, hostOps1_5, hostOps1_6, hostOps1_7, hostOps1_8, List.flatten_cons, List.flatten_nil, List.append_nil, List.cons_append, List.nil_append]
  after_results_simp
  simp only [TRef.ofBuf, TRef.toBuf, cast_eq]
  unfold Cert.Tail.attLoss Cert.Tail.attSum Cert.Tail.attCount Cert.Tail.attMask kContact kDists startIdxOf
  rfl

end Cert.KernelIdeal.Hand

end
-- ==== Proof.KernelTailB.lean ====
/-
  The lines after the region, read back: from any buffer contents `W` at the region's exit, a result buffer after the
  later lines is the shared tail's function of d and cd (the outlined selects' transports along equal types removed).
-/
import proofs.«164913_j87385404604975_2_alg».proof.Proof.KernelTailDefs
import Idealize.ShloMosaic.Lib.StableHlo.Run

set_option maxRecDepth 16384

noncomputable section

namespace Cert.KernelIdeal.Hand

open Idealize.ShloMosaic Idealize.ShloMosaic.TcCoe Idealize.ShloMosaic.StableHlo Idealize.SL.Sem
open Cert.KernelIdeal Cert.KernelIdeal.Gen

variable (W : Valuation τ sig (Elt Ideal))

set_option maxHeartbeats 4000000 in
theorem tail_v42 : StableHlo.after (List.flatten (tailOps (F := Ideal))) W (Proc.devRef .tc main_v42)
    = Cert.Tail.distMean tailFacts (kDists (W (Proc.devRef .tc main_v0))) := by
  simp only [tailOps, hostOps1, hostOps1_1, hostOps1_2, hostOps1_3, hostOps1_4, hostOps1_5, hostOps1_6, hostOps1_7, hostOps1_8, List.flatten_cons, List.flatten_nil, List.append_nil, List.cons_append, List.nil_append]
  after_results_simp
  try simp only [TRef.ofBuf, TRef.toBuf, cast_eq]
  unfold Cert.Tail.distMean kDists
  rfl

set_option maxHeartbeats 4000000 in
theorem tail_v44 : StableHlo.after (List.flatten (tailOps (F := Ideal))) W (Proc.devRef .tc main_v44)
    = Cert.Tail.numContacts tailFacts (kContact (kDists (W (Proc.devRef .tc main_v0))) (W (Proc.devRef .tc main_c))) := by
  simp only [tailOps, hostOps1, hostOps1_1, hostOps1_2, hostOps1_3, hostOps1_4, hostOps1_5, hostOps1_6, hostOps1_7, hostOps1_8, List.flatten_cons, List.flatten_nil, List.append_nil, List.cons_append, List.nil_append]
  after_results_simp
  try simp only [TRef.ofBuf, TRef.toBuf, cast_eq]
  unfold Cert.Tail.numContacts Cert.Tail.attMask kContact kDists startIdxOf
  rfl

set_option maxHeartbeats 4000000 in
theorem tail_v46 : StableHlo.after (List.flatten (tailOps (F := Ideal))) W (Proc.devRef .tc main_v46)
    = Cert.Tail.numPen tailFacts (kDists (W (Proc.devRef .tc main_v0))) := by
  simp only [tailOps, hostOps1, hostOps1_1, hostOps1_2, hostOps1_3, hostOps1_4, hostOps1_5, hostOps1_6, hostOps1_7, hostOps1_8, List.flatten_cons, List.flatten_nil, List.append_nil, List.cons_append, List.nil_append]
  after_results_simp
  try simp only [TRef.ofBuf, TRef.toBuf, cast_eq]
  unfold Cert.Tail.numPen Cert.Tail.penMask kDists
  rfl

end Cert.KernelIdeal.Hand

end
-- ==== Proof.KernelIdeal.Run.lean ====
/-
  The kernel body run once, symbolically, on any whole staging memrefs: with the hand block and the object block at
  their contents, the output block's buffer and the scratch at anything, the body runs to its end, leaves both inputs as
  they were, and leaves in the output buffer and in the scratch the stores it made, as pieces (last first) found by the run.
-/
import proofs.«164913_j87385404604975_2_alg».proof.Proof.KernelIdeal.Kit

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the body's stores leave in the output block's buffer and in the scratch, with the body's triple. -/
noncomputable def kernelRun0 (c : Dev nD) (i : grid0.Coords) (arg1 : Memref sig .tc .vmem S1x778x3 .f32) (harg1 : arg1.IsWhole) (arg2 : Memref sig .tc .vmem S1x40000x3 .f32) (harg2 : arg2.IsWhole) (arg3 : Memref sig .tc .vmem S1x1x778 .f32) (harg3 : arg3.IsWhole) (arg4 : Memref sig .tc .vmem S1x778 .f32) (harg4 : arg4.IsWhole)
    (x0 : Vec F S1x778x3 .f32) (x1 : Vec F S1x40000x3 .f32) :
    Σ' (L2 : List (View.Piece (Elt F) S1x1x778 .f32)), { LS0 : List (View.Piece (Elt F) S1x778 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d)
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f LS0)) -∗ K ⟨⟩))
          ⊢ wp frame (wpE (defs₀ (F := F)) Variants.none c none) E (cc0__min_dist_kernel i arg1 harg1 arg2 harg2 arg3 harg3 arg4 harg4) K } := by
  refine ⟨?_, ?_, fun E K => ?run⟩
  case run =>
    simp only [cc0__min_dist_kernel_eq_skeleton]; unfold cc0__min_dist_kernel_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton]
    unfold owns
    iintro ⟨⟨%f0, %hf0, H0⟩, ⟨%f1, %hf1, H1⟩, ⟨%d2, %f2, -, H2⟩, ⟨%ds0, %fs0, -, HS0⟩, Hk⟩
    obtain rfl := harg1.eq_unread hf0; obtain rfl := harg2.eq_unread hf1
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    iexists _; iexact HS0

end Cert.KernelIdeal.Hand

end
-- ==== Proof.KernelIdeal.Frame.lean ====
/-
  The frame of the kernel program. The output block's buffer after the body is the run's stores read back (they cover
  the block); the proof data say: each input window's buffer holds its block, the output window's the body's result at
  the point's two input blocks, the invariant is the scoped rest (the scratch at anything: the body rewrites it from the
  top at every point) with the generator register; the body obligation is the one symbolic run at a generic point; the
  launch theorem for a region followed by host lines then gives the run, and its post read at the four arguments the
  frame claim.
-/
import proofs.«164913_j87385404604975_2_alg».proof.Proof.KernelIdeal.Run

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The run's pieces for the output block tile it, so they cover it. -/
theorem cover0_2 (c : Dev nD) (i : grid0.Coords) (arg1 : Memref sig .tc .vmem S1x778x3 .f32) (harg1 : arg1.IsWhole) (arg2 : Memref sig .tc .vmem S1x40000x3 .f32) (harg2 : arg2.IsWhole) (arg3 : Memref sig .tc .vmem S1x1x778 .f32) (harg3 : arg3.IsWhole) (arg4 : Memref sig .tc .vmem S1x778 .f32) (harg4 : arg4.IsWhole)
    (x0 : Vec F S1x778x3 .f32) (x1 : Vec F S1x40000x3 .f32) (y : S1x1x778.Idx) :
    ∃ pc ∈ (kernelRun0 c i arg1 harg1 arg2 harg2 arg3 harg3 arg4 harg4 x0 x1).1, y ∈ pc.1.set :=
  View.cover_of_tiledL (kernelRun0 c i arg1 harg1 arg2 harg2 arg3 harg3 arg4 harg4 x0 x1).1 S1x1x778.size (by sl_kernel_rfl) y

/-- What the body leaves in the output block's buffer: its pieces read back. -/
def out0_2 (c : Dev nD) (i : grid0.Coords) (arg1 : Memref sig .tc .vmem S1x778x3 .f32) (harg1 : arg1.IsWhole) (arg2 : Memref sig .tc .vmem S1x40000x3 .f32) (harg2 : arg2.IsWhole) (arg3 : Memref sig .tc .vmem S1x1x778 .f32) (harg3 : arg3.IsWhole) (arg4 : Memref sig .tc .vmem S1x778 .f32) (harg4 : arg4.IsWhole)
    (x0 : Vec F S1x778x3 .f32) (x1 : Vec F S1x40000x3 .f32) : Vec F S1x1x778 .f32 :=
  VO0_2.read (Elt F) (VO0_2.writes (Elt F) VO0_2.junk (kernelRun0 c i arg1 harg1 arg2 harg2 arg3 harg3 arg4 harg4 x0 x1).1)

/-! ## The pipeline's proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => out0_2 c (grid0.coords t) (ms0_0 t) (hs0_0 t) (ms0_1 t) (hs0_1 t) (ms0_2 t) (hs0_2 t) scM0_0 (Memref.isWhole_whole _) (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = out0_2 c (grid0.coords t) (ms0_0 t) (hs0_0 t) (ms0_1 t) (hs0_1 t) (ms0_2 t) (hs0_2 t) scM0_0 (Memref.isWhole_whole _) (iblk m c 0 t) (iblk m c 1 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

set_option maxHeartbeats 4000000 in
/-- The body at any point: the inputs' memrefs hold their blocks, so the run applies; the invariant lends the scratch at
    anything and takes it back at anything; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl,
    after0_0, after0_1, after0_2, PhiA0_eq]
  unfold out0_2
  iintro ⟨⟨HS0, Hg⟩, Ho, ⟨%d0, H0⟩, ⟨%d1, H1⟩, ⟨%d2, H2⟩⟩
  iapply ((kernelRun0 c (grid0.coords t) _ _ _ _ _ _ _ _ (iblk m c 0 t) (iblk m c 1 t)).2.2 Set.univ _)
  isplitl [H0]; · iexact H0
  isplitl [H1]; · iexact H1
  isplitl [H2]; · iexists _; iexact H2
  isplitl [HS0]; · iexact HS0
  iintro ⟨H0, H1, ⟨%e2, H2⟩, ⟨%es0, HS0⟩⟩
  isplitl [HS0 Hg]
  · isplitl [HS0]
    · iexists _; unfold owns; iexists _; isplitr
      swap; · iexact HS0
      ipureintro; rfl
    iexact Hg
  isplitl [Ho]; · iexact Ho
  isplitl [H0]; · iexact H0
  isplitl [H1]; · iexact H1
  unfold owns; iexists _; isplitr
  swap; · iexact H2
  ipureintro; exact View.read_writes_of_cover _ _ _ _ _ (cover0_2 c _ _ _ _ _ _ _ _ _ _ _)

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, and every final state has every staged array at what the proof
    data give and every other unscoped buffer as the lines after the region leave it. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hΦ := fun _ _ => rfl)

/-- The frame: the program runs to the end without a fault and its four argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.KernelIdeal.Hand

end
-- ==== Proof.Spec.lean ====
/-
  The common specification of the two programs, over the extended reals.

  For a hand point `a` and an object point `b` (three coordinates each) the clipped squared distance is
  `max (|a|² + |b|² - 2·⟨a, b⟩) 0`; the distance from `a` to a cloud `b 0, …, b (M-1)` is the square root of the least
  clipped squared distance, the infimum over the cloud (the top element for an empty cloud). Both programs compute, for
  each batch entry and each hand vertex, this number against the whole object cloud of the batch entry; the contact
  distances are the same numbers at ten fixed hand vertices.
-/
import Idealize.ShloMosaic.PureOps.Ideal
import Idealize.ShloMosaic.Lib.ValueIdx

noncomputable section

namespace Cert.Spec

open Idealize.ShloMosaic

/-- The clipped squared distance of two points of three coordinates: `max (|a|² + |b|² - 2·⟨a, b⟩) 0`; the factor two
    is the f32 word of 2.0, kept as its word. -/
def d2 (a b : Fin 3 → EReal) : EReal :=
  max ((∑ d, a d * a d) + (∑ d, b d * b d) - Ideal.ofBits .f32 0x40000000#32 * ∑ d, a d * b d) 0

/-- The distance from the point `a` to the nearest of the `M` points `b`: the root of the least clipped squared
    distance. -/
def minDist {M : ℕ} (a : Fin 3 → EReal) (b : Fin M → Fin 3 → EReal) : EReal :=
  Ideal.sqrt (Finset.univ.inf fun k : Fin M => d2 a (b k))

/-- The ten hand vertices at which contact is measured. -/
def cidx : Fin 10 → Fin 778 := ![745, 317, 444, 556, 673, 95, 182, 234, 279, 320]

end Cert.Spec

end
-- ==== Proof.BodyOut.lean ====
/-
  The output block of the kernel's body as a composition of the body's pure payloads.

  The body keeps a running minimum over the hand vertices in a scratch row. The row starts at the top
  element; each of the twenty chunks of 2000 object points lowers it to the minimum of its current
  value and the chunk's column minimum of the clipped squared distances; the output is the square
  root of the final row. The twenty steps are the same mathematics spelt in different groupings of the
  same operations, so each step is named here exactly as the body's data flow composes it.
-/
import proofs.«164913_j87385404604975_2_alg».proof.Proof.Gen.KernelIdeal.Skeleton
import proofs.«164913_j87385404604975_2_alg».proof.Proof.Spec

noncomputable section

namespace Cert.KernelIdeal.Hand

open Idealize.ShloMosaic Idealize.SL.Sem Cert.KernelIdeal Cert.KernelIdeal.Gen

/-- The hand block as a [778,3] array. -/
abbrev hv1 (x0 : Vec Ideal S1x778x3 .f32) : FVec Ideal S778x3 .f32 := k0_pay3 x0
/-- The squared norms of the hand vertices. -/
abbrev hv3 (x0 : Vec Ideal S1x778x3 .f32) : FVec Ideal S778 .f32 := k0_pay4 x0

/-- The running minimum before any chunk: the top element everywhere. -/
def acc0 : FVec Ideal S1x778 .f32 := k0_pay5 (F := Ideal)
/-- The running minimum after chunk 0. -/
def acc1 (x0 : Vec Ideal S1x778x3 .f32) (ch : Fin 20 → Vec Ideal S1x2000x3 .f32) : FVec Ideal S1x778 .f32 :=
  k0_pay6 x0 (ch 0) acc0
/-- The running minimum after chunk 1. -/
def acc2 (x0 : Vec Ideal S1x778x3 .f32) (ch : Fin 20 → Vec Ideal S1x2000x3 .f32) : FVec Ideal S1x778 .f32 :=
  k0_pay7 (hv1 x0) (hv3 x0) (ch 1) (acc1 x0 ch)
/-- The running minimum after chunk 2. -/
def acc3 (x0 : Vec Ideal S1x778x3 .f32) (ch : Fin 20 → Vec Ideal S1x2000x3 .f32) : FVec Ideal S1x778 .f32 :=
  k0_pay10 (k0_pay8 (hv1 x0) (hv3 x0) (ch 2)) (k0_pay9 (F := Ideal)) (acc2 x0 ch)
/-- The running minimum after chunk 3. -/
def acc4 (x0 : Vec Ideal S1x778x3 .f32) (ch : Fin 20 → Vec Ideal S1x2000x3 .f32) : FVec Ideal S1x778 .f32 :=
  k0_pay11 (hv1 x0) (hv3 x0) (ch 3) (acc3 x0 ch)
/-- The running minimum after chunk 4. -/
def acc5 (x0 : Vec Ideal S1x778x3 .f32) (ch : Fin 20 → Vec Ideal S1x2000x3 .f32) : FVec Ideal S1x778 .f32 :=
  k0_pay12 (hv1 x0) (hv3 x0) (ch 4) (acc4 x0 ch)
/-- The running minimum after chunk 5. -/
def acc6 (x0 : Vec Ideal S1x778x3 .f32) (ch : Fin 20 → Vec Ideal S1x2000x3 .f32) : FVec Ideal S1x778 .f32 :=
  k0_pay14 (k0_pay13 (hv1 x0) (hv3 x0) (ch 5)) (acc5 x0 ch)
/-- The running minimum after chunk 6. -/
def acc7 (x0 : Vec Ideal S1x778x3 .f32) (ch : Fin 20 → Vec Ideal S1x2000x3 .f32) : FVec Ideal S1x778 .f32 :=
  k0_pay15 (hv1 x0) (hv3 x0) (ch 6) (acc6 x0 ch)
/-- The running minimum after chunk 7. -/
def acc8 (x0 : Vec Ideal S1x778x3 .f32) (ch : Fin 20 → Vec Ideal S1x2000x3 .f32) : FVec Ideal S1x778 .f32 :=
  k0_pay18 (hv1 x0) (hv3 x0) (k0_pay16 (ch 7)) (k0_pay17 (ch 7)) (acc7 x0 ch)
/-- The running minimum after chunk 8. -/
def acc9 (x0 : Vec Ideal S1x778x3 .f32) (ch : Fin 20 → Vec Ideal S1x2000x3 .f32) : FVec Ideal S1x778 .f32 :=
  k0_pay20 (k0_pay19 (hv1 x0) (hv3 x0) (ch 8)) (acc8 x0 ch)
/-- The running minimum after chunk 9. -/
def acc10 (x0 : Vec Ideal S1x778x3 .f32) (ch : Fin 20 → Vec Ideal S1x2000x3 .f32) : FVec Ideal S1x778 .f32 :=
  k0_pay21 (hv1 x0) (hv3 x0) (ch 9) (acc9 x0 ch)
/-- The running minimum after chunk 10. -/
def acc11 (x0 : Vec Ideal S1x778x3 .f32) (ch : Fin 20 → Vec Ideal S1x2000x3 .f32) : FVec Ideal S1x778 .f32 :=
  k0_pay24 (hv1 x0) (hv3 x0) (k0_pay22 (ch 10)) (k0_pay23 (ch 10)) (acc10 x0 ch)
/-- The running minimum after chunk 11. -/
def acc12 (x0 : Vec Ideal S1x778x3 .f32) (ch : Fin 20 → Vec Ideal S1x2000x3 .f32) : FVec Ideal S1x778 .f32 :=
  k0_pay26 (k0_pay25 (hv1 x0) (hv3 x0) (ch 11) (acc11 x0 ch))
/-- The running minimum after chunk 12. -/
def acc13 (x0 : Vec Ideal S1x778x3 .f32) (ch : Fin 20 → Vec Ideal S1x2000x3 .f32) : FVec Ideal S1x778 .f32 :=
  k0_pay27 (hv1 x0) (hv3 x0) (ch 12) (acc12 x0 ch)
/-- The running minimum after chunk 13. -/
def acc14 (x0 : Vec Ideal S1x778x3 .f32) (ch : Fin 20 → Vec Ideal S1x2000x3 .f32) : FVec Ideal S1x778 .f32 :=
  k0_pay32 (k0_pay29 (ch 13)) (k0_pay30 (hv1 x0) (ch 13)) (k0_pay31 (hv3 x0)) (acc13 x0 ch)
/-- The running minimum after chunk 14. -/
def acc15 (x0 : Vec Ideal S1x778x3 .f32) (ch : Fin 20 → Vec Ideal S1x2000x3 .f32) : FVec Ideal S1x778 .f32 :=
  k0_pay34 (k0_pay33 (hv1 x0) (hv3 x0) (ch 14) (acc14 x0 ch))
/-- The running minimum after chunk 15. -/
def acc16 (x0 : Vec Ideal S1x778x3 .f32) (ch : Fin 20 → Vec Ideal S1x2000x3 .f32) : FVec Ideal S1x778 .f32 :=
  k0_pay35 (hv1 x0) (hv3 x0) (ch 15) (acc15 x0 ch)
/-- The running minimum after chunk 16. -/
def acc17 (x0 : Vec Ideal S1x778x3 .f32) (ch : Fin 20 → Vec Ideal S1x2000x3 .f32) : FVec Ideal S1x778 .f32 :=
  k0_pay39 (k0_pay37 (hv1 x0) (ch 16)) (k0_pay38 (hv3 x0) (ch 16)) (acc16 x0 ch)
/-- The running minimum after chunk 17. -/
def acc18 (x0 : Vec Ideal S1x778x3 .f32) (ch : Fin 20 → Vec Ideal S1x2000x3 .f32) : FVec Ideal S1x778 .f32 :=
  k0_pay40 (hv1 x0) (hv3 x0) (ch 17) (acc17 x0 ch)
/-- The running minimum after chunk 18. -/
def acc19 (x0 : Vec Ideal S1x778x3 .f32) (ch : Fin 20 → Vec Ideal S1x2000x3 .f32) : FVec Ideal S1x778 .f32 :=
  k0_pay41 (hv1 x0) (hv3 x0) (ch 18) (acc18 x0 ch)
/-- The running minimum after chunk 19, the last. -/
def acc20 (x0 : Vec Ideal S1x778x3 .f32) (ch : Fin 20 → Vec Ideal S1x2000x3 .f32) : FVec Ideal S1x778 .f32 :=
  k0_pay1 (k0_pay43 (hv3 x0) (ch 19)) (k0_pay44 (hv1 x0) (ch 19)) (acc19 x0 ch)

/-- The output block: the square root of the final running minimum, as a [1,1,778] block. -/
def bodyOut (x0 : Vec Ideal S1x778x3 .f32) (ch : Fin 20 → Vec Ideal S1x2000x3 .f32) : FVec Ideal S1x1x778 .f32 :=
  k0_pay2 (acc20 x0 ch)

end Cert.KernelIdeal.Hand

end
-- ==== Proof.LibReadCovWhole.lean ====
/-
  A load through the whole shape of a buffer after a list of stores whose NEWEST store covers the whole shape (offsets
  zero, the shape's own sizes) reads that store's value, whatever the earlier stores were: a scratch row rewritten
  whole at every step and read back whole.
-/
import Idealize.ShloMosaic.Lib.Pipeline.Value

namespace Cert.LibReadCovWhole

open Idealize.ShloMosaic

variable {S : Shape} {e : EltTy} {Val : EltTy → Type}

/-- The newest piece covers the whole shape: the covered load through the whole shape reads its payload. -/
theorem readCov_cons_unit_zero [∀ e, Nonempty (Val e)] {sig : RefSig} {κ : Kind} {sp : Space}
    (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons_self, by
    show y ∈ (Rect.whole S).set; rw [Rect.set_whole]; exact Finset.mem_univ y⟩), View.canon_cons_unit_zero rfl,
    View.ld_unit_zero rfl]

end Cert.LibReadCovWhole
-- ==== Proof.KernelValue.lean ====
/-
  What the kernel body leaves in the output block, as a value: the body's stores, read back, are the running minimum
  over the twenty chunks of the object block followed by the square root. A chunk is the object block read through
  the rectangle of 2000 consecutive points starting at point 2000·k.
-/
import proofs.«164913_j87385404604975_2_alg».proof.Proof.KernelIdeal.Frame
import proofs.«164913_j87385404604975_2_alg».proof.Proof.BodyOut
import proofs.«164913_j87385404604975_2_alg».proof.Proof.LibReadCovWhole
import Idealize.ShloMosaic.Lib.Pipeline.Value

set_option maxRecDepth 16384

noncomputable section

namespace Cert.KernelIdeal.Hand

open Idealize.ShloMosaic Idealize.ShloMosaic.TcCoe Idealize.ShloMosaic.Tactic Idealize.SL.Sem
open Cert.KernelIdeal Cert.KernelIdeal.Gen

theorem hz3 : (![0, 0, 0] : Fin 3 → Nat) = fun _ => 0 := funext fun a => by fin_cases a <;> rfl
theorem hz2 : (![0, 0] : Fin 2 → Nat) = fun _ => 0 := funext fun a => by fin_cases a <;> rfl

/-- Chunk `k` of an object block: its points 2000·k … 2000·k + 1999. -/
def chunk (x1 : Vec Ideal S1x40000x3 .f32) (k : Fin 20) : Vec Ideal S1x2000x3 .f32 :=
  View.ld x1 (Rect.unit (s := S1x40000x3) (k0_off1 (BitVec.ofNat 32 k.val)) S1x2000x3.size (Facts₀.k0_off1_inb k))

set_option maxHeartbeats 4000000 in
set_option maxRecDepth 200000 in
/-- The output block after the body is the composed payloads of the hand block and the twenty chunks. -/
theorem out0_2_eq (c : Dev nD) (i : grid0.Coords) (arg1 : Memref sig .tc .vmem S1x778x3 .f32) (harg1 : arg1.IsWhole) (arg2 : Memref sig .tc .vmem S1x40000x3 .f32) (harg2 : arg2.IsWhole) (arg3 : Memref sig .tc .vmem S1x1x778 .f32) (harg3 : arg3.IsWhole) (arg4 : Memref sig .tc .vmem S1x778 .f32) (harg4 : arg4.IsWhole)
    (x0 : Vec Ideal S1x778x3 .f32) (x1 : Vec Ideal S1x40000x3 .f32) :
    out0_2 (F := Ideal) c i arg1 harg1 arg2 harg2 arg3 harg3 arg4 harg4 x0 x1 = bodyOut x0 (chunk x1) := by
  unfold out0_2
  rw [View.read_writes_eq_canon _ _ _ (cover0_2 c i arg1 harg1 arg2 harg2 arg3 harg3 arg4 harg4 x0 x1)]
  unfold kernelRun0
  dsimp only
  rw [View.canon_unit_zero (S := S1x1x778) hz3]
  sl_unfold_run_names
  simp only [View.readAt_eq_ld, harg1.read_unread, harg2.read_unread, View.ld_unit_zero (S := S1x778x3) hz3,
    Cert.LibReadCovWhole.readCov_cons_unit_zero (S := S1x778) _ hz2]
  unfold bodyOut acc20 acc19 acc18 acc17 acc16 acc15 acc14 acc13 acc12 acc11 acc10 acc9 acc8 acc7 acc6 acc5 acc4 acc3 acc2 acc1 acc0 hv1 hv3 chunk
  rfl

end Cert.KernelIdeal.Hand

end
-- ==== Proof.Spellings.lean ====
/-
  The twenty steps of the running minimum are one function.

  The body's unrolled loop is printed in parts that cut it at fixed statement counts, so a step's operations
  are grouped differently from step to step: sometimes the whole step is one payload, sometimes the chunk's cast,
  its squared norms, the inner products, the sum of the squared norms, the doubled inner products or the column
  minimum are computed by a payload of their own and handed to the payload that finishes the step. Each grouping
  composes the same operations in the same order on the same operands, so each is, by unfolding the definitions,
  the one-payload form of the step.
-/
import proofs.«164913_j87385404604975_2_alg».proof.Proof.Gen.KernelIdeal.Skeleton
import Idealize.ShloMosaic.Lib.ValueIdx

noncomputable section

namespace Cert.KernelIdeal.Hand

open Idealize.ShloMosaic Idealize.SL.Sem Idealize.ShloMosaic.ValueIdx Cert.KernelIdeal Cert.KernelIdeal.Gen

/-- The first step takes the hand block itself and computes its cast and squared norms inside. -/
theorem pay6_eq (x0 : Vec Ideal S1x778x3 .f32) (c : Vec Ideal S1x2000x3 .f32) (acc : Vec Ideal S1x778 .f32) :
    k0_pay6 x0 c acc = k0_pay7 (k0_pay3 x0) (k0_pay4 x0) c acc := rfl

/-- The same grouping as the one-payload form. -/
theorem pay11_eq (v1 : FVec Ideal S778x3 .f32) (v3 : FVec Ideal S778 .f32) (c : Vec Ideal S1x2000x3 .f32) (acc : Vec Ideal S1x778 .f32) :
    k0_pay11 v1 v3 c acc = k0_pay7 v1 v3 c acc := rfl

/-- The same grouping as the one-payload form. -/
theorem pay12_eq (v1 : FVec Ideal S778x3 .f32) (v3 : FVec Ideal S778 .f32) (c : Vec Ideal S1x2000x3 .f32) (acc : Vec Ideal S1x778 .f32) :
    k0_pay12 v1 v3 c acc = k0_pay7 v1 v3 c acc := rfl

/-- The same grouping as the one-payload form. -/
theorem pay15_eq (v1 : FVec Ideal S778x3 .f32) (v3 : FVec Ideal S778 .f32) (c : Vec Ideal S1x2000x3 .f32) (acc : Vec Ideal S1x778 .f32) :
    k0_pay15 v1 v3 c acc = k0_pay7 v1 v3 c acc := rfl

/-- The same grouping as the one-payload form. -/
theorem pay21_eq (v1 : FVec Ideal S778x3 .f32) (v3 : FVec Ideal S778 .f32) (c : Vec Ideal S1x2000x3 .f32) (acc : Vec Ideal S1x778 .f32) :
    k0_pay21 v1 v3 c acc = k0_pay7 v1 v3 c acc := rfl

/-- The same grouping as the one-payload form. -/
theorem pay27_eq (v1 : FVec Ideal S778x3 .f32) (v3 : FVec Ideal S778 .f32) (c : Vec Ideal S1x2000x3 .f32) (acc : Vec Ideal S1x778 .f32) :
    k0_pay27 v1 v3 c acc = k0_pay7 v1 v3 c acc := rfl

/-- The same grouping as the one-payload form. -/
theorem pay35_eq (v1 : FVec Ideal S778x3 .f32) (v3 : FVec Ideal S778 .f32) (c : Vec Ideal S1x2000x3 .f32) (acc : Vec Ideal S1x778 .f32) :
    k0_pay35 v1 v3 c acc = k0_pay7 v1 v3 c acc := rfl

/-- The same grouping as the one-payload form. -/
theorem pay40_eq (v1 : FVec Ideal S778x3 .f32) (v3 : FVec Ideal S778 .f32) (c : Vec Ideal S1x2000x3 .f32) (acc : Vec Ideal S1x778 .f32) :
    k0_pay40 v1 v3 c acc = k0_pay7 v1 v3 c acc := rfl

/-- The same grouping as the one-payload form. -/
theorem pay41_eq (v1 : FVec Ideal S778x3 .f32) (v3 : FVec Ideal S778 .f32) (c : Vec Ideal S1x2000x3 .f32) (acc : Vec Ideal S1x778 .f32) :
    k0_pay41 v1 v3 c acc = k0_pay7 v1 v3 c acc := rfl

/-- The differences of the squared norms and the doubled inner products, and the zero matrix, computed apart. -/
theorem pay10_eq (v1 : FVec Ideal S778x3 .f32) (v3 : FVec Ideal S778 .f32) (c : Vec Ideal S1x2000x3 .f32) (acc : Vec Ideal S1x778 .f32) :
    k0_pay10 (k0_pay8 v1 v3 c) (k0_pay9 (F := Ideal)) acc = k0_pay7 v1 v3 c acc := rfl

/-- The column minimum computed apart. -/
theorem pay14_eq (v1 : FVec Ideal S778x3 .f32) (v3 : FVec Ideal S778 .f32) (c : Vec Ideal S1x2000x3 .f32) (acc : Vec Ideal S1x778 .f32) :
    k0_pay14 (k0_pay13 v1 v3 c) acc = k0_pay7 v1 v3 c acc := rfl

/-- The chunk's cast and its entrywise square computed apart. -/
theorem pay18_eq (v1 : FVec Ideal S778x3 .f32) (v3 : FVec Ideal S778 .f32) (c : Vec Ideal S1x2000x3 .f32) (acc : Vec Ideal S1x778 .f32) :
    k0_pay18 v1 v3 (k0_pay16 c) (k0_pay17 c) acc = k0_pay7 v1 v3 c acc := rfl

/-- The column minimum, as a row, computed apart. -/
theorem pay20_eq (v1 : FVec Ideal S778x3 .f32) (v3 : FVec Ideal S778 .f32) (c : Vec Ideal S1x2000x3 .f32) (acc : Vec Ideal S1x778 .f32) :
    k0_pay20 (k0_pay19 v1 v3 c) acc = k0_pay7 v1 v3 c acc := rfl

/-- The chunk's cast and its squared norms as a column computed apart. -/
theorem pay24_eq (v1 : FVec Ideal S778x3 .f32) (v3 : FVec Ideal S778 .f32) (c : Vec Ideal S1x2000x3 .f32) (acc : Vec Ideal S1x778 .f32) :
    k0_pay24 v1 v3 (k0_pay22 c) (k0_pay23 c) acc = k0_pay7 v1 v3 c acc := rfl

/-- The whole step but its last identity cast computed apart. -/
theorem pay26_eq (v1 : FVec Ideal S778x3 .f32) (v3 : FVec Ideal S778 .f32) (c : Vec Ideal S1x2000x3 .f32) (acc : Vec Ideal S1x778 .f32) :
    k0_pay26 (k0_pay25 v1 v3 c acc) = k0_pay7 v1 v3 c acc := rfl

/-- The chunk's squared norms as a column, the inner products, and the hand's squared norms as a row computed apart. -/
theorem pay32_eq (v1 : FVec Ideal S778x3 .f32) (v3 : FVec Ideal S778 .f32) (c : Vec Ideal S1x2000x3 .f32) (acc : Vec Ideal S1x778 .f32) :
    k0_pay32 (k0_pay29 c) (k0_pay30 v1 c) (k0_pay31 v3) acc = k0_pay7 v1 v3 c acc := rfl

/-- The whole step but its last identity cast computed apart. -/
theorem pay34_eq (v1 : FVec Ideal S778x3 .f32) (v3 : FVec Ideal S778 .f32) (c : Vec Ideal S1x2000x3 .f32) (acc : Vec Ideal S1x778 .f32) :
    k0_pay34 (k0_pay33 v1 v3 c acc) = k0_pay7 v1 v3 c acc := rfl

/-- The inner products and the sum of the squared norms computed apart. -/
theorem pay39_eq (v1 : FVec Ideal S778x3 .f32) (v3 : FVec Ideal S778 .f32) (c : Vec Ideal S1x2000x3 .f32) (acc : Vec Ideal S1x778 .f32) :
    k0_pay39 (k0_pay37 v1 c) (k0_pay38 v3 c) acc = k0_pay7 v1 v3 c acc := rfl

/-- The sum of the squared norms and the doubled inner products computed apart. -/
theorem pay1_eq (v1 : FVec Ideal S778x3 .f32) (v3 : FVec Ideal S778 .f32) (c : Vec Ideal S1x2000x3 .f32) (acc : Vec Ideal S1x778 .f32) :
    k0_pay1 (k0_pay43 v3 c) (k0_pay44 v1 c) acc = k0_pay7 v1 v3 c acc := rfl

end Cert.KernelIdeal.Hand

end
-- ==== Proof.LibMinAxis0.lean ====
/-
  A general reading lemma: at the ideal values, the minimum of a matrix over its ROWS (axis 0), taken from +∞,
  is the infimum of each column; and the f32 word of +∞ is the greatest extended real.
-/
import Idealize.ShloMosaic.PureOps.Ideal
import Idealize.ShloMosaic.PureOps.Ideal.Laws
import Idealize.ShloMosaic.Lib.ValueIdx

noncomputable section

open Idealize.ShloMosaic Idealize.ShloMosaic.ValueIdx

namespace Cert.LibMinAxis0

/-- The f32 word `0x7F800000` denotes +∞, the greatest extended real. -/
theorem posInf_f32 : Ideal.ofBits .f32 0x7F800000#32 = (⊤ : EReal) := by
  simp [Ideal.ofBits, Ideal.ieee]

/-- A fold of `min` from the top element over a finite set is the infimum over the set. -/
theorem fold_min_top_eq_inf {ι : Type*} (s : Finset ι) (f : ι → EReal) : s.fold min ⊤ f = s.inf f := by
  classical
  induction s using Finset.induction_on with
  | empty => rw [Finset.fold_empty, Finset.inf_empty]
  | insert x s hx ih => rw [Finset.fold_insert hx, Finset.inf_insert, ih]

/-- A float `vector.multi_reduction <minimumf>` over one axis, read at the ideal values: the fold of `min` from the
    accumulator's value over that axis's coordinates. -/
theorem multiReduction_minimumf_single {φ : FTy} {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- A `vector.multi_reduction <minimumf>` of an f32 matrix [a, c] over its rows with accumulator +∞, read at
    column `o` at the ideal values, is the infimum over `k : Fin a` of the matrix at (k, o) — for any extents. -/
theorem minimumf_axis0_apply {a c : ℕ} (src : FVec Ideal ⟨2, ![a, c]⟩ .f32)
    (h : Shape.Reduces ⟨2, ![a, c]⟩ [0] ⟨1, ![c]⟩) (hφ : FKind.Formats .f32)
    (hacc : (0x7F800000#32 : BitVec 32) = FKind.minimumf.neutral .f32 hφ) (o : Fin c) :
    multiReduction .minimumf [0] ⟨1, ![c]⟩ src 0x7F800000#32 h hφ hacc (ix1 o)
      = (Finset.univ : Finset (Fin a)).inf (fun k => src (ix2 k o)) := by
  have inserted : ∀ k : Fin a, h.lift (ix1 o) k = ix2 k o := fun k =>
    funext fun ax => Fin.ext (by match ax with | ⟨0, _⟩ => rfl | ⟨1, _⟩ => rfl)
  refine (multiReduction_minimumf_single src _ h hφ hacc (ix1 o)).trans ?_
  refine (congrArg (fun t : EReal => (Finset.univ : Finset (Fin a)).fold min t (fun k => src (h.lift (ix1 o) k)))
    posInf_f32).trans ?_
  exact (fold_min_top_eq_inf _ _).trans (Finset.inf_congr rfl fun k _ => congrArg src (inserted k))

end Cert.LibMinAxis0

end
-- ==== Proof.LibKeepdimsCol.lean ====
/-
  Two layout operations read at an index given by coordinates, for any element type and any extents:
  the shape cast that appends a unit axis to a vector, and the broadcast of a one-column matrix along its rows.
  Together they are what a row statistic kept as a column (a sum over the last axis with the axis kept)
  looks like when it is spread back over a matrix.
-/
import Idealize.ShloMosaic.Lib.ValueLayout

namespace Cert.LibKeepdimsCol

open Idealize.ShloMosaic Idealize.ShloMosaic.ValueIdx

variable {α : Type}

/-- A vector of length `a` cast to an `a × 1` column reads, at `(i, u)`, the vector at `i`: both sit at
    row-major position `i`, whatever the unit coordinate `u`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `a × 1` column broadcast to `a × b` reads, at `(p, c)`, the column's entry in row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibKeepdimsCol
-- ==== Proof.LibMatmulRows.lean ====
/-
  A general reading lemma: at the ideal values, a matrix product that contracts the LAST axis of both operands
  (a product with the second operand transposed, [m, k] · [n, k]ᵀ), accumulated into the zero splat, read at an
  index, is the sum over the contracted coordinate of the products of the two rows' entries.
-/
import Idealize.ShloMosaic.PureOps.Ideal
import Idealize.ShloMosaic.PureOps.Ideal.Laws
import Idealize.ShloMosaic.Lib.ValueIdx

noncomputable section

open Idealize.ShloMosaic Idealize.ShloMosaic.ValueIdx

namespace Cert.LibMatmulRows

/-- A `tpu.matmul` of an [m, k] operand with an [n, k] operand, contracting axis 1 of both, into the f32 zero splat,
    read at (a, b) at the ideal values: the sum over `c : Fin k` of the first operand at (a, c) times the second at
    (b, c) — for any extents and operand formats. `w` is the record's well-formedness, which a program states. -/
theorem matmul_rows_apply {m n k : ℕ} {φ₁ φ₂ : FTy}
    (w : DotDims.WF ⟨2, ![m, k]⟩ ⟨2, ![n, k]⟩ ⟨2, ![m, n]⟩ [1] [1] [0] [0] [] [])
    (prec : Option ContractPrecision) (A : FVec Ideal ⟨2, ![m, k]⟩ φ₁) (B : FVec Ideal ⟨2, ![n, k]⟩ φ₂)
    (a : Fin m) (b : Fin n) :
    matmul (⟨[1], [1], [0], [0], [], [], w⟩ : DotDims _ _ _) prec A B (constant (F := Ideal) ⟨2, ![m, n]⟩ .f32 0x00000000#32) (ix2 a b)
      = ∑ c : Fin k, A (ix2 a c) * B (ix2 b c) := by
  show FloatOps.matmul _ prec A B (constant (F := Ideal) ⟨2, ![m, n]⟩ .f32 0x00000000#32) (ix2 a b) = _
  rw [Ideal.matmul_constant_zero_apply,
    ← Equiv.sum_comp (contrEquiv1 (⟨[1], [1], [0], [0], [], [], w⟩ : DotDims ⟨2, ![m, k]⟩ ⟨2, ![n, k]⟩ ⟨2, ![m, n]⟩) k rfl rfl).symm]
  refine Finset.sum_congr rfl fun c _ => ?_
  have c2 := contrEquiv1_symm_val
    (⟨[1], [1], [0], [0], [], [], w⟩ : DotDims ⟨2, ![m, k]⟩ ⟨2, ![n, k]⟩ ⟨2, ![m, n]⟩) k rfl rfl c
  have l2 : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

end Cert.LibMatmulRows

end
-- ==== Proof.ChunkStep.lean ====
/-
  One step of the running minimum, read at a hand vertex.

  A step takes the hand block's [778, 3] cast `v1`, the hand vertices' squared norms `v3`, a chunk `c` of 2000
  object points and the current row `acc` of running minima, and returns, at hand vertex `n`,
  `min (acc n) (inf over the chunk's points r of max (|c r|² + v3 n - 2·⟨c r, v1 n⟩) 0)`. With `v1` and `v3`
  the cast and the squared norms of the hand block itself this is the specification's clipped squared
  distance `d2 (hand n) (c r)`: the two differ by the order of the two squared norms in the sum and of the two
  factors in each product of the inner product, and addition and multiplication of extended reals commute
  (no finiteness is needed).
-/
import proofs.«164913_j87385404604975_2_alg».proof.Proof.Gen.KernelIdeal.Skeleton
import proofs.«164913_j87385404604975_2_alg».proof.Proof.Spec
import proofs.«164913_j87385404604975_2_alg».proof.Proof.LibMinAxis0
import proofs.«164913_j87385404604975_2_alg».proof.Proof.LibKeepdimsCol
import proofs.«164913_j87385404604975_2_alg».proof.Proof.LibMatmulRows
import Idealize.ShloMosaic.Lib.ValueLayout

noncomputable section

namespace Cert.KernelIdeal.Hand

open Idealize.ShloMosaic Idealize.SL.Sem Idealize.ShloMosaic.ValueIdx Cert.KernelIdeal Cert.KernelIdeal.Gen

/-! ## The pieces that are not pointwise, each read at an index -/

/-- The chunk's squared norms, kept as a column and spread over the [2000, 778] matrix: at (r, n) the squared
    norm of the chunk's point r. -/
theorem sqnorm_col_apply (b : FVec Ideal S2000x3 .f32) (r : Fin 2000) (n : Fin 778) :
    broadcastTo S2000x778
        (shapeCast S2000x1
          (multiReduction (F := Ideal) .add [1] S2000 (mulf b b) 0x00000000#32 reduces_S2000x3_S2000 (.inl rfl) rfl)
          shapeCasts_S2000_S2000x1)
        broadcasts_S2000x1_S2000x778 (ix2 r n)
      = ∑ d : Fin 3, b (ix2 r d) * b (ix2 r d) := by
  refine (Cert.LibKeepdimsCol.broadcastTo_a1_ab_apply _ _ r n).trans ?_
  refine (Cert.LibKeepdimsCol.shapeCast_a_a1_apply _ _ r 0).trans ?_
  refine (Ideal.multiReduction_add_single (mulf b b) _ reduces_S2000x3_S2000 _ _ (ix1 r)).trans ?_
  have inserted : ∀ d : Fin 3, reduces_S2000x3_S2000.lift (ix1 r) d = ix2 r d := fun d =>
    funext fun ax => Fin.ext (by match ax with | ⟨0, _⟩ => rfl | ⟨1, _⟩ => rfl)
  exact Finset.sum_congr rfl fun d _ =>
    congrArg₂ (fun x y : EReal => x * y) (congrArg b (inserted d)) (congrArg b (inserted d))

/-- The hand vertices' squared norms, as a row spread over the [2000, 778] matrix: at (r, n) the squared norm of
    hand vertex n. -/
theorem sqnorm_row_apply (v3 : FVec Ideal S778 .f32) (r : Fin 2000) (n : Fin 778) :
    broadcastTo S2000x778 (shapeCast S1x778 v3 shapeCasts_S778_S1x778) broadcasts_S1x778_S2000x778 (ix2 r n)
      = v3 (ix1 n) :=
  (broadcastTo_1b_ab_apply _ _ r n).trans (shapeCast_a_1a_apply v3 _ 0 n)

/-- The matrix of inner products of the chunk's points with the hand vertices: at (r, n) the inner product of
    point r and vertex n. -/
theorem inner_apply (b : FVec Ideal S2000x3 .f32) (v1 : FVec Ideal S778x3 .f32) (r : Fin 2000) (n : Fin 778) :
    matmul dot_S2000x3_S778x3_S2000x778_1_1_0_0_n_n none b v1 (constant (F := Ideal) S2000x778 .f32 0x00000000#32) (ix2 r n)
      = ∑ d : Fin 3, b (ix2 r d) * v1 (ix2 n d) :=
  Cert.LibMatmulRows.matmul_rows_apply _ none b v1 r n

/-- The clipped squared distances of a chunk, as the body computes them from the chunk's [2000, 3] cast `b`: at
    (r, n), `max (|b r|² + v3 n - 2·⟨b r, v1 n⟩) 0`. -/
theorem clipped_apply (b : FVec Ideal S2000x3 .f32) (v1 : FVec Ideal S778x3 .f32) (v3 : FVec Ideal S778 .f32)
    (r : Fin 2000) (n : Fin 778) :
    maximumf
        (subf
          (addf
            (broadcastTo S2000x778
              (shapeCast S2000x1
                (multiReduction (F := Ideal) .add [1] S2000 (mulf b b) 0x00000000#32 reduces_S2000x3_S2000 (.inl rfl) rfl)
                shapeCasts_S2000_S2000x1)
              broadcasts_S2000x1_S2000x778)
            (broadcastTo S2000x778 (shapeCast S1x778 v3 shapeCasts_S778_S1x778) broadcasts_S1x778_S2000x778))
          (mulf (broadcast S2000x778 (Scalar.ofBits (F := Ideal) .f32 0x40000000#32))
            (matmul dot_S2000x3_S778x3_S2000x778_1_1_0_0_n_n none b v1 (constant (F := Ideal) S2000x778 .f32 0x00000000#32))))
        (broadcast S2000x778 (Scalar.ofBits (F := Ideal) .f32 0x00000000#32)) (ix2 r n)
      = max ((∑ d : Fin 3, b (ix2 r d) * b (ix2 r d)) + v3 (ix1 n)
              - Ideal.ofBits .f32 0x40000000#32 * ∑ d : Fin 3, b (ix2 r d) * v1 (ix2 n d)) 0 :=
  congrArg₂ (fun x y : EReal => max x y)
    (congrArg₂ (fun x y : EReal => x - y)
      (congrArg₂ (fun x y : EReal => x + y) (sqnorm_col_apply b r n) (sqnorm_row_apply v3 r n))
      (congrArg (fun y : EReal => Ideal.ofBits .f32 0x40000000#32 * y) (inner_apply b v1 r n)))
    Ideal.ofBits_zero_f32

/-- The column minimum of a [2000, 778] matrix from +∞, kept as a row: at (0, n) the infimum of column n. -/
theorem colmin_apply (M : FVec Ideal S2000x778 .f32) (n : Fin 778) :
    shapeCast S1x778
        (multiReduction (F := Ideal) .minimumf [0] S778 M 0x7F800000#32 reduces_S2000x778_S778 (.inl rfl) rfl)
        shapeCasts_S778_S1x778 (ix2 (0 : Fin 1) n)
      = Finset.univ.inf fun r : Fin 2000 => M (ix2 r n) :=
  (shapeCast_a_1a_apply _ _ 0 n).trans (Cert.LibMinAxis0.minimumf_axis0_apply M _ _ _ n)

/-! ## The step -/

/-- One step of the running minimum at hand vertex `n`, over any cast `v1` and squared norms `v3`. -/
theorem pay7_apply (v1 : FVec Ideal S778x3 .f32) (v3 : FVec Ideal S778 .f32) (c : Vec Ideal S1x2000x3 .f32)
    (acc : Vec Ideal S1x778 .f32) (n : Fin 778) :
    k0_pay7 v1 v3 c acc (ix2 (0 : Fin 1) n)
      = min (acc (ix2 (0 : Fin 1) n))
          (Finset.univ.inf fun r : Fin 2000 =>
            max ((∑ d : Fin 3, c (ix3 (0 : Fin 1) r d) * c (ix3 (0 : Fin 1) r d)) + v3 (ix1 n)
                  - Ideal.ofBits .f32 0x40000000#32 * ∑ d : Fin 3, c (ix3 (0 : Fin 1) r d) * v1 (ix2 n d)) 0) := by
  unfold k0_pay7
  refine (congrFun (shapeCast_self _ _) _).trans ?_
  refine congrArg (min (acc (ix2 (0 : Fin 1) n))) ?_
  refine (colmin_apply _ n).trans ?_
  refine Finset.inf_congr rfl fun r _ => ?_
  refine (clipped_apply (shapeCast S2000x3 c shapeCasts_S1x2000x3_S2000x3) v1 v3 r n).trans ?_
  have hb : ∀ d : Fin 3, shapeCast S2000x3 c shapeCasts_S1x2000x3_S2000x3 (ix2 r d) = c (ix3 (0 : Fin 1) r d) :=
    fun d => shapeCast_1ab_ab_apply c _ r d
  simp only [hb]

/-- The hand block's [778, 3] cast at (n, d) is the block at (0, n, d). -/
theorem pay3_apply (x0 : Vec Ideal S1x778x3 .f32) (n : Fin 778) (d : Fin 3) :
    k0_pay3 x0 (ix2 n d) = x0 (ix3 (0 : Fin 1) n d) := by
  unfold k0_pay3
  exact shapeCast_1ab_ab_apply x0 _ n d

/-- The hand vertices' squared norms at n. -/
theorem pay4_apply (x0 : Vec Ideal S1x778x3 .f32) (n : Fin 778) :
    k0_pay4 x0 (ix1 n) = ∑ d : Fin 3, x0 (ix3 (0 : Fin 1) n d) * x0 (ix3 (0 : Fin 1) n d) := by
  unfold k0_pay4
  refine (Ideal.multiReduction_add_single (mulf (k0_pay3 x0) (k0_pay3 x0)) _ reduces_S778x3_S778 _ _ (ix1 n)).trans ?_
  have inserted : ∀ d : Fin 3, reduces_S778x3_S778.lift (ix1 n) d = ix2 n d := fun d =>
    funext fun ax => Fin.ext (by match ax with | ⟨0, _⟩ => rfl | ⟨1, _⟩ => rfl)
  exact Finset.sum_congr rfl fun d _ =>
    congrArg₂ (fun x y : EReal => x * y) ((congrArg (k0_pay3 x0) (inserted d)).trans (pay3_apply x0 n d))
      ((congrArg (k0_pay3 x0) (inserted d)).trans (pay3_apply x0 n d))

/-- One step of the running minimum at hand vertex `n`, for the hand block itself: the minimum of the current
    value and the least clipped squared distance from the vertex to the chunk's points. -/
theorem step_apply (x0 : Vec Ideal S1x778x3 .f32) (c : Vec Ideal S1x2000x3 .f32) (acc : Vec Ideal S1x778 .f32)
    (n : Fin 778) :
    k0_pay7 (k0_pay3 x0) (k0_pay4 x0) c acc (ix2 (0 : Fin 1) n)
      = min (acc (ix2 (0 : Fin 1) n))
          (Finset.univ.inf fun r : Fin 2000 =>
            Cert.Spec.d2 (fun d => x0 (ix3 (0 : Fin 1) n d)) (fun d => c (ix3 (0 : Fin 1) r d))) := by
  refine (pay7_apply (k0_pay3 x0) (k0_pay4 x0) c acc n).trans ?_
  refine congrArg (min (acc (ix2 (0 : Fin 1) n))) (Finset.inf_congr rfl fun r _ => ?_)
  unfold Cert.Spec.d2
  have hdot : (∑ d : Fin 3, c (ix3 (0 : Fin 1) r d) * k0_pay3 x0 (ix2 n d))
      = ∑ d : Fin 3, x0 (ix3 (0 : Fin 1) n d) * c (ix3 (0 : Fin 1) r d) :=
    Finset.sum_congr rfl fun d _ => by rw [pay3_apply, mul_comm]
  exact congrArg (fun t : EReal => max t 0)
    (congrArg₂ (fun s u : EReal => s - Ideal.ofBits .f32 0x40000000#32 * u)
      ((congrArg (fun y : EReal => (∑ d : Fin 3, c (ix3 (0 : Fin 1) r d) * c (ix3 (0 : Fin 1) r d)) + y)
        (pay4_apply x0 n)).trans (add_comm _ _))
      hdot)

end Cert.KernelIdeal.Hand

end
-- ==== Proof.LibBlockInf.lean ====
/-
  Regrouping a long infimum into consecutive blocks.

  The infimum of `a * b` consecutive terms is the infimum, over the `a` blocks, of the infimum of the `b`
  terms inside each block: position `k` of the long family lies in block `k / b` at offset `k % b`, and
  offset `j` of block `i` is position `j + b * i`. Only the lattice laws of an infimum with a top element
  are used, so the law holds in every meet-semilattice with a greatest element — in particular on the
  extended reals, infinities included, and for empty families (both sides are then the top element).
-/
import Mathlib.Order.Fin.Basic
import Mathlib.Data.Finset.Lattice.Fold
import Mathlib.Data.Fintype.Basic

namespace Cert.LibBlockInf

/-- Offset `j` of block `i`, of `a` blocks of `b` terms, is a position below `a * b`. -/
theorem block_pos_lt {a b : ℕ} (i : Fin a) (j : Fin b) : j.val + b * i.val < a * b := by
  have hi : i.val + 1 ≤ a := i.isLt
  have hj : j.val < b := j.isLt
  calc j.val + b * i.val < b + b * i.val := by omega
    _ = b * (i.val + 1) := by rw [Nat.mul_succ, Nat.add_comm]
    _ ≤ b * a := Nat.mul_le_mul_left b hi
    _ = a * b := Nat.mul_comm b a

/-- The block of a position below `a * b` is below `a`. -/
theorem block_lt {a b : ℕ} (k : Fin (a * b)) : k.val / b < a :=
  Nat.div_lt_of_lt_mul (Nat.lt_of_lt_of_eq k.isLt (Nat.mul_comm a b))

/-- The offset of a position inside its block is below `b`; a position exists only when `b` is positive. -/
theorem offset_lt {a b : ℕ} (k : Fin (a * b)) : k.val % b < b :=
  Nat.mod_lt _ (Nat.pos_of_ne_zero fun h => by
    subst h
    exact absurd k.isLt (by simp))

/-- The infimum over `Fin (a * b)` of a family given by block and offset is the infimum over the blocks of the
    infimum over the offsets inside each block. -/
theorem inf_blocks {α : Type*} [SemilatticeInf α] [OrderTop α] (a b : ℕ) (g : Fin a → Fin b → α) :
    (Finset.univ.inf fun k : Fin (a * b) => g ⟨k.val / b, block_lt k⟩ ⟨k.val % b, offset_lt k⟩)
      = Finset.univ.inf fun i : Fin a => Finset.univ.inf fun j : Fin b => g i j := by
  apply le_antisymm
  · -- the long infimum is below every term of every block: the term is the one at position `j + b * i`
    refine Finset.le_inf fun i _ => Finset.le_inf fun j _ => ?_
    have hb : 0 < b := Nat.lt_of_le_of_lt (Nat.zero_le _) j.isLt
    have hdiv : (j.val + b * i.val) / b = i.val := by
      rw [Nat.add_mul_div_left _ _ hb, Nat.div_eq_of_lt j.isLt, Nat.zero_add]
    have hmod : (j.val + b * i.val) % b = j.val := by
      rw [Nat.add_mul_mod_self_left, Nat.mod_eq_of_lt j.isLt]
    have h := Finset.inf_le (f := fun k : Fin (a * b) => g ⟨k.val / b, block_lt k⟩ ⟨k.val % b, offset_lt k⟩)
      (Finset.mem_univ (⟨j.val + b * i.val, block_pos_lt i j⟩ : Fin (a * b)))
    have e : g ⟨(j.val + b * i.val) / b, block_lt ⟨j.val + b * i.val, block_pos_lt i j⟩⟩
        ⟨(j.val + b * i.val) % b, offset_lt ⟨j.val + b * i.val, block_pos_lt i j⟩⟩ = g i j := by
      congr 1 <;> exact Fin.ext (by first | exact hdiv | exact hmod)
    exact h.trans (le_of_eq e)
  · -- the blockwise infimum is below every term of the long family: it is a term of its own block
    refine Finset.le_inf fun k _ => ?_
    exact (Finset.inf_le (Finset.mem_univ (⟨k.val / b, block_lt k⟩ : Fin a))).trans
      (Finset.inf_le (f := fun j : Fin b => g ⟨k.val / b, block_lt k⟩ j) (Finset.mem_univ (⟨k.val % b, offset_lt k⟩ : Fin b)))

end Cert.LibBlockInf
-- ==== Proof.BodyOutApply.lean ====
/-
  The output block read at a hand vertex is the specification's distance to the whole object cloud.

  At hand vertex `n` the running minimum starts at the top element and each of the twenty steps lowers it to the
  minimum of its value and the least clipped squared distance from the vertex to the step's chunk, so after `k`
  steps it is the infimum over the first `k` chunks of these least distances, and after all twenty the infimum
  over the twenty chunks of the infimum over each chunk's 2000 points. Object point `k` of the 40000 is point
  `k % 2000` of chunk `k / 2000`, so that double infimum is the infimum over the whole cloud; the output is its
  square root.
-/
import proofs.«164913_j87385404604975_2_alg».proof.Proof.BodyOut
import proofs.«164913_j87385404604975_2_alg».proof.Proof.Spellings
import proofs.«164913_j87385404604975_2_alg».proof.Proof.ChunkStep
import proofs.«164913_j87385404604975_2_alg».proof.Proof.LibBlockInf
import proofs.«164913_j87385404604975_2_alg».proof.Proof.LibMinAxis0

noncomputable section

namespace Cert.KernelIdeal.Hand

open Idealize.ShloMosaic Idealize.SL.Sem Idealize.ShloMosaic.ValueIdx Cert.KernelIdeal Cert.KernelIdeal.Gen

/-- The least clipped squared distance from hand vertex `n` to the points of chunk `k`. -/
def chunkInf (x0 : Vec Ideal S1x778x3 .f32) (ch : Fin 20 → Vec Ideal S1x2000x3 .f32) (n : Fin 778) (k : Fin 20) : EReal :=
  Finset.univ.inf fun r : Fin 2000 =>
    Cert.Spec.d2 (fun d => x0 (ix3 (0 : Fin 1) n d)) (fun d => ch k (ix3 (0 : Fin 1) r d))

/-- The same by the chunk's number as a natural number: the top element past the last chunk. -/
def chunkInfN (x0 : Vec Ideal S1x778x3 .f32) (ch : Fin 20 → Vec Ideal S1x2000x3 .f32) (n : Fin 778) (k : ℕ) : EReal :=
  if h : k < 20 then chunkInf x0 ch n ⟨k, h⟩ else ⊤

theorem chunkInfN_of (x0 : Vec Ideal S1x778x3 .f32) (ch : Fin 20 → Vec Ideal S1x2000x3 .f32) (n : Fin 778) (i : Fin 20) : chunkInfN x0 ch n i.val = chunkInf x0 ch n i := by
  unfold chunkInfN; rw [dif_pos i.isLt]

/-- One step in terms of the infimum over the first chunks: lowering the infimum over the first `i` chunks by
    chunk `i`'s least distance gives the infimum over the first `i + 1`. -/
theorem step_range (x0 : Vec Ideal S1x778x3 .f32) (ch : Fin 20 → Vec Ideal S1x2000x3 .f32) (n : Fin 778) (i : Fin 20) (a : EReal)
    (ha : a = (Finset.range i.val).inf (chunkInfN x0 ch n)) :
    min a (chunkInf x0 ch n i) = (Finset.range (i.val + 1)).inf (chunkInfN x0 ch n) := by
  rw [Finset.range_add_one, Finset.inf_insert, chunkInfN_of, ← ha]
  exact min_comm _ _

/-- Before any chunk the running minimum is the top element: the infimum over no chunks. -/
theorem acc0_apply (x0 : Vec Ideal S1x778x3 .f32) (ch : Fin 20 → Vec Ideal S1x2000x3 .f32) (n : Fin 778) : acc0 (ix2 (0 : Fin 1) n) = (Finset.range 0).inf (chunkInfN x0 ch n) := by
  rw [Finset.range_zero, Finset.inf_empty]
  unfold acc0 k0_pay5
  exact (congrFun (shapeCast_self _ _) _).trans Cert.LibMinAxis0.posInf_f32

/-- After chunk 0: the infimum over the first 1 chunk. -/
theorem acc1_apply (x0 : Vec Ideal S1x778x3 .f32) (ch : Fin 20 → Vec Ideal S1x2000x3 .f32) (n : Fin 778) :
    acc1 x0 ch (ix2 (0 : Fin 1) n) = (Finset.range 1).inf (chunkInfN x0 ch n) :=
  (congrFun (pay6_eq x0 (ch 0) acc0) _).trans
    ((step_apply x0 (ch 0) acc0 n).trans (step_range x0 ch n 0 _ (acc0_apply x0 ch n)))

/-- After chunk 1: the infimum over the first 2 chunks. -/
theorem acc2_apply (x0 : Vec Ideal S1x778x3 .f32) (ch : Fin 20 → Vec Ideal S1x2000x3 .f32) (n : Fin 778) :
    acc2 x0 ch (ix2 (0 : Fin 1) n) = (Finset.range 2).inf (chunkInfN x0 ch n) :=
  (step_apply x0 (ch 1) (acc1 x0 ch) n).trans (step_range x0 ch n 1 _ (acc1_apply x0 ch n))

/-- After chunk 2: the infimum over the first 3 chunks. -/
theorem acc3_apply (x0 : Vec Ideal S1x778x3 .f32) (ch : Fin 20 → Vec Ideal S1x2000x3 .f32) (n : Fin 778) :
    acc3 x0 ch (ix2 (0 : Fin 1) n) = (Finset.range 3).inf (chunkInfN x0 ch n) :=
  (congrFun (pay10_eq (hv1 x0) (hv3 x0) (ch 2) (acc2 x0 ch)) _).trans
    ((step_apply x0 (ch 2) (acc2 x0 ch) n).trans (step_range x0 ch n 2 _ (acc2_apply x0 ch n)))

/-- After chunk 3: the infimum over the first 4 chunks. -/
theorem acc4_apply (x0 : Vec Ideal S1x778x3 .f32) (ch : Fin 20 → Vec Ideal S1x2000x3 .f32) (n : Fin 778) :
    acc4 x0 ch (ix2 (0 : Fin 1) n) = (Finset.range 4).inf (chunkInfN x0 ch n) :=
  (congrFun (pay11_eq (hv1 x0) (hv3 x0) (ch 3) (acc3 x0 ch)) _).trans
    ((step_apply x0 (ch 3) (acc3 x0 ch) n).trans (step_range x0 ch n 3 _ (acc3_apply x0 ch n)))

/-- After chunk 4: the infimum over the first 5 chunks. -/
theorem acc5_apply (x0 : Vec Ideal S1x778x3 .f32) (ch : Fin 20 → Vec Ideal S1x2000x3 .f32) (n : Fin 778) :
    acc5 x0 ch (ix2 (0 : Fin 1) n) = (Finset.range 5).inf (chunkInfN x0 ch n) :=
  (congrFun (pay12_eq (hv1 x0) (hv3 x0) (ch 4) (acc4 x0 ch)) _).trans
    ((step_apply x0 (ch 4) (acc4 x0 ch) n).trans (step_range x0 ch n 4 _ (acc4_apply x0 ch n)))

/-- After chunk 5: the infimum over the first 6 chunks. -/
theorem acc6_apply (x0 : Vec Ideal S1x778x3 .f32) (ch : Fin 20 → Vec Ideal S1x2000x3 .f32) (n : Fin 778) :
    acc6 x0 ch (ix2 (0 : Fin 1) n) = (Finset.range 6).inf (chunkInfN x0 ch n) :=
  (congrFun (pay14_eq (hv1 x0) (hv3 x0) (ch 5) (acc5 x0 ch)) _).trans
    ((step_apply x0 (ch 5) (acc5 x0 ch) n).trans (step_range x0 ch n 5 _ (acc5_apply x0 ch n)))

/-- After chunk 6: the infimum over the first 7 chunks. -/
theorem acc7_apply (x0 : Vec Ideal S1x778x3 .f32) (ch : Fin 20 → Vec Ideal S1x2000x3 .f32) (n : Fin 778) :
    acc7 x0 ch (ix2 (0 : Fin 1) n) = (Finset.range 7).inf (chunkInfN x0 ch n) :=
  (congrFun (pay15_eq (hv1 x0) (hv3 x0) (ch 6) (acc6 x0 ch)) _).trans
    ((step_apply x0 (ch 6) (acc6 x0 ch) n).trans (step_range x0 ch n 6 _ (acc6_apply x0 ch n)))

/-- After chunk 7: the infimum over the first 8 chunks. -/
theorem acc8_apply (x0 : Vec Ideal S1x778x3 .f32) (ch : Fin 20 → Vec Ideal S1x2000x3 .f32) (n : Fin 778) :
    acc8 x0 ch (ix2 (0 : Fin 1) n) = (Finset.range 8).inf (chunkInfN x0 ch n) :=
  (congrFun (pay18_eq (hv1 x0) (hv3 x0) (ch 7) (acc7 x0 ch)) _).trans
    ((step_apply x0 (ch 7) (acc7 x0 ch) n).trans (step_range x0 ch n 7 _ (acc7_apply x0 ch n)))

/-- After chunk 8: the infimum over the first 9 chunks. -/
theorem acc9_apply (x0 : Vec Ideal S1x778x3 .f32) (ch : Fin 20 → Vec Ideal S1x2000x3 .f32) (n : Fin 778) :
    acc9 x0 ch (ix2 (0 : Fin 1) n) = (Finset.range 9).inf (chunkInfN x0 ch n) :=
  (congrFun (pay20_eq (hv1 x0) (hv3 x0) (ch 8) (acc8 x0 ch)) _).trans
    ((step_apply x0 (ch 8) (acc8 x0 ch) n).trans (step_range x0 ch n 8 _ (acc8_apply x0 ch n)))

/-- After chunk 9: the infimum over the first 10 chunks. -/
theorem acc10_apply (x0 : Vec Ideal S1x778x3 .f32) (ch : Fin 20 → Vec Ideal S1x2000x3 .f32) (n : Fin 778) :
    acc10 x0 ch (ix2 (0 : Fin 1) n) = (Finset.range 10).inf (chunkInfN x0 ch n) :=
  (congrFun (pay21_eq (hv1 x0) (hv3 x0) (ch 9) (acc9 x0 ch)) _).trans
    ((step_apply x0 (ch 9) (acc9 x0 ch) n).trans (step_range x0 ch n 9 _ (acc9_apply x0 ch n)))

/-- After chunk 10: the infimum over the first 11 chunks. -/
theorem acc11_apply (x0 : Vec Ideal S1x778x3 .f32) (ch : Fin 20 → Vec Ideal S1x2000x3 .f32) (n : Fin 778) :
    acc11 x0 ch (ix2 (0 : Fin 1) n) = (Finset.range 11).inf (chunkInfN x0 ch n) :=
  (congrFun (pay24_eq (hv1 x0) (hv3 x0) (ch 10) (acc10 x0 ch)) _).trans
    ((step_apply x0 (ch 10) (acc10 x0 ch) n).trans (step_range x0 ch n 10 _ (acc10_apply x0 ch n)))

/-- After chunk 11: the infimum over the first 12 chunks. -/
theorem acc12_apply (x0 : Vec Ideal S1x778x3 .f32) (ch : Fin 20 → Vec Ideal S1x2000x3 .f32) (n : Fin 778) :
    acc12 x0 ch (ix2 (0 : Fin 1) n) = (Finset.range 12).inf (chunkInfN x0 ch n) :=
  (congrFun (pay26_eq (hv1 x0) (hv3 x0) (ch 11) (acc11 x0 ch)) _).trans
    ((step_apply x0 (ch 11) (acc11 x0 ch) n).trans (step_range x0 ch n 11 _ (acc11_apply x0 ch n)))

/-- After chunk 12: the infimum over the first 13 chunks. -/
theorem acc13_apply (x0 : Vec Ideal S1x778x3 .f32) (ch : Fin 20 → Vec Ideal S1x2000x3 .f32) (n : Fin 778) :
    acc13 x0 ch (ix2 (0 : Fin 1) n) = (Finset.range 13).inf (chunkInfN x0 ch n) :=
  (congrFun (pay27_eq (hv1 x0) (hv3 x0) (ch 12) (acc12 x0 ch)) _).trans
    ((step_apply x0 (ch 12) (acc12 x0 ch) n).trans (step_range x0 ch n 12 _ (acc12_apply x0 ch n)))

/-- After chunk 13: the infimum over the first 14 chunks. -/
theorem acc14_apply (x0 : Vec Ideal S1x778x3 .f32) (ch : Fin 20 → Vec Ideal S1x2000x3 .f32) (n : Fin 778) :
    acc14 x0 ch (ix2 (0 : Fin 1) n) = (Finset.range 14).inf (chunkInfN x0 ch n) :=
  (congrFun (pay32_eq (hv1 x0) (hv3 x0) (ch 13) (acc13 x0 ch)) _).trans
    ((step_apply x0 (ch 13) (acc13 x0 ch) n).trans (step_range x0 ch n 13 _ (acc13_apply x0 ch n)))

/-- After chunk 14: the infimum over the first 15 chunks. -/
theorem acc15_apply (x0 : Vec Ideal S1x778x3 .f32) (ch : Fin 20 → Vec Ideal S1x2000x3 .f32) (n : Fin 778) :
    acc15 x0 ch (ix2 (0 : Fin 1) n) = (Finset.range 15).inf (chunkInfN x0 ch n) :=
  (congrFun (pay34_eq (hv1 x0) (hv3 x0) (ch 14) (acc14 x0 ch)) _).trans
    ((step_apply x0 (ch 14) (acc14 x0 ch) n).trans (step_range x0 ch n 14 _ (acc14_apply x0 ch n)))

/-- After chunk 15: the infimum over the first 16 chunks. -/
theorem acc16_apply (x0 : Vec Ideal S1x778x3 .f32) (ch : Fin 20 → Vec Ideal S1x2000x3 .f32) (n : Fin 778) :
    acc16 x0 ch (ix2 (0 : Fin 1) n) = (Finset.range 16).inf (chunkInfN x0 ch n) :=
  (congrFun (pay35_eq (hv1 x0) (hv3 x0) (ch 15) (acc15 x0 ch)) _).trans
    ((step_apply x0 (ch 15) (acc15 x0 ch) n).trans (step_range x0 ch n 15 _ (acc15_apply x0 ch n)))

/-- After chunk 16: the infimum over the first 17 chunks. -/
theorem acc17_apply (x0 : Vec Ideal S1x778x3 .f32) (ch : Fin 20 → Vec Ideal S1x2000x3 .f32) (n : Fin 778) :
    acc17 x0 ch (ix2 (0 : Fin 1) n) = (Finset.range 17).inf (chunkInfN x0 ch n) :=
  (congrFun (pay39_eq (hv1 x0) (hv3 x0) (ch 16) (acc16 x0 ch)) _).trans
    ((step_apply x0 (ch 16) (acc16 x0 ch) n).trans (step_range x0 ch n 16 _ (acc16_apply x0 ch n)))

/-- After chunk 17: the infimum over the first 18 chunks. -/
theorem acc18_apply (x0 : Vec Ideal S1x778x3 .f32) (ch : Fin 20 → Vec Ideal S1x2000x3 .f32) (n : Fin 778) :
    acc18 x0 ch (ix2 (0 : Fin 1) n) = (Finset.range 18).inf (chunkInfN x0 ch n) :=
  (congrFun (pay40_eq (hv1 x0) (hv3 x0) (ch 17) (acc17 x0 ch)) _).trans
    ((step_apply x0 (ch 17) (acc17 x0 ch) n).trans (step_range x0 ch n 17 _ (acc17_apply x0 ch n)))

/-- After chunk 18: the infimum over the first 19 chunks. -/
theorem acc19_apply (x0 : Vec Ideal S1x778x3 .f32) (ch : Fin 20 → Vec Ideal S1x2000x3 .f32) (n : Fin 778) :
    acc19 x0 ch (ix2 (0 : Fin 1) n) = (Finset.range 19).inf (chunkInfN x0 ch n) :=
  (congrFun (pay41_eq (hv1 x0) (hv3 x0) (ch 18) (acc18 x0 ch)) _).trans
    ((step_apply x0 (ch 18) (acc18 x0 ch) n).trans (step_range x0 ch n 18 _ (acc18_apply x0 ch n)))

/-- After chunk 19: the infimum over the first 20 chunks. -/
theorem acc20_apply (x0 : Vec Ideal S1x778x3 .f32) (ch : Fin 20 → Vec Ideal S1x2000x3 .f32) (n : Fin 778) :
    acc20 x0 ch (ix2 (0 : Fin 1) n) = (Finset.range 20).inf (chunkInfN x0 ch n) :=
  (congrFun (pay1_eq (hv1 x0) (hv3 x0) (ch 19) (acc19 x0 ch)) _).trans
    ((step_apply x0 (ch 19) (acc19 x0 ch) n).trans (step_range x0 ch n 19 _ (acc19_apply x0 ch n)))

/-- After the last chunk: the infimum over all twenty chunks. -/
theorem acc20_inf (x0 : Vec Ideal S1x778x3 .f32) (ch : Fin 20 → Vec Ideal S1x2000x3 .f32) (n : Fin 778) :
    acc20 x0 ch (ix2 (0 : Fin 1) n) = Finset.univ.inf (chunkInf x0 ch n) := by
  rw [acc20_apply]
  apply le_antisymm
  · refine Finset.le_inf fun i _ => ?_
    rw [← chunkInfN_of]
    exact Finset.inf_le (Finset.mem_range.mpr i.isLt)
  · refine Finset.le_inf fun k hk => ?_
    have hk' : k < 20 := Finset.mem_range.mp hk
    rw [show chunkInfN x0 ch n k = chunkInf x0 ch n ⟨k, hk'⟩ from chunkInfN_of x0 ch n ⟨k, hk'⟩]
    exact Finset.inf_le (Finset.mem_univ _)

/-- A square root of a vector, read at an index at the ideal values, is the extended reals' square root of the entry. -/
theorem sqrt_vec_apply {s : Shape} {φ : FTy} (v : FVec Ideal s φ) (i : s.Idx) :
    Idealize.ShloMosaic.sqrt v i = Ideal.sqrt (v i) := rfl

/-- The output block at hand vertex `n`: the distance from the vertex to the nearest of the 40000 object points,
    point `k` of the cloud being point `k % 2000` of chunk `k / 2000`. -/
theorem bodyOut_apply (x0 : Vec Ideal S1x778x3 .f32) (ch : Fin 20 → Vec Ideal S1x2000x3 .f32) (n : Fin 778) :
    bodyOut x0 ch (ix3 (0 : Fin 1) (0 : Fin 1) n)
      = Cert.Spec.minDist (fun d => x0 (ix3 (0 : Fin 1) n d))
          (fun (k : Fin 40000) d =>
            ch ⟨k.val / 2000, by omega⟩ (ix3 (0 : Fin 1) ⟨k.val % 2000, Nat.mod_lt _ (by norm_num)⟩ d)) := by
  unfold bodyOut k0_pay2 Cert.Spec.minDist
  refine (shapeCast_ab_1ab_apply _ _ 0 0 n).trans ?_
  refine (sqrt_vec_apply _ _).trans ?_
  refine (congrArg Ideal.sqrt (acc20_inf x0 ch n)).trans (congrArg Ideal.sqrt ?_)
  exact (Cert.LibBlockInf.inf_blocks 20 2000 fun (i : Fin 20) (j : Fin 2000) =>
    Cert.Spec.d2 (fun d => x0 (ix3 (0 : Fin 1) n d)) (fun d => ch i (ix3 (0 : Fin 1) j d))).symm

end Cert.KernelIdeal.Hand

end
-- ==== Proof.KernelArray.lean ====
/-
  From blocks to the array: the distances the region leaves.

  The region's grid has one point per batch entry. At point `t` the hand window's block is row `t` of the hand
  array, the object window's block is row `t` of the object array, and the output window's block is row `t` of
  the [8, 1, 778] result. Chunk `k` of the object block is its points 2000·k … 2000·k + 1999, so point `r` of
  chunk `k` is object point 2000·k + r, and object point `q` is point `q % 2000` of chunk `q / 2000`. The body's
  output block at hand vertex `n` is therefore the distance from vertex `n` of batch entry `t` to the entry's
  whole object cloud. The eight output blocks tile the result array, so after the region it holds that distance
  at every (entry, 0, vertex).
-/
import proofs.«164913_j87385404604975_2_alg».proof.Proof.KernelValue
import proofs.«164913_j87385404604975_2_alg».proof.Proof.BodyOutApply
import Idealize.ShloMosaic.Lib.Pipeline.Value
import Idealize.ShloMosaic.Lib.ValueLayout

set_option maxRecDepth 16384

noncomputable section

namespace Cert.KernelIdeal.Hand

open Idealize.ShloMosaic Idealize.ShloMosaic.TcCoe Idealize.SL.Sem Idealize.ShloMosaic.ValueIdx
open Idealize.ShloMosaic.Pipeline (Dat)
open Cert.KernelIdeal Cert.KernelIdeal.Gen

variable (m : (ℓ : Loc nD τ sig) → Buf (Elt Ideal) ℓ)

/-- The distances as one function of the two argument arrays: at (entry, 0, vertex) the distance from the entry's
    hand vertex to the nearest of the entry's 40000 object points. -/
def kArr (a : FVec Ideal S8x778x3 .f32) (b : FVec Ideal S8x40000x3 .f32) : FVec Ideal S8x1x778 .f32 := fun i =>
  Cert.Spec.minDist (fun d => a (ix3 (i 0) (i 2) d)) (fun (k : Fin 40000) d => b (ix3 (i 0) k d))

/-! ## Where a block's entries sit in its array -/

/-- Each window's block index at point `t`: row `t`, and the first block along the other two axes. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0 :=
  (by decide +kernel : ∀ t : Fin grid0.N, _)

/-- The offsets of chunk `q`: 2000·q along the points, none along the other two axes. -/
theorem chunk_off : ∀ q : Fin 20, k0_off1 (BitVec.ofNat 32 q.val) = ![0, 2000 * q.val, 0] := by decide +kernel

/-- The hand window's block at point `t` is row `t` of the hand array. -/
theorem iblk0_apply (c : Dev nD) (t : Fin cfg0.N) (x : S1x778x3.Idx) (k : S8x778x3.Idx)
    (hk0 : (k 0).val = t.val) (hk1 : (k 1).val = (x 1).val) (hk2 : (k 2).val = (x 2).val) :
    (iblk m c 0 t : Vec Ideal S1x778x3 .f32) x = (V m c main_arg0 : S8x778x3.Idx → Elt Ideal .f32) k := by
  obtain ⟨e0, e1, e2, -⟩ := idx_facts t
  have hx0 : (x 0).val < 1 := (x 0).isLt
  unfold iblk
  rw [View.read_apply]
  show V m c main_arg0 _ = V m c main_arg0 _
  congr 1
  funext a
  apply Fin.ext
  match a with
  | ⟨0, _⟩ => show win0_0.index t (0 : Fin 3) * 1 + 1 * (x 0).val = (k 0).val; rw [e0, hk0]; omega
  | ⟨1, _⟩ => show win0_0.index t (1 : Fin 3) * 778 + 1 * (x 1).val = (k 1).val; rw [e1, hk1]; omega
  | ⟨2, _⟩ => show win0_0.index t (2 : Fin 3) * 3 + 1 * (x 2).val = (k 2).val; rw [e2, hk2]; omega

/-- The object window's block at point `t` is row `t` of the object array. -/
theorem iblk1_apply (c : Dev nD) (t : Fin cfg0.N) (x : S1x40000x3.Idx) (k : S8x40000x3.Idx)
    (hk0 : (k 0).val = t.val) (hk1 : (k 1).val = (x 1).val) (hk2 : (k 2).val = (x 2).val) :
    (iblk m c 1 t : Vec Ideal S1x40000x3 .f32) x = (V m c main_arg1 : S8x40000x3.Idx → Elt Ideal .f32) k := by
  obtain ⟨-, -, -, e0, e1, e2, -⟩ := idx_facts t
  have hx0 : (x 0).val < 1 := (x 0).isLt
  unfold iblk
  rw [View.read_apply]
  show V m c main_arg1 _ = V m c main_arg1 _
  congr 1
  funext a
  apply Fin.ext
  match a with
  | ⟨0, _⟩ => show win0_1.index t (0 : Fin 3) * 1 + 1 * (x 0).val = (k 0).val; rw [e0, hk0]; omega
  | ⟨1, _⟩ => show win0_1.index t (1 : Fin 3) * 40000 + 1 * (x 1).val = (k 1).val; rw [e1, hk1]; omega
  | ⟨2, _⟩ => show win0_1.index t (2 : Fin 3) * 3 + 1 * (x 2).val = (k 2).val; rw [e2, hk2]; omega

/-- Point `r` of chunk `q` of an object block is the block's point 2000·q + r. -/
theorem chunk_apply (x1 : Vec Ideal S1x40000x3 .f32) (q : Fin 20) (y : S1x2000x3.Idx) (j : S1x40000x3.Idx)
    (hj0 : (j 0).val = (y 0).val) (hj1 : (j 1).val = 2000 * q.val + (y 1).val) (hj2 : (j 2).val = (y 2).val) :
    chunk x1 q y = x1 j := by
  unfold chunk
  show x1 _ = x1 j
  congr 1
  funext a
  apply Fin.ext
  rw [LoadRect.idx_apply]
  show k0_off1 (BitVec.ofNat 32 q.val) a + 1 * (y a).val = (j a).val
  rw [chunk_off q]
  match a with
  | ⟨0, _⟩ => show 0 + 1 * (y 0).val = (j 0).val; omega
  | ⟨1, _⟩ => show 2000 * q.val + 1 * (y 1).val = (j 1).val; omega
  | ⟨2, _⟩ => show 0 + 1 * (y 2).val = (j 2).val; omega

/-! ## What one point writes back -/

/-- The body's output block, over blocks that are row `p` of two arrays `A` and `B`, at an entry `y` of the
    block, is `kArr A B` at the array entry `i` in row `p` with `y`'s vertex. -/
theorem kArr_block (x0 : Vec Ideal S1x778x3 .f32) (x1 : Vec Ideal S1x40000x3 .f32)
    (A : FVec Ideal S8x778x3 .f32) (B : FVec Ideal S8x40000x3 .f32) (p : Fin 8)
    (h0 : ∀ (n : Fin 778) (d : Fin 3), x0 (ix3 (0 : Fin 1) n d) = A (ix3 p n d))
    (h1 : ∀ (k : Fin 40000) (d : Fin 3), x1 (ix3 (0 : Fin 1) k d) = B (ix3 p k d))
    (y : S1x1x778.Idx) (i : S8x1x778.Idx) (hi0 : (i 0).val = p.val) (hi2 : (i 2).val = (y 2).val) :
    bodyOut x0 (chunk x1) y = kArr A B i := by
  obtain ⟨u, v, n, rfl⟩ : ∃ (u : Fin 1) (v : Fin 1) (n : Fin 778), y = ix3 u v n := ⟨y 0, y 1, y 2, eq_ix3 y⟩
  obtain rfl : u = 0 := Subsingleton.elim _ _
  obtain rfl : v = 0 := Subsingleton.elim _ _
  have e0 : i 0 = p := Fin.ext hi0
  have e2 : i 2 = n := Fin.ext hi2
  rw [bodyOut_apply]
  unfold kArr
  rw [e0, e2]
  congr 1
  · funext d; exact h0 n d
  · funext k d
    refine (chunk_apply x1 _ _ (ix3 (0 : Fin 1) k d) rfl ?_ rfl).trans (h1 k d)
    show k.val = 2000 * (k.val / 2000) + k.val % 2000
    exact (Nat.div_add_mod k.val 2000).symm

/-- A block of the result window, cut for its write-back, is the block of an array `G` read through the window as
    soon as each of its entries is `G` at the entry's place in the array. -/
theorem cut_eq_read_blk2 (t : Fin cfg0.N) (X : S1x1x778.Idx → Elt Ideal .f32) (G : S8x1x778.Idx → Elt Ideal .f32)
    (h : ∀ j : ((cfg0.win 2).xblock (grid0.coords t)).Idx,
      X ((cfg0.win 2).xinj (grid0.coords t) j) = G (((cfg0.win 2).blk t).view.emb j)) :
    (cfg0.win 2).cut (grid0.coords t) X = ((cfg0.win 2).blk t).view.read (Elt Ideal) G :=
  funext fun j => h j

/-- WHAT POINT `t` WRITES BACK is block `t` of `kArr` of the two argument arrays as the region finds them. -/
theorem flushed2_eq (c : Dev nD) (t : Fin cfg0.N) :
    (dats m 0 c).flushed 2 t
      = ((cfg0.win 2).blk t).view.read (Elt Ideal) (kArr (V m c main_arg0) (V m c main_arg1)) := by
  show (cfg0.win 2).cut (grid0.coords t) ((dats m 0 c).after 2 t) = _
  rw [after0_2, out0_2_eq]
  obtain ⟨-, -, -, -, -, -, e0, e1, e2⟩ := idx_facts t
  refine cut_eq_read_blk2 t _ _ fun j => ?_
  have hj0 : (j 0).val < 1 := (j 0).isLt
  refine kArr_block (iblk m c 0 t) (iblk m c 1 t) (V m c main_arg0) (V m c main_arg1) (Fin.cast N_0 t)
    (fun n d => iblk0_apply m c t _ _ rfl rfl rfl) (fun k d => iblk1_apply m c t _ _ rfl rfl rfl) _ _ ?_ ?_
  · show win0_2.index t (0 : Fin 3) * 1 + 1 * (j 0).val = t.val; rw [e0]; omega
  · show win0_2.index t (2 : Fin 3) * 778 + 1 * (j 2).val = (j 2).val; rw [e2]; omega

/-! ## The array after the region -/

/-- An index of the result array is in point `t`'s block iff each coordinate is in the block's range on its axis. -/
theorem mem_blk2 (t : Fin cfg0.N) (i : S8x1x778.Idx) :
    i ∈ ((cfg0.win 2).blk t).view.set ↔ ∀ a : Fin 3, win0_2.index t a * S1x1x778.size a ≤ (i a).val
      ∧ (i a).val < win0_2.index t a * S1x1x778.size a + S1x1x778.size a := by
  show i ∈ ((View.whole main_v0).slice (win0_2.rect t)).set ↔ _
  rw [View.set_slice_whole, Rect.mem_set_unit]
  exact Iff.rfl

/-- Every index of the result array is in the block of the point of its row. -/
theorem cover2 (i : S8x1x778.Idx) :
    ∃ t : Fin cfg0.N, (cfg0.win 2).flush t = true ∧ i ∈ ((cfg0.win 2).blk t).view.set := by
  have hi0 : (i 0).val < 8 := (i 0).isLt
  have hi1 : (i 1).val < 1 := (i 1).isLt
  have hi2 : (i 2).val < 778 := (i 2).isLt
  have hN : (i 0).val < cfg0.N := by rw [show cfg0.N = 8 from N_0]; exact hi0
  obtain ⟨t, ht⟩ : ∃ t : Fin cfg0.N, t.val = (i 0).val := ⟨⟨(i 0).val, hN⟩, rfl⟩
  refine ⟨t, flush0_2 t, ?_⟩
  obtain ⟨-, -, -, -, -, -, e0, e1, e2⟩ := idx_facts t
  rw [mem_blk2]
  intro a
  match a with
  | ⟨0, _⟩ =>
    show win0_2.index t (0 : Fin 3) * 1 ≤ (i 0).val ∧ (i 0).val < win0_2.index t (0 : Fin 3) * 1 + 1
    rw [e0, ht]; omega
  | ⟨1, _⟩ =>
    show win0_2.index t (1 : Fin 3) * 1 ≤ (i 1).val ∧ (i 1).val < win0_2.index t (1 : Fin 3) * 1 + 1
    rw [e1]; omega
  | ⟨2, _⟩ =>
    show win0_2.index t (2 : Fin 3) * 778 ≤ (i 2).val ∧ (i 2).val < win0_2.index t (2 : Fin 3) * 778 + 778
    rw [e2]; omega

/-- THE RESULT ARRAY after the region: `kArr` of the two argument arrays as launched. -/
theorem final2 (c : Dev nD) :
    (dats m 0 c).arrAt 2 cfg0.N
      = kArr (m ((c : Thread nD τ).loc main_arg0)) (m ((c : Thread nD τ).loc main_arg1)) := by
  exact ((dats m 0 c).arrAt_eq_of_cover 2 (kArr (V m c main_arg0) (V m c main_arg1))
    (fun t _ => flushed2_eq m c t) cover2).trans (congrArg₂ kArr (V_main_arg0 m c) (V_main_arg1 m c))

/-! ## The distances as a matrix -/

/-- The result reshaped to [8, 778], read at (entry, vertex). -/
theorem kDists_apply (a : FVec Ideal S8x778x3 .f32) (b : FVec Ideal S8x40000x3 .f32) (p : Fin 8) (n : Fin 778) :
    shapeCast S8x778 (kArr a b) Facts₀.shapeCasts_S8x1x778_S8x778 (ix2 p n)
      = Cert.Spec.minDist (fun d => a (ix3 p n d)) (fun (k : Fin 40000) d => b (ix3 p k d)) := by
  refine (shapeCast_apply (kArr a b) _ (ix2 p n) (ix3 p (0 : Fin 1) n) ?_).trans rfl
  rw [Shape.rowMajor_val_three, Shape.rowMajor_val_two]
  show (p.val * 1 + 0) * 778 + n.val = p.val * 778 + n.val
  omega

end Cert.KernelIdeal.Hand

end
-- ==== Proof.LibGatherCols.lean ====
/-
  A general lemma about a host program's gather taking whole COLUMNS of a matrix: what `x[:, idx]` lowers to for a rank-2
  array `x : [R, N]` and a vector of column numbers, the start indices reshaped to a column `[E, 1]`. The dimension
  numbers are offset_dims `[0]`, collapsed_slice_dims `[1]`, start_index_map `[1]`, index_vector_dim `1`,
  slice_sizes `[R, 1]`. The result element `(p, e)` is `x` at `(p, c)`, where the column `c` is the start index
  `idx[e, 0]` read as a signed integer and clamped into `[0, N − 1]` (a gather clamps every start index so that the slice fits): the column depends on `e` and on the index array only, and the row is carried over unchanged.
  For any extents and any element type.
-/
import Idealize.ShloMosaic.Lib.ValueIdx

noncomputable section

namespace Cert.LibGatherCols

open Idealize.ShloMosaic Idealize.ShloMosaic.ValueIdx

variable {α : Type}

/-- The column-gather dimension numbers for an operand `[R, N]`, start indices `[E, 1]` and a result `[R, E]`;
    their conditions `wf` are decided on a program's literal shapes. -/
abbrev colsDims (R N E : Nat)
    (wf : GatherDims.WF ⟨2, ![R, N]⟩ ⟨2, ![E, 1]⟩ ⟨2, ![R, E]⟩ [0] [1] [] [1] [] 1 ![R, 1]) :
    GatherDims ⟨2, ![R, N]⟩ ⟨2, ![E, 1]⟩ ⟨2, ![R, E]⟩ where
  offsetDims := [0]
  collapsedSliceDims := [1]
  operandBatchingDims := []
  startIndicesBatchingDims := []
  startIndexMap := [1]
  indexVectorDim := 1
  sliceSizes := ![R, 1]
  wf := wf

/-- The column of the operand that result column `e` reads: the start index `idx[e, 0]`, read signed and clamped
    into `[0, N − 1]`. -/
def colOf {N E w : Nat} (hN : 0 < N) (idx : IVec ⟨2, ![E, 1]⟩ w) (e : Fin E) : Fin N :=
  ⟨min (idx (ix2 e (0 : Fin 1))).toInt.toNat (N - 1), by omega⟩

/-- THE COLUMN GATHER READ AT `(p, e)`: the operand at `(p, colOf idx e)`. -/
theorem gather_cols_apply {R N E w : Nat} (hN : 0 < N)
    (wf : GatherDims.WF ⟨2, ![R, N]⟩ ⟨2, ![E, 1]⟩ ⟨2, ![R, E]⟩ [0] [1] [] [1] [] 1 ![R, 1])
    (x : (⟨2, ![R, N]⟩ : Shape).Idx → α) (idx : IVec ⟨2, ![E, 1]⟩ w) (p : Fin R) (e : Fin E) :
    Host.gather (colsDims R N E wf) x idx (ix2 p e) = x (ix2 p (colOf hN idx e)) := by
  unfold Host.gather
  congr 1
  funext a
  refine Fin.ext ?_
  match a with
  | ⟨0, _⟩ =>
    show (colsDims R N E wf).start (ix2 p e) idx 0 + (colsDims R N E wf).batchCoord (ix2 p e) 0
      + (colsDims R N E wf).offCoord (ix2 p e) 0 = p.val
    rw [GatherDims.batchCoord_eq_zero _ _ _ List.not_mem_nil]
    unfold GatherDims.start
    rw [dif_neg (show ¬ (0 : Fin 2) ∈ (colsDims R N E wf).startIndexMap from
      (by decide : ¬ (0 : Fin 2) ∈ ([1] : List (Fin 2))))]
    simp only [Nat.zero_add, Nat.add_zero]
    unfold GatherDims.offCoord
    rw [dif_pos ((GatherDims.mem_sKept _ _).mpr
      ⟨(by decide : ¬ (0 : Fin 2) ∈ ([1] : List (Fin 2))), List.not_mem_nil⟩)]
    rfl
  | ⟨1, _⟩ =>
    show (colsDims R N E wf).start (ix2 p e) idx 1 + (colsDims R N E wf).batchCoord (ix2 p e) 1
      + (colsDims R N E wf).offCoord (ix2 p e) 1 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (colsDims R N E wf).startIndexMap from List.mem_singleton.mpr rfl)]
    have hsi : (colsDims R N E wf).siIdx (ix2 p e) ⟨List.idxOf (1 : Fin 2) (colsDims R N E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl

end Cert.LibGatherCols

end
-- ==== Proof.KernelGather.lean ====
/-
  The contact distances: the host's gather of the ten contact columns, read at an index.

  After the region the program reshapes the distances to [8, 778] and gathers ten of its columns: the start indices are
  the literal table of the ten contact vertices, each replaced by itself plus 778 where it is negative (none is) and
  laid out as a [10, 1] column. Column `j` of the result is therefore column `cidx j` of the distances: each word of
  the table is non-negative and below 778, so the normalisation leaves it as it is and the gather's clamp into
  [0, 777] does too.
-/
import proofs.«164913_j87385404604975_2_alg».proof.Proof.Gen.KernelIdeal
import proofs.«164913_j87385404604975_2_alg».proof.Proof.Spec
import proofs.«164913_j87385404604975_2_alg».proof.Proof.LibGatherCols
import Idealize.ShloMosaic.Lib.ValueLayout

noncomputable section

namespace Cert.KernelIdeal.Hand

open Idealize.ShloMosaic Idealize.SL.Sem Idealize.ShloMosaic.ValueIdx Cert.KernelIdeal Cert.KernelIdeal.Gen

/-- The literal table of the ten contact vertices, as the program's i32 vector of length ten. -/
def contactWords : IVec S10 32 := fun i => lit0 (S10.rowMajor i)

/-- The start indices of the gather as the program computes them: the table with 778 added where a word is negative,
    as a [10, 1] column. -/
def startIdx : IVec S10x1 32 :=
  broadcastInDim S10x1 ![0] bcast_S10_S10x1_0
    (select (cmpi .slt contactWords (broadcastInDim S10 ![] bcast_S_S10 (constantI S_ 32 0#32)))
      (addi contactWords (broadcastInDim S10 ![] bcast_S_S10 (constantI S_ 32 778#32)))
      contactWords)

/-- Every word of the table, read as a signed integer, is the corresponding contact vertex: non-negative and below 778. -/
theorem lit0_toNat (j : Fin 10) : (lit0 j).toInt.toNat = (Cert.Spec.cidx j).val := by
  fin_cases j <;> decide

/-- The normalisation leaves every word of the table as it is: none is negative. -/
theorem normalise_lit0 (j : Fin 10) :
    Scalar.select (IntOp.cmpi .slt (lit0 j) 0#32) (IntOp.addi (lit0 j) 778#32) (lit0 j) = lit0 j := by
  fin_cases j <;> decide

/-- The start indices at row `j`: word `j` of the table. -/
theorem startIdx_apply (j : Fin 10) : startIdx (ix2 j (0 : Fin 1)) = lit0 j := by
  unfold startIdx
  refine (broadcastInDim_apply _ _ _ (ix2 j (0 : Fin 1)) (ix1 j) (fun a => ?_)).trans ?_
  · match a with
    | ⟨0, _⟩ => rfl
  · have hpos : S10.rowMajor (ix1 j) = j := Fin.ext (Shape.rowMajor_val_one _)
    show Scalar.select (IntOp.cmpi .slt (lit0 (S10.rowMajor (ix1 j))) 0#32)
      (IntOp.addi (lit0 (S10.rowMajor (ix1 j))) 778#32) (lit0 (S10.rowMajor (ix1 j))) = lit0 j
    rw [hpos]
    exact normalise_lit0 j

/-- The gather read at (p, j), over ANY start indices whose row `j` holds word `j` of the table: the distances at
    (p, cidx j). -/
theorem gather_contact_of (d : FVec Ideal S8x778 .f32) (idx : IVec S10x1 32)
    (hidx : ∀ j : Fin 10, idx (ix2 j (0 : Fin 1)) = lit0 j) (p : Fin 8) (j : Fin 10) :
    Host.gather gather_S8x778_S10x1_S8x10_0_1_n_n_1_1_81 d idx (ix2 p j) = d (ix2 p (Cert.Spec.cidx j)) := by
  refine (Cert.LibGatherCols.gather_cols_apply (by norm_num : 0 < 778) _ d idx p j).trans ?_
  refine congrArg (fun c : Fin 778 => d (ix2 p c)) (Fin.ext ?_)
  show min (idx (ix2 j (0 : Fin 1))).toInt.toNat (778 - 1) = (Cert.Spec.cidx j).val
  rw [hidx j, lit0_toNat j]
  have := (Cert.Spec.cidx j).isLt
  omega

/-- The gather at the program's own start indices, read at (p, j): the distances at (p, cidx j). -/
theorem gather_contact (d : FVec Ideal S8x778 .f32) (p : Fin 8) (j : Fin 10) :
    Host.gather gather_S8x778_S10x1_S8x10_0_1_n_n_1_1_81 d startIdx (ix2 p j) = d (ix2 p (Cert.Spec.cidx j)) :=
  gather_contact_of d startIdx startIdx_apply p j

end Cert.KernelIdeal.Hand

end
-- ==== Proof.KernelRunValue.lean ====
/-
  The kernel program's run with its results named. After the region the result array [8,1,778] holds, at (p, 0, n),
  the distance from hand vertex n of batch entry p to the nearest object point of that entry; the table of contact
  vertices is as the line before the region wrote it; so each of the six result buffers is the shared tail's function
  of d (that array re-laid as [8,778]) and of cd (d gathered at the contact vertices).
-/
import proofs.«164913_j87385404604975_2_alg».proof.Proof.KernelTailA
import proofs.«164913_j87385404604975_2_alg».proof.Proof.KernelTailB
import proofs.«164913_j87385404604975_2_alg».proof.Proof.KernelArray
import proofs.«164913_j87385404604975_2_alg».proof.Proof.KernelGather

set_option maxRecDepth 16384

noncomputable section

namespace Cert.KernelIdeal.Hand

open Idealize.ShloMosaic Idealize.ShloMosaic.TcCoe Idealize.ShloMosaic.StableHlo Idealize.SL.Sem
open Idealize.ShloMosaic.Pipeline (Dat)
open Cert.KernelIdeal Cert.KernelIdeal.Gen

variable (m : (ℓ : Loc nD τ sig) → Buf (Elt Ideal) ℓ) (ρ : Dev nD → PrngReg)

/-- The result array at the exit. -/
theorem Wx_v0 (c : Dev nD) : (Pipeline.withArrays (cfgs 0).spec c (V0 m c) (fun w => (dats m 0 c).arrAt w (cfgs 0).N)) (Proc.devRef .tc main_v0) = kArr (m ((c : Thread nD τ).loc main_arg0)) (m ((c : Thread nD τ).loc main_arg1)) :=
  (Pipeline.withArrays_arr spec0 launch0.win.arr_inj c _ _ 2).trans (final2 m c)

/-- The table of contact vertices at the exit: as the line before the region wrote it. -/
theorem Wx_c (c : Dev nD) : (Pipeline.withArrays (cfgs 0).spec c (V0 m c) (fun w => (dats m 0 c).arrAt w (cfgs 0).N)) (Proc.devRef .tc main_c) = contactWords := by
  rw [Pipeline.withArrays_of_ne _ c (V0 m c) _ main_c (by decide)]
  show StableHlo.after (List.flatten [hostOps0]) (fun b => m (c, b)) (Proc.devRef .tc main_c) = _
  simp only [hostOps0, List.flatten_cons, List.flatten_nil, List.append_nil]
  after_results
  rfl

/-- The distances [8,778] as a function of the two argument arrays. -/
def kD (a : FVec Ideal S8x778x3 .f32) (b : FVec Ideal S8x40000x3 .f32) : FVec Ideal S8x778 .f32 := kDists (kArr a b)
/-- The contact distances [8,10] as a function of the two argument arrays. -/
def kC (a : FVec Ideal S8x778x3 .f32) (b : FVec Ideal S8x40000x3 .f32) : FVec Ideal S8x10 .f32 := kContact (kD a b) contactWords

/-- The distance at (p, n): from hand vertex n of entry p to the nearest object point of the entry. -/
theorem kD_apply (a : FVec Ideal S8x778x3 .f32) (b : FVec Ideal S8x40000x3 .f32) (p : Fin 8) (n : Fin 778) :
    kD a b (ValueIdx.ix2 p n) = Cert.Spec.minDist (fun d => a (ValueIdx.ix3 p n d)) (fun (k : Fin 40000) d => b (ValueIdx.ix3 p k d)) :=
  kDists_apply a b p n

/-- The contact distance at (p, j): the distance at the j-th contact vertex. -/
theorem kC_apply (a : FVec Ideal S8x778x3 .f32) (b : FVec Ideal S8x40000x3 .f32) (p : Fin 8) (j : Fin 10) :
    kC a b (ValueIdx.ix2 p j) = Cert.Spec.minDist (fun d => a (ValueIdx.ix3 p (Cert.Spec.cidx j) d)) (fun (k : Fin 40000) d => b (ValueIdx.ix3 p k d)) :=
  (gather_contact (kD a b) p j).trans (kD_apply a b p (Cert.Spec.cidx j))

theorem res_v40 (c : Dev nD) : Pipeline.afterTail₀ cfgs (dats m) 0 (V0 m) tailOps c main_v40 = Cert.Tail.contactLoss tailFacts (kD (m ((c : Thread nD τ).loc main_arg0)) (m ((c : Thread nD τ).loc main_arg1))) (kC (m ((c : Thread nD τ).loc main_arg0)) (m ((c : Thread nD τ).loc main_arg1))) := by
  unfold Pipeline.afterTail₀
  rw [tail_v40, Wx_v0 m c, Wx_c m c]
  rfl
theorem res_v22 (c : Dev nD) : Pipeline.afterTail₀ cfgs (dats m) 0 (V0 m) tailOps c main_v22 = Cert.Tail.penLoss tailFacts (kD (m ((c : Thread nD τ).loc main_arg0)) (m ((c : Thread nD τ).loc main_arg1))) := by
  unfold Pipeline.afterTail₀
  rw [tail_v22, Wx_v0 m c]
  rfl
theorem res_v37 (c : Dev nD) : Pipeline.afterTail₀ cfgs (dats m) 0 (V0 m) tailOps c main_v37 = Cert.Tail.attLoss tailFacts (kC (m ((c : Thread nD τ).loc main_arg0)) (m ((c : Thread nD τ).loc main_arg1))) := by
  unfold Pipeline.afterTail₀
  rw [tail_v37, Wx_v0 m c, Wx_c m c]
  rfl
theorem res_v42 (c : Dev nD) : Pipeline.afterTail₀ cfgs (dats m) 0 (V0 m) tailOps c main_v42 = Cert.Tail.distMean tailFacts (kD (m ((c : Thread nD τ).loc main_arg0)) (m ((c : Thread nD τ).loc main_arg1))) := by
  unfold Pipeline.afterTail₀
  rw [tail_v42, Wx_v0 m c]
  rfl
theorem res_v44 (c : Dev nD) : Pipeline.afterTail₀ cfgs (dats m) 0 (V0 m) tailOps c main_v44 = Cert.Tail.numContacts tailFacts (kC (m ((c : Thread nD τ).loc main_arg0)) (m ((c : Thread nD τ).loc main_arg1))) := by
  unfold Pipeline.afterTail₀
  rw [tail_v44, Wx_v0 m c, Wx_c m c]
  rfl
theorem res_v46 (c : Dev nD) : Pipeline.afterTail₀ cfgs (dats m) 0 (V0 m) tailOps c main_v46 = Cert.Tail.numPen tailFacts (kD (m ((c : Thread nD τ).loc main_arg0)) (m ((c : Thread nD τ).loc main_arg1))) := by
  unfold Pipeline.afterTail₀
  rw [tail_v46, Wx_v0 m c]
  rfl

/-- The run: the six results at the shared tail's functions of the distances and the contact distances, the four
    argument arrays as launched. -/
theorem run_value : θ_run (defs (F := Ideal)) (onTc (τ := τ) (main (F := Ideal))) ⟨m, fun _ => 0, ρ⟩ (fun r => ∀ c : Dev nD,
      r.2.mem ((c.tc : Thread nD τ).loc main_v40) = Cert.Tail.contactLoss tailFacts (kD (m ((c.tc : Thread nD τ).loc main_arg0)) (m ((c.tc : Thread nD τ).loc main_arg1))) (kC (m ((c.tc : Thread nD τ).loc main_arg0)) (m ((c.tc : Thread nD τ).loc main_arg1)))
      ∧ r.2.mem ((c.tc : Thread nD τ).loc main_v22) = Cert.Tail.penLoss tailFacts (kD (m ((c.tc : Thread nD τ).loc main_arg0)) (m ((c.tc : Thread nD τ).loc main_arg1)))
      ∧ r.2.mem ((c.tc : Thread nD τ).loc main_v37) = Cert.Tail.attLoss tailFacts (kC (m ((c.tc : Thread nD τ).loc main_arg0)) (m ((c.tc : Thread nD τ).loc main_arg1)))
      ∧ r.2.mem ((c.tc : Thread nD τ).loc main_v42) = Cert.Tail.distMean tailFacts (kD (m ((c.tc : Thread nD τ).loc main_arg0)) (m ((c.tc : Thread nD τ).loc main_arg1)))
      ∧ r.2.mem ((c.tc : Thread nD τ).loc main_v44) = Cert.Tail.numContacts tailFacts (kC (m ((c.tc : Thread nD τ).loc main_arg0)) (m ((c.tc : Thread nD τ).loc main_arg1)))
      ∧ r.2.mem ((c.tc : Thread nD τ).loc main_v46) = Cert.Tail.numPen tailFacts (kD (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨
    ((h c).2 main_v40 (Pipeline.mem_restRefs_of main_v40 (by decide) (by decide))).trans (res_v40 m c),
    ((h c).2 main_v22 (Pipeline.mem_restRefs_of main_v22 (by decide) (by decide))).trans (res_v22 m c),
    ((h c).2 main_v37 (Pipeline.mem_restRefs_of main_v37 (by decide) (by decide))).trans (res_v37 m c),
    ((h c).2 main_v42 (Pipeline.mem_restRefs_of main_v42 (by decide) (by decide))).trans (res_v42 m c),
    ((h c).2 main_v44 (Pipeline.mem_restRefs_of main_v44 (by decide) (by decide))).trans (res_v44 m c),
    ((h c).2 main_v46 (Pipeline.mem_restRefs_of main_v46 (by decide) (by decide))).trans (res_v46 m c),
    ((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c))),
    ((h c).2 main_arg2 (Pipeline.mem_restRefs_of main_arg2 (by decide) (by decide))).trans (W_main_arg2 m (dats m) c),
    ((h c).2 main_arg3 (Pipeline.mem_restRefs_of main_arg3 (by decide) (by decide))).trans (W_main_arg3 m (dats m) c)⟩)
    (run_main m ρ)

end Cert.KernelIdeal.Hand

end
-- ==== Proof.RefRun.lean ====
/-
  The reference program's @main as a straight line of host operations, the outlined select
  functions' operations listed inline at their call sites over each call's buffer record, and its
  run: every weakly fair execution terminates with each buffer at the fold of the operations over
  the launch contents.  The line is stated window by window, and its first window also as three
  consecutive pieces: the distances of all hand vertices (through the first square root), the
  contact distances (through the second), and the first six operations of the tail.
-/
import proofs.«164913_j87385404604975_2_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The first 23 operations: the index table, then the distance of every hand vertex to the object cloud. -/
abbrev opsA : List (HloOp τ sig (Elt F)) :=
  [ StableHlo.nullary main_c (fun i => lit0 (S10.rowMajor i)),
    StableHlo.binary main_arg0 main_arg0 main_v0 (mulf : (⟨S8x778x3, .f32⟩ : BufTy).Contents (Elt F) → (⟨S8x778x3, .f32⟩ : BufTy).Contents (Elt F) → (⟨S8x778x3, .f32⟩ : BufTy).Contents (Elt F)),
    StableHlo.nullary main_cst (constant S_ .f32 0x00000000#32),
    StableHlo.binary main_v0 main_cst main_v1 ((fun x v => Host.reduceAdd x v reducesTo_S8x778x3_S8x778_d2 h_S_) : (⟨S8x778x3, .f32⟩ : BufTy).Contents (Elt F) → (⟨S_, .f32⟩ : BufTy).Contents (Elt F) → (⟨S8x778, .f32⟩ : BufTy).Contents (Elt F)),
    StableHlo.unary main_v1 main_v2 (broadcastInDim S8x778x1 ![0, 1] bcast_S8x778_S8x778x1_0_1 : (⟨S8x778, .f32⟩ : BufTy).Contents (Elt F) → (⟨S8x778x1, .f32⟩ : BufTy).Contents (Elt F)),
    StableHlo.binary main_arg1 main_arg1 main_v3 (mulf : (⟨S8x40000x3, .f32⟩ : BufTy).Contents (Elt F) → (⟨S8x40000x3, .f32⟩ : BufTy).Contents (Elt F) → (⟨S8x40000x3, .f32⟩ : BufTy).Contents (Elt F)),
    StableHlo.nullary main_cst_0 (constant S_ .f32 0x00000000#32),
    StableHlo.binary main_v3 main_cst_0 main_v4 ((fun x v => Host.reduceAdd x v reducesTo_S8x40000x3_S8x40000_d2 h_S_) : (⟨S8x40000x3, .f32⟩ : BufTy).Contents (Elt F) → (⟨S_, .f32⟩ : BufTy).Contents (Elt F) → (⟨S8x40000, .f32⟩ : BufTy).Contents (Elt F)),
    StableHlo.binary main_arg0 main_arg1 main_v5 ((fun l r => Host.dotGeneral dot_S8x778x3_S8x40000x3_S8x778x40000_2_2_1_1_0_0 none l r) : (⟨S8x778x3, .f32⟩ : BufTy).Contents (Elt F) → (⟨S8x40000x3, .f32⟩ : BufTy).Contents (Elt F) → (⟨S8x778x40000, .f32⟩ : BufTy).Contents (Elt F)),
    StableHlo.unary main_v4 main_v6 (broadcastInDim S8x1x40000 ![0, 2] bcast_S8x40000_S8x1x40000_0_2 : (⟨S8x40000, .f32⟩ : BufTy).Contents (Elt F) → (⟨S8x1x40000, .f32⟩ : BufTy).Contents (Elt F)),
    StableHlo.unary main_v2 main_v7 (broadcastInDim S8x778x40000 ![0, 1, 2] bcast_S8x778x1_S8x778x40000_0_1_2 : (⟨S8x778x1, .f32⟩ : BufTy).Contents (Elt F) → (⟨S8x778x40000, .f32⟩ : BufTy).Contents (Elt F)),
    StableHlo.unary main_v6 main_v8 (broadcastInDim S8x778x40000 ![0, 1, 2] bcast_S8x1x40000_S8x778x40000_0_1_2 : (⟨S8x1x40000, .f32⟩ : BufTy).Contents (Elt F) → (⟨S8x778x40000, .f32⟩ : BufTy).Contents (Elt F)),
    StableHlo.binary main_v7 main_v8 main_v9 (addf : (⟨S8x778x40000, .f32⟩ : BufTy).Contents (Elt F) → (⟨S8x778x40000, .f32⟩ : BufTy).Contents (Elt F) → (⟨S8x778x40000, .f32⟩ : BufTy).Contents (Elt F)),
    StableHlo.nullary main_cst_1 (constant S_ .f32 0x40000000#32),
    StableHlo.unary main_cst_1 main_v10 (broadcastInDim S8x778x40000 ![] bcast_S_S8x778x40000 : (⟨S_, .f32⟩ : BufTy).Contents (Elt F) → (⟨S8x778x40000, .f32⟩ : BufTy).Contents (Elt F)),
    StableHlo.binary main_v10 main_v5 main_v11 (mulf : (⟨S8x778x40000, .f32⟩ : BufTy).Contents (Elt F) → (⟨S8x778x40000, .f32⟩ : BufTy).Contents (Elt F) → (⟨S8x778x40000, .f32⟩ : BufTy).Contents (Elt F)),
    StableHlo.binary main_v9 main_v11 main_v12 (subf : (⟨S8x778x40000, .f32⟩ : BufTy).Contents (Elt F) → (⟨S8x778x40000, .f32⟩ : BufTy).Contents (Elt F) → (⟨S8x778x40000, .f32⟩ : BufTy).Contents (Elt F)),
    StableHlo.nullary main_cst_2 (constant S_ .f32 0x00000000#32),
    StableHlo.unary main_cst_2 main_v13 (broadcastInDim S8x778x40000 ![] bcast_S_S8x778x40000 : (⟨S_, .f32⟩ : BufTy).Contents (Elt F) → (⟨S8x778x40000, .f32⟩ : BufTy).Contents (Elt F)),
    StableHlo.binary main_v12 main_v13 main_v14 (maximumf : (⟨S8x778x40000, .f32⟩ : BufTy).Contents (Elt F) → (⟨S8x778x40000, .f32⟩ : BufTy).Contents (Elt F) → (⟨S8x778x40000, .f32⟩ : BufTy).Contents (Elt F)),
    StableHlo.nullary main_cst_3 (constant S_ .f32 0x7F800000#32),
    StableHlo.binary main_v14 main_cst_3 main_v15 ((fun x v => Host.reduce FloatOps.minimumf x v reducesTo_S8x778x40000_S8x778_d2 h_S_) : (⟨S8x778x40000, .f32⟩ : BufTy).Contents (Elt F) → (⟨S_, .f32⟩ : BufTy).Contents (Elt F) → (⟨S8x778, .f32⟩ : BufTy).Contents (Elt F)),
    StableHlo.unary main_v15 main_v16 (Host.sqrt : (⟨S8x778, .f32⟩ : BufTy).Contents (Elt F) → (⟨S8x778, .f32⟩ : BufTy).Contents (Elt F)) ]

/-- The next 31 operations: the ten contact vertices gathered, then their distances to the object cloud. -/
abbrev opsB : List (HloOp τ sig (Elt F)) :=
  [ StableHlo.nullary main_c_4 (constantI S_ 32 0#32),
    StableHlo.unary main_c_4 main_v17 (broadcastInDim S10 ![] bcast_S_S10 : (⟨S_, .i32⟩ : BufTy).Contents (Elt F) → (⟨S10, .i32⟩ : BufTy).Contents (Elt F)),
    StableHlo.binary main_c main_v17 main_v18 (cmpi .slt : (⟨S10, .i32⟩ : BufTy).Contents (Elt F) → (⟨S10, .i32⟩ : BufTy).Contents (Elt F) → (⟨S10, .i1⟩ : BufTy).Contents (Elt F)),
    StableHlo.nullary main_c_5 (constantI S_ 32 778#32),
    StableHlo.unary main_c_5 main_v19 (broadcastInDim S10 ![] bcast_S_S10 : (⟨S_, .i32⟩ : BufTy).Contents (Elt F) → (⟨S10, .i32⟩ : BufTy).Contents (Elt F)),
    StableHlo.binary main_c main_v19 main_v20 (addi : (⟨S10, .i32⟩ : BufTy).Contents (Elt F) → (⟨S10, .i32⟩ : BufTy).Contents (Elt F) → (⟨S10, .i32⟩ : BufTy).Contents (Elt F)),
    StableHlo.ternary main_v18 main_v20 main_c main_v21 (select : (⟨S10, .i1⟩ : BufTy).Contents (Elt F) → (⟨S10, .i32⟩ : BufTy).Contents (Elt F) → (⟨S10, .i32⟩ : BufTy).Contents (Elt F) → (⟨S10, .i32⟩ : BufTy).Contents (Elt F)),
    StableHlo.unary main_v21 main_v22 (broadcastInDim S10x1 ![0] bcast_S10_S10x1_0 : (⟨S10, .i32⟩ : BufTy).Contents (Elt F) → (⟨S10x1, .i32⟩ : BufTy).Contents (Elt F)),
    StableHlo.binary main_arg0 main_v22 main_v23 ((fun x i => Host.gather gather_S8x778x3_S10x1_S8x10x3_02_1_n_n_1_1_813 x i) : (⟨S8x778x3, .f32⟩ : BufTy).Contents (Elt F) → (⟨S10x1, .i32⟩ : BufTy).Contents (Elt F) → (⟨S8x10x3, .f32⟩ : BufTy).Contents (Elt F)),
    StableHlo.binary main_v23 main_v23 main_v24 (mulf : (⟨S8x10x3, .f32⟩ : BufTy).Contents (Elt F) → (⟨S8x10x3, .f32⟩ : BufTy).Contents (Elt F) → (⟨S8x10x3, .f32⟩ : BufTy).Contents (Elt F)),
    StableHlo.nullary main_cst_6 (constant S_ .f32 0x00000000#32),
    StableHlo.binary main_v24 main_cst_6 main_v25 ((fun x v => Host.reduceAdd x v reducesTo_S8x10x3_S8x10_d2 h_S_) : (⟨S8x10x3, .f32⟩ : BufTy).Contents (Elt F) → (⟨S_, .f32⟩ : BufTy).Contents (Elt F) → (⟨S8x10, .f32⟩ : BufTy).Contents (Elt F)),
    StableHlo.unary main_v25 main_v26 (broadcastInDim S8x10x1 ![0, 1] bcast_S8x10_S8x10x1_0_1 : (⟨S8x10, .f32⟩ : BufTy).Contents (Elt F) → (⟨S8x10x1, .f32⟩ : BufTy).Contents (Elt F)),
    StableHlo.binary main_arg1 main_arg1 main_v27 (mulf : (⟨S8x40000x3, .f32⟩ : BufTy).Contents (Elt F) → (⟨S8x40000x3, .f32⟩ : BufTy).Contents (Elt F) → (⟨S8x40000x3, .f32⟩ : BufTy).Contents (Elt F)),
    StableHlo.nullary main_cst_7 (constant S_ .f32 0x00000000#32),
    StableHlo.binary main_v27 main_cst_7 main_v28 ((fun x v => Host.reduceAdd x v reducesTo_S8x40000x3_S8x40000_d2 h_S_) : (⟨S8x40000x3, .f32⟩ : BufTy).Contents (Elt F) → (⟨S_, .f32⟩ : BufTy).Contents (Elt F) → (⟨S8x40000, .f32⟩ : BufTy).Contents (Elt F)),
    StableHlo.binary main_v23 main_arg1 main_v29 ((fun l r => Host.dotGeneral dot_S8x10x3_S8x40000x3_S8x10x40000_2_2_1_1_0_0 none l r) : (⟨S8x10x3, .f32⟩ : BufTy).Contents (Elt F) → (⟨S8x40000x3, .f32⟩ : BufTy).Contents (Elt F) → (⟨S8x10x40000, .f32⟩ : BufTy).Contents (Elt F)),
    StableHlo.unary main_v28 main_v30 (broadcastInDim S8x1x40000 ![0, 2] bcast_S8x40000_S8x1x40000_0_2 : (⟨S8x40000, .f32⟩ : BufTy).Contents (Elt F) → (⟨S8x1x40000, .f32⟩ : BufTy).Contents (Elt F)),
    StableHlo.unary main_v26 main_v31 (broadcastInDim S8x10x40000 ![0, 1, 2] bcast_S8x10x1_S8x10x40000_0_1_2 : (⟨S8x10x1, .f32⟩ : BufTy).Contents (Elt F) → (⟨S8x10x40000, .f32⟩ : BufTy).Contents (Elt F)),
    StableHlo.unary main_v30 main_v32 (broadcastInDim S8x10x40000 ![0, 1, 2] bcast_S8x1x40000_S8x10x40000_0_1_2 : (⟨S8x1x40000, .f32⟩ : BufTy).Contents (Elt F) → (⟨S8x10x40000, .f32⟩ : BufTy).Contents (Elt F)),
    StableHlo.binary main_v31 main_v32 main_v33 (addf : (⟨S8x10x40000, .f32⟩ : BufTy).Contents (Elt F) → (⟨S8x10x40000, .f32⟩ : BufTy).Contents (Elt F) → (⟨S8x10x40000, .f32⟩ : BufTy).Contents (Elt F)),
    StableHlo.nullary main_cst_8 (constant S_ .f32 0x40000000#32),
    StableHlo.unary main_cst_8 main_v34 (broadcastInDim S8x10x40000 ![] bcast_S_S8x10x40000 : (⟨S_, .f32⟩ : BufTy).Contents (Elt F) → (⟨S8x10x40000, .f32⟩ : BufTy).Contents (Elt F)),
    StableHlo.binary main_v34 main_v29 main_v35 (mulf : (⟨S8x10x40000, .f32⟩ : BufTy).Contents (Elt F) → (⟨S8x10x40000, .f32⟩ : BufTy).Contents (Elt F) → (⟨S8x10x40000, .f32⟩ : BufTy).Contents (Elt F)),
    StableHlo.binary main_v33 main_v35 main_v36 (subf : (⟨S8x10x40000, .f32⟩ : BufTy).Contents (Elt F) → (⟨S8x10x40000, .f32⟩ : BufTy).Contents (Elt F) → (⟨S8x10x40000, .f32⟩ : BufTy).Contents (Elt F)),
    StableHlo.nullary main_cst_9 (constant S_ .f32 0x00000000#32),
    StableHlo.unary main_cst_9 main_v37 (broadcastInDim S8x10x40000 ![] bcast_S_S8x10x40000 : (⟨S_, .f32⟩ : BufTy).Contents (Elt F) → (⟨S8x10x40000, .f32⟩ : BufTy).Contents (Elt F)),
    StableHlo.binary main_v36 main_v37 main_v38 (maximumf : (⟨S8x10x40000, .f32⟩ : BufTy).Contents (Elt F) → (⟨S8x10x40000, .f32⟩ : BufTy).Contents (Elt F) → (⟨S8x10x40000, .f32⟩ : BufTy).Contents (Elt F)),
    StableHlo.nullary main_cst_10 (constant S_ .f32 0x7F800000#32),
    StableHlo.binary main_v38 main_cst_10 main_v39 ((fun x v => Host.reduce FloatOps.minimumf x v reducesTo_S8x10x40000_S8x10_d2 h_S_) : (⟨S8x10x40000, .f32⟩ : BufTy).Contents (Elt F) → (⟨S_, .f32⟩ : BufTy).Contents (Elt F) → (⟨S8x10, .f32⟩ : BufTy).Contents (Elt F)),
    StableHlo.unary main_v39 main_v40 (Host.sqrt : (⟨S8x10, .f32⟩ : BufTy).Contents (Elt F) → (⟨S8x10, .f32⟩ : BufTy).Contents (Elt F)) ]

/-- The next 6 operations: the first of the tail (the threshold mask and the difference from the threshold). -/
abbrev opsT0 : List (HloOp τ sig (Elt F)) :=
  [ StableHlo.nullary main_cst_11 (constant S_ .f32 0x3BA3D70A#32),
    StableHlo.unary main_cst_11 main_v41 (broadcastInDim S8x778 ![] bcast_S_S8x778 : (⟨S_, .f32⟩ : BufTy).Contents (Elt F) → (⟨S8x778, .f32⟩ : BufTy).Contents (Elt F)),
    StableHlo.binary main_v16 main_v41 main_v42 (cmpf .olt : (⟨S8x778, .f32⟩ : BufTy).Contents (Elt F) → (⟨S8x778, .f32⟩ : BufTy).Contents (Elt F) → (⟨S8x778, .i1⟩ : BufTy).Contents (Elt F)),
    StableHlo.nullary main_cst_12 (constant S_ .f32 0x3BA3D70A#32),
    StableHlo.unary main_cst_12 main_v43 (broadcastInDim S8x778 ![] bcast_S_S8x778 : (⟨S_, .f32⟩ : BufTy).Contents (Elt F) → (⟨S8x778, .f32⟩ : BufTy).Contents (Elt F)),
    StableHlo.binary main_v43 main_v16 main_v44 (subf : (⟨S8x778, .f32⟩ : BufTy).Contents (Elt F) → (⟨S8x778, .f32⟩ : BufTy).Contents (Elt F) → (⟨S8x778, .f32⟩ : BufTy).Contents (Elt F)) ]

/-- @main's first window: its operations 1 … 60. -/
abbrev ops0 : List (HloOp τ sig (Elt F)) :=
  [ StableHlo.nullary main_c (fun i => lit0 (S10.rowMajor i)),
    StableHlo.binary main_arg0 main_arg0 main_v0 (mulf : (⟨S8x778x3, .f32⟩ : BufTy).Contents (Elt F) → (⟨S8x778x3, .f32⟩ : BufTy).Contents (Elt F) → (⟨S8x778x3, .f32⟩ : BufTy).Contents (Elt F)),
    StableHlo.nullary main_cst (constant S_ .f32 0x00000000#32),
    StableHlo.binary main_v0 main_cst main_v1 ((fun x v => Host.reduceAdd x v reducesTo_S8x778x3_S8x778_d2 h_S_) : (⟨S8x778x3, .f32⟩ : BufTy).Contents (Elt F) → (⟨S_, .f32⟩ : BufTy).Contents (Elt F) → (⟨S8x778, .f32⟩ : BufTy).Contents (Elt F)),
    StableHlo.unary main_v1 main_v2 (broadcastInDim S8x778x1 ![0, 1] bcast_S8x778_S8x778x1_0_1 : (⟨S8x778, .f32⟩ : BufTy).Contents (Elt F) → (⟨S8x778x1, .f32⟩ : BufTy).Contents (Elt F)),
    StableHlo.binary main_arg1 main_arg1 main_v3 (mulf : (⟨S8x40000x3, .f32⟩ : BufTy).Contents (Elt F) → (⟨S8x40000x3, .f32⟩ : BufTy).Contents (Elt F) → (⟨S8x40000x3, .f32⟩ : BufTy).Contents (Elt F)),
    StableHlo.nullary main_cst_0 (constant S_ .f32 0x00000000#32),
    StableHlo.binary main_v3 main_cst_0 main_v4 ((fun x v => Host.reduceAdd x v reducesTo_S8x40000x3_S8x40000_d2 h_S_) : (⟨S8x40000x3, .f32⟩ : BufTy).Contents (Elt F) → (⟨S_, .f32⟩ : BufTy).Contents (Elt F) → (⟨S8x40000, .f32⟩ : BufTy).Contents (Elt F)),
    StableHlo.binary main_arg0 main_arg1 main_v5 ((fun l r => Host.dotGeneral dot_S8x778x3_S8x40000x3_S8x778x40000_2_2_1_1_0_0 none l r) : (⟨S8x778x3, .f32⟩ : BufTy).Contents (Elt F) → (⟨S8x40000x3, .f32⟩ : BufTy).Contents (Elt F) → (⟨S8x778x40000, .f32⟩ : BufTy).Contents (Elt F)),
    StableHlo.unary main_v4 main_v6 (broadcastInDim S8x1x40000 ![0, 2] bcast_S8x40000_S8x1x40000_0_2 : (⟨S8x40000, .f32⟩ : BufTy).Contents (Elt F) → (⟨S8x1x40000, .f32⟩ : BufTy).Contents (Elt F)),
    StableHlo.unary main_v2 main_v7 (broadcastInDim S8x778x40000 ![0, 1, 2] bcast_S8x778x1_S8x778x40000_0_1_2 : (⟨S8x778x1, .f32⟩ : BufTy).Contents (Elt F) → (⟨S8x778x40000, .f32⟩ : BufTy).Contents (Elt F)),
    StableHlo.unary main_v6 main_v8 (broadcastInDim S8x778x40000 ![0, 1, 2] bcast_S8x1x40000_S8x778x40000_0_1_2 : (⟨S8x1x40000, .f32⟩ : BufTy).Contents (Elt F) → (⟨S8x778x40000, .f32⟩ : BufTy).Contents (Elt F)),
    StableHlo.binary main_v7 main_v8 main_v9 (addf : (⟨S8x778x40000, .f32⟩ : BufTy).Contents (Elt F) → (⟨S8x778x40000, .f32⟩ : BufTy).Contents (Elt F) → (⟨S8x778x40000, .f32⟩ : BufTy).Contents (Elt F)),
    StableHlo.nullary main_cst_1 (constant S_ .f32 0x40000000#32),
    StableHlo.unary main_cst_1 main_v10 (broadcastInDim S8x778x40000 ![] bcast_S_S8x778x40000 : (⟨S_, .f32⟩ : BufTy).Contents (Elt F) → (⟨S8x778x40000, .f32⟩ : BufTy).Contents (Elt F)),
    StableHlo.binary main_v10 main_v5 main_v11 (mulf : (⟨S8x778x40000, .f32⟩ : BufTy).Contents (Elt F) → (⟨S8x778x40000, .f32⟩ : BufTy).Contents (Elt F) → (⟨S8x778x40000, .f32⟩ : BufTy).Contents (Elt F)),
    StableHlo.binary main_v9 main_v11 main_v12 (subf : (⟨S8x778x40000, .f32⟩ : BufTy).Contents (Elt F) → (⟨S8x778x40000, .f32⟩ : BufTy).Contents (Elt F) → (⟨S8x778x40000, .f32⟩ : BufTy).Contents (Elt F)),
    StableHlo.nullary main_cst_2 (constant S_ .f32 0x00000000#32),
    StableHlo.unary main_cst_2 main_v13 (broadcastInDim S8x778x40000 ![] bcast_S_S8x778x40000 : (⟨S_, .f32⟩ : BufTy).Contents (Elt F) → (⟨S8x778x40000, .f32⟩ : BufTy).Contents (Elt F)),
    StableHlo.binary main_v12 main_v13 main_v14 (maximumf : (⟨S8x778x40000, .f32⟩ : BufTy).Contents (Elt F) → (⟨S8x778x40000, .f32⟩ : BufTy).Contents (Elt F) → (⟨S8x778x40000, .f32⟩ : BufTy).Contents (Elt F)),
    StableHlo.nullary main_cst_3 (constant S_ .f32 0x7F800000#32),
    StableHlo.binary main_v14 main_cst_3 main_v15 ((fun x v => Host.reduce FloatOps.minimumf x v reducesTo_S8x778x40000_S8x778_d2 h_S_) : (⟨S8x778x40000, .f32⟩ : BufTy).Contents (Elt F) → (⟨S_, .f32⟩ : BufTy).Contents (Elt F) → (⟨S8x778, .f32⟩ : BufTy).Contents (Elt F)),
    StableHlo.unary main_v15 main_v16 (Host.sqrt : (⟨S8x778, .f32⟩ : BufTy).Contents (Elt F) → (⟨S8x778, .f32⟩ : BufTy).Contents (Elt F)),
    StableHlo.nullary main_c_4 (constantI S_ 32 0#32),
    StableHlo.unary main_c_4 main_v17 (broadcastInDim S10 ![] bcast_S_S10 : (⟨S_, .i32⟩ : BufTy).Contents (Elt F) → (⟨S10, .i32⟩ : BufTy).Contents (Elt F)),
    StableHlo.binary main_c main_v17 main_v18 (cmpi .slt : (⟨S10, .i32⟩ : BufTy).Contents (Elt F) → (⟨S10, .i32⟩ : BufTy).Contents (Elt F) → (⟨S10, .i1⟩ : BufTy).Contents (Elt F)),
    StableHlo.nullary main_c_5 (constantI S_ 32 778#32),
    StableHlo.unary main_c_5 main_v19 (broadcastInDim S10 ![] bcast_S_S10 : (⟨S_, .i32⟩ : BufTy).Contents (Elt F) → (⟨S10, .i32⟩ : BufTy).Contents (Elt F)),
    StableHlo.binary main_c main_v19 main_v20 (addi : (⟨S10, .i32⟩ : BufTy).Contents (Elt F) → (⟨S10, .i32⟩ : BufTy).Contents (Elt F) → (⟨S10, .i32⟩ : BufTy).Contents (Elt F)),
    StableHlo.ternary main_v18 main_v20 main_c main_v21 (select : (⟨S10, .i1⟩ : BufTy).Contents (Elt F) → (⟨S10, .i32⟩ : BufTy).Contents (Elt F) → (⟨S10, .i32⟩ : BufTy).Contents (Elt F) → (⟨S10, .i32⟩ : BufTy).Contents (Elt F)),
    StableHlo.unary main_v21 main_v22 (broadcastInDim S10x1 ![0] bcast_S10_S10x1_0 : (⟨S10, .i32⟩ : BufTy).Contents (Elt F) → (⟨S10x1, .i32⟩ : BufTy).Contents (Elt F)),
    StableHlo.binary main_arg0 main_v22 main_v23 ((fun x i => Host.gather gather_S8x778x3_S10x1_S8x10x3_02_1_n_n_1_1_813 x i) : (⟨S8x778x3, .f32⟩ : BufTy).Contents (Elt F) → (⟨S10x1, .i32⟩ : BufTy).Contents (Elt F) → (⟨S8x10x3, .f32⟩ : BufTy).Contents (Elt F)),
    StableHlo.binary main_v23 main_v23 main_v24 (mulf : (⟨S8x10x3, .f32⟩ : BufTy).Contents (Elt F) → (⟨S8x10x3, .f32⟩ : BufTy).Contents (Elt F) → (⟨S8x10x3, .f32⟩ : BufTy).Contents (Elt F)),
    StableHlo.nullary main_cst_6 (constant S_ .f32 0x00000000#32),
    StableHlo.binary main_v24 main_cst_6 main_v25 ((fun x v => Host.reduceAdd x v reducesTo_S8x10x3_S8x10_d2 h_S_) : (⟨S8x10x3, .f32⟩ : BufTy).Contents (Elt F) → (⟨S_, .f32⟩ : BufTy).Contents (Elt F) → (⟨S8x10, .f32⟩ : BufTy).Contents (Elt F)),
    StableHlo.unary main_v25 main_v26 (broadcastInDim S8x10x1 ![0, 1] bcast_S8x10_S8x10x1_0_1 : (⟨S8x10, .f32⟩ : BufTy).Contents (Elt F) → (⟨S8x10x1, .f32⟩ : BufTy).Contents (Elt F)),
    StableHlo.binary main_arg1 main_arg1 main_v27 (mulf : (⟨S8x40000x3, .f32⟩ : BufTy).Contents (Elt F) → (⟨S8x40000x3, .f32⟩ : BufTy).Contents (Elt F) → (⟨S8x40000x3, .f32⟩ : BufTy).Contents (Elt F)),
    StableHlo.nullary main_cst_7 (constant S_ .f32 0x00000000#32),
    StableHlo.binary main_v27 main_cst_7 main_v28 ((fun x v => Host.reduceAdd x v reducesTo_S8x40000x3_S8x40000_d2 h_S_) : (⟨S8x40000x3, .f32⟩ : BufTy).Contents (Elt F) → (⟨S_, .f32⟩ : BufTy).Contents (Elt F) → (⟨S8x40000, .f32⟩ : BufTy).Contents (Elt F)),
    StableHlo.binary main_v23 main_arg1 main_v29 ((fun l r => Host.dotGeneral dot_S8x10x3_S8x40000x3_S8x10x40000_2_2_1_1_0_0 none l r) : (⟨S8x10x3, .f32⟩ : BufTy).Contents (Elt F) → (⟨S8x40000x3, .f32⟩ : BufTy).Contents (Elt F) → (⟨S8x10x40000, .f32⟩ : BufTy).Contents (Elt F)),
    StableHlo.unary main_v28 main_v30 (broadcastInDim S8x1x40000 ![0, 2] bcast_S8x40000_S8x1x40000_0_2 : (⟨S8x40000, .f32⟩ : BufTy).Contents (Elt F) → (⟨S8x1x40000, .f32⟩ : BufTy).Contents (Elt F)),
    StableHlo.unary main_v26 main_v31 (broadcastInDim S8x10x40000 ![0, 1, 2] bcast_S8x10x1_S8x10x40000_0_1_2 : (⟨S8x10x1, .f32⟩ : BufTy).Contents (Elt F) → (⟨S8x10x40000, .f32⟩ : BufTy).Contents (Elt F)),
    StableHlo.unary main_v30 main_v32 (broadcastInDim S8x10x40000 ![0, 1, 2] bcast_S8x1x40000_S8x10x40000_0_1_2 : (⟨S8x1x40000, .f32⟩ : BufTy).Contents (Elt F) → (⟨S8x10x40000, .f32⟩ : BufTy).Contents (Elt F)),
    StableHlo.binary main_v31 main_v32 main_v33 (addf : (⟨S8x10x40000, .f32⟩ : BufTy).Contents (Elt F) → (⟨S8x10x40000, .f32⟩ : BufTy).Contents (Elt F) → (⟨S8x10x40000, .f32⟩ : BufTy).Contents (Elt F)),
    StableHlo.nullary main_cst_8 (constant S_ .f32 0x40000000#32),
    StableHlo.unary main_cst_8 main_v34 (broadcastInDim S8x10x40000 ![] bcast_S_S8x10x40000 : (⟨S_, .f32⟩ : BufTy).Contents (Elt F) → (⟨S8x10x40000, .f32⟩ : BufTy).Contents (Elt F)),
    StableHlo.binary main_v34 main_v29 main_v35 (mulf : (⟨S8x10x40000, .f32⟩ : BufTy).Contents (Elt F) → (⟨S8x10x40000, .f32⟩ : BufTy).Contents (Elt F) → (⟨S8x10x40000, .f32⟩ : BufTy).Contents (Elt F)),
    StableHlo.binary main_v33 main_v35 main_v36 (subf : (⟨S8x10x40000, .f32⟩ : BufTy).Contents (Elt F) → (⟨S8x10x40000, .f32⟩ : BufTy).Contents (Elt F) → (⟨S8x10x40000, .f32⟩ : BufTy).Contents (Elt F)),
    StableHlo.nullary main_cst_9 (constant S_ .f32 0x00000000#32),
    StableHlo.unary main_cst_9 main_v37 (broadcastInDim S8x10x40000 ![] bcast_S_S8x10x40000 : (⟨S_, .f32⟩ : BufTy).Contents (Elt F) → (⟨S8x10x40000, .f32⟩ : BufTy).Contents (Elt F)),
    StableHlo.binary main_v36 main_v37 main_v38 (maximumf : (⟨S8x10x40000, .f32⟩ : BufTy).Contents (Elt F) → (⟨S8x10x40000, .f32⟩ : BufTy).Contents (Elt F) → (⟨S8x10x40000, .f32⟩ : BufTy).Contents (Elt F)),
    StableHlo.nullary main_cst_10 (constant S_ .f32 0x7F800000#32),
    StableHlo.binary main_v38 main_cst_10 main_v39 ((fun x v => Host.reduce FloatOps.minimumf x v reducesTo_S8x10x40000_S8x10_d2 h_S_) : (⟨S8x10x40000, .f32⟩ : BufTy).Contents (Elt F) → (⟨S_, .f32⟩ : BufTy).Contents (Elt F) → (⟨S8x10, .f32⟩ : BufTy).Contents (Elt F)),
    StableHlo.unary main_v39 main_v40 (Host.sqrt : (⟨S8x10, .f32⟩ : BufTy).Contents (Elt F) → (⟨S8x10, .f32⟩ : BufTy).Contents (Elt F)),
    StableHlo.nullary main_cst_11 (constant S_ .f32 0x3BA3D70A#32),
    StableHlo.unary main_cst_11 main_v41 (broadcastInDim S8x778 ![] bcast_S_S8x778 : (⟨S_, .f32⟩ : BufTy).Contents (Elt F) → (⟨S8x778, .f32⟩ : BufTy).Contents (Elt F)),
    StableHlo.binary main_v16 main_v41 main_v42 (cmpf .olt : (⟨S8x778, .f32⟩ : BufTy).Contents (Elt F) → (⟨S8x778, .f32⟩ : BufTy).Contents (Elt F) → (⟨S8x778, .i1⟩ : BufTy).Contents (Elt F)),
    StableHlo.nullary main_cst_12 (constant S_ .f32 0x3BA3D70A#32),
    StableHlo.unary main_cst_12 main_v43 (broadcastInDim S8x778 ![] bcast_S_S8x778 : (⟨S_, .f32⟩ : BufTy).Contents (Elt F) → (⟨S8x778, .f32⟩ : BufTy).Contents (Elt F)),
    StableHlo.binary main_v43 main_v16 main_v44 (subf : (⟨S8x778, .f32⟩ : BufTy).Contents (Elt F) → (⟨S8x778, .f32⟩ : BufTy).Contents (Elt F) → (⟨S8x778, .f32⟩ : BufTy).Contents (Elt F)) ]

/-- @main's second window: its operations 61 … 118, a called function's operations in its call's place. -/
abbrev ops1 : List (HloOp τ sig (Elt F)) :=
  [ StableHlo.binary main_v44 main_v44 main_v45 (mulf : (⟨S8x778, .f32⟩ : BufTy).Contents (Elt F) → (⟨S8x778, .f32⟩ : BufTy).Contents (Elt F) → (⟨S8x778, .f32⟩ : BufTy).Contents (Elt F)),
    StableHlo.unary main_v42 main_v46 ((extui 32 · natLt_1_32) : (⟨S8x778, .i1⟩ : BufTy).Contents (Elt F) → (⟨S8x778, .i32⟩ : BufTy).Contents (Elt F)),
    StableHlo.nullary main_c_13 (constantI S_ 32 0#32),
    StableHlo.binary main_v46 main_c_13 main_v47 ((fun x v => Host.reduce IntOp.addi x v reducesTo_S8x778_S_d0_1 h_S_) : (⟨S8x778, .i32⟩ : BufTy).Contents (Elt F) → (⟨S_, .i32⟩ : BufTy).Contents (Elt F) → (⟨S_, .i32⟩ : BufTy).Contents (Elt F)),
    StableHlo.nullary main_cst_14 (constant S_ .f32 0x00000000#32),
    StableHlo.TRef.unary (.of main_cst_14) main_call0.v0 id,
    StableHlo.TRef.unary main_call0.v0 main_call0.v1 (broadcastInDim S8x778 ![] bcast_S_S8x778),
    StableHlo.TRef.ternary (.of main_v42) (.of main_v45) main_call0.v1 main_call0.v2 select,
    StableHlo.nullary main_cst_15 (constant S_ .f32 0x00000000#32),
    StableHlo.binary main_v48 main_cst_15 main_v49 ((fun x v => Host.reduceAdd x v reducesTo_S8x778_S_d0_1 h_S_) : (⟨S8x778, .f32⟩ : BufTy).Contents (Elt F) → (⟨S_, .f32⟩ : BufTy).Contents (Elt F) → (⟨S_, .f32⟩ : BufTy).Contents (Elt F)),
    StableHlo.nullary main_c_16 (constantI S_ 32 0#32),
    StableHlo.binary main_v47 main_c_16 main_v50 (cmpi .sgt : (⟨S_, .i32⟩ : BufTy).Contents (Elt F) → (⟨S_, .i32⟩ : BufTy).Contents (Elt F) → (⟨S_, .i1⟩ : BufTy).Contents (Elt F)),
    StableHlo.nullary main_c_17 (constantI S_ 32 1#32),
    StableHlo.binary main_v47 main_c_17 main_v51 (maxsi : (⟨S_, .i32⟩ : BufTy).Contents (Elt F) → (⟨S_, .i32⟩ : BufTy).Contents (Elt F) → (⟨S_, .i32⟩ : BufTy).Contents (Elt F)),
    StableHlo.unary main_v51 main_v52 (sitofp .f32 : (⟨S_, .i32⟩ : BufTy).Contents (Elt F) → (⟨S_, .f32⟩ : BufTy).Contents (Elt F)),
    StableHlo.binary main_v49 main_v52 main_v53 (Host.divf : (⟨S_, .f32⟩ : BufTy).Contents (Elt F) → (⟨S_, .f32⟩ : BufTy).Contents (Elt F) → (⟨S_, .f32⟩ : BufTy).Contents (Elt F)),
    StableHlo.nullary main_cst_18 (constant S_ .f32 0x00000000#32),
    StableHlo.TRef.ternary (.of main_v50) (.of main_v53) (.of main_cst_18) main_call1.v0 select,
    StableHlo.nullary main_cst_19 (constant S_ .f32 0x3BA3D70A#32),
    StableHlo.unary main_cst_19 main_v55 (broadcastInDim S8x10 ![] bcast_S_S8x10 : (⟨S_, .f32⟩ : BufTy).Contents (Elt F) → (⟨S8x10, .f32⟩ : BufTy).Contents (Elt F)),
    StableHlo.binary main_v40 main_v55 main_v56 (cmpf .ogt : (⟨S8x10, .f32⟩ : BufTy).Contents (Elt F) → (⟨S8x10, .f32⟩ : BufTy).Contents (Elt F) → (⟨S8x10, .i1⟩ : BufTy).Contents (Elt F)),
    StableHlo.nullary main_cst_20 (constant S_ .f32 0x3C23D70A#32),
    StableHlo.unary main_cst_20 main_v57 (broadcastInDim S8x10 ![] bcast_S_S8x10 : (⟨S_, .f32⟩ : BufTy).Contents (Elt F) → (⟨S8x10, .f32⟩ : BufTy).Contents (Elt F)),
    StableHlo.binary main_v40 main_v57 main_v58 (cmpf .olt : (⟨S8x10, .f32⟩ : BufTy).Contents (Elt F) → (⟨S8x10, .f32⟩ : BufTy).Contents (Elt F) → (⟨S8x10, .i1⟩ : BufTy).Contents (Elt F)),
    StableHlo.binary main_v56 main_v58 main_v59 (andi : (⟨S8x10, .i1⟩ : BufTy).Contents (Elt F) → (⟨S8x10, .i1⟩ : BufTy).Contents (Elt F) → (⟨S8x10, .i1⟩ : BufTy).Contents (Elt F)),
    StableHlo.binary main_v40 main_v40 main_v60 (mulf : (⟨S8x10, .f32⟩ : BufTy).Contents (Elt F) → (⟨S8x10, .f32⟩ : BufTy).Contents (Elt F) → (⟨S8x10, .f32⟩ : BufTy).Contents (Elt F)),
    StableHlo.unary main_v59 main_v61 ((extui 32 · natLt_1_32) : (⟨S8x10, .i1⟩ : BufTy).Contents (Elt F) → (⟨S8x10, .i32⟩ : BufTy).Contents (Elt F)),
    StableHlo.nullary main_c_21 (constantI S_ 32 0#32),
    StableHlo.binary main_v61 main_c_21 main_v62 ((fun x v => Host.reduce IntOp.addi x v reducesTo_S8x10_S_d0_1 h_S_) : (⟨S8x10, .i32⟩ : BufTy).Contents (Elt F) → (⟨S_, .i32⟩ : BufTy).Contents (Elt F) → (⟨S_, .i32⟩ : BufTy).Contents (Elt F)),
    StableHlo.nullary main_cst_22 (constant S_ .f32 0x00000000#32),
    StableHlo.TRef.unary (.of main_cst_22) main_call2.v0 id,
    StableHlo.TRef.unary main_call2.v0 main_call2.v1 (broadcastInDim S8x10 ![] bcast_S_S8x10),
    StableHlo.TRef.ternary (.of main_v59) (.of main_v60) main_call2.v1 main_call2.v2 select,
    StableHlo.nullary main_cst_23 (constant S_ .f32 0x00000000#32),
    StableHlo.binary main_v63 main_cst_23 main_v64 ((fun x v => Host.reduceAdd x v reducesTo_S8x10_S_d0_1 h_S_) : (⟨S8x10, .f32⟩ : BufTy).Contents (Elt F) → (⟨S_, .f32⟩ : BufTy).Contents (Elt F) → (⟨S_, .f32⟩ : BufTy).Contents (Elt F)),
    StableHlo.nullary main_c_24 (constantI S_ 32 0#32),
    StableHlo.binary main_v62 main_c_24 main_v65 (cmpi .sgt : (⟨S_, .i32⟩ : BufTy).Contents (Elt F) → (⟨S_, .i32⟩ : BufTy).Contents (Elt F) → (⟨S_, .i1⟩ : BufTy).Contents (Elt F)),
    StableHlo.nullary main_c_25 (constantI S_ 32 1#32),
    StableHlo.binary main_v62 main_c_25 main_v66 (maxsi : (⟨S_, .i32⟩ : BufTy).Contents (Elt F) → (⟨S_, .i32⟩ : BufTy).Contents (Elt F) → (⟨S_, .i32⟩ : BufTy).Contents (Elt F)),
    StableHlo.unary main_v66 main_v67 (sitofp .f32 : (⟨S_, .i32⟩ : BufTy).Contents (Elt F) → (⟨S_, .f32⟩ : BufTy).Contents (Elt F)),
    StableHlo.binary main_v64 main_v67 main_v68 (Host.divf : (⟨S_, .f32⟩ : BufTy).Contents (Elt F) → (⟨S_, .f32⟩ : BufTy).Contents (Elt F) → (⟨S_, .f32⟩ : BufTy).Contents (Elt F)),
    StableHlo.nullary main_cst_26 (constant S_ .f32 0x00000000#32),
    StableHlo.TRef.ternary (.of main_v65) (.of main_v68) (.of main_cst_26) main_call3.v0 select,
    StableHlo.nullary main_cst_27 (constant S_ .f32 0x42C80000#32),
    StableHlo.binary main_cst_27 main_v54 main_v70 (mulf : (⟨S_, .f32⟩ : BufTy).Contents (Elt F) → (⟨S_, .f32⟩ : BufTy).Contents (Elt F) → (⟨S_, .f32⟩ : BufTy).Contents (Elt F)),
    StableHlo.nullary main_cst_28 (constant S_ .f32 0x41200000#32),
    StableHlo.binary main_cst_28 main_v69 main_v71 (mulf : (⟨S_, .f32⟩ : BufTy).Contents (Elt F) → (⟨S_, .f32⟩ : BufTy).Contents (Elt F) → (⟨S_, .f32⟩ : BufTy).Contents (Elt F)),
    StableHlo.binary main_v70 main_v71 main_v72 (addf : (⟨S_, .f32⟩ : BufTy).Contents (Elt F) → (⟨S_, .f32⟩ : BufTy).Contents (Elt F) → (⟨S_, .f32⟩ : BufTy).Contents (Elt F)),
    StableHlo.nullary main_cst_29 (constant S_ .f32 0x00000000#32),
    StableHlo.binary main_v16 main_cst_29 main_v73 ((fun x v => Host.reduceAdd x v reducesTo_S8x778_S_d0_1 h_S_) : (⟨S8x778, .f32⟩ : BufTy).Contents (Elt F) → (⟨S_, .f32⟩ : BufTy).Contents (Elt F) → (⟨S_, .f32⟩ : BufTy).Contents (Elt F)),
    StableHlo.nullary main_cst_30 (constant S_ .f32 0x45C28000#32),
    StableHlo.binary main_v73 main_cst_30 main_v74 (Host.divf : (⟨S_, .f32⟩ : BufTy).Contents (Elt F) → (⟨S_, .f32⟩ : BufTy).Contents (Elt F) → (⟨S_, .f32⟩ : BufTy).Contents (Elt F)),
    StableHlo.unary main_v59 main_v75 ((extui 32 · natLt_1_32) : (⟨S8x10, .i1⟩ : BufTy).Contents (Elt F) → (⟨S8x10, .i32⟩ : BufTy).Contents (Elt F)),
    StableHlo.nullary main_c_31 (constantI S_ 32 0#32),
    StableHlo.binary main_v75 main_c_31 main_v76 ((fun x v => Host.reduce IntOp.addi x v reducesTo_S8x10_S_d0_1 h_S_) : (⟨S8x10, .i32⟩ : BufTy).Contents (Elt F) → (⟨S_, .i32⟩ : BufTy).Contents (Elt F) → (⟨S_, .i32⟩ : BufTy).Contents (Elt F)),
    StableHlo.unary main_v42 main_v77 ((extui 32 · natLt_1_32) : (⟨S8x778, .i1⟩ : BufTy).Contents (Elt F) → (⟨S8x778, .i32⟩ : BufTy).Contents (Elt F)),
    StableHlo.nullary main_c_32 (constantI S_ 32 0#32),
    StableHlo.binary main_v77 main_c_32 main_v78 ((fun x v => Host.reduce IntOp.addi x v reducesTo_S8x778_S_d0_1 h_S_) : (⟨S8x778, .i32⟩ : BufTy).Contents (Elt F) → (⟨S_, .i32⟩ : BufTy).Contents (Elt F) → (⟨S_, .i32⟩ : BufTy).Contents (Elt F)) ]

/-- @main's 118 operations, in order. -/
abbrev ops : List (HloOp τ sig (Elt F)) := ops0 ++ ops1

/-- The first window is its three pieces, one after the other. -/
theorem ops0_split : (ops0 : List (HloOp τ sig (Elt F))) = opsA ++ (opsB ++ opsT0) := rfl

set_option maxRecDepth 8192 in
theorem main_part0_eq (c : Dev nD) : main_part0 (F := F) c = seq ops0 := rfl
set_option maxRecDepth 8192 in
set_option maxHeartbeats 4000000 in
theorem main_part1_eq (c : Dev nD) : main_part1 (F := F) c = seq ops1 := rfl
/-- @main is that straight line: its two windows one after the other. -/
theorem main_eq (c : Dev nD) : main (F := F) c = seq ops := by
  simp only [ops, seq_append, ← main_part0_eq c, ← main_part1_eq c]
  rfl

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem ops0_sub : (ops0 : List (HloOp τ sig (Elt F))).Forall fun op => op.bufs ⊆ tcRefs τ sig :=
  ⟨nullary_bufs_sub .., binary_bufs_sub .., nullary_bufs_sub .., binary_bufs_sub .., unary_bufs_sub .., binary_bufs_sub .., nullary_bufs_sub .., binary_bufs_sub .., binary_bufs_sub .., unary_bufs_sub .., unary_bufs_sub .., unary_bufs_sub .., binary_bufs_sub .., nullary_bufs_sub .., unary_bufs_sub .., binary_bufs_sub .., binary_bufs_sub .., nullary_bufs_sub .., unary_bufs_sub .., binary_bufs_sub .., nullary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., binary_bufs_sub .., unary_bufs_sub .., binary_bufs_sub .., nullary_bufs_sub .., binary_bufs_sub .., binary_bufs_sub .., unary_bufs_sub .., unary_bufs_sub .., unary_bufs_sub .., binary_bufs_sub .., nullary_bufs_sub .., unary_bufs_sub .., binary_bufs_sub .., binary_bufs_sub .., nullary_bufs_sub .., unary_bufs_sub .., binary_bufs_sub .., nullary_bufs_sub .., binary_bufs_sub .., unary_bufs_sub .., nullary_bufs_sub .., unary_bufs_sub .., binary_bufs_sub .., nullary_bufs_sub .., unary_bufs_sub .., binary_bufs_sub ..⟩
set_option maxRecDepth 8192 in
theorem ops1_sub : (ops1 : List (HloOp τ sig (Elt F))).Forall fun op => op.bufs ⊆ tcRefs τ sig :=
  ⟨binary_bufs_sub .., unary_bufs_sub .., nullary_bufs_sub .., binary_bufs_sub .., nullary_bufs_sub .., unary_bufs_sub .., unary_bufs_sub .., ternary_bufs_sub .., nullary_bufs_sub .., binary_bufs_sub .., nullary_bufs_sub .., binary_bufs_sub .., nullary_bufs_sub .., binary_bufs_sub .., unary_bufs_sub .., binary_bufs_sub .., nullary_bufs_sub .., ternary_bufs_sub .., nullary_bufs_sub .., unary_bufs_sub .., binary_bufs_sub .., nullary_bufs_sub .., unary_bufs_sub .., binary_bufs_sub .., binary_bufs_sub .., binary_bufs_sub .., unary_bufs_sub .., nullary_bufs_sub .., binary_bufs_sub .., nullary_bufs_sub .., unary_bufs_sub .., unary_bufs_sub .., ternary_bufs_sub .., nullary_bufs_sub .., binary_bufs_sub .., nullary_bufs_sub .., binary_bufs_sub .., nullary_bufs_sub .., binary_bufs_sub .., unary_bufs_sub .., binary_bufs_sub .., nullary_bufs_sub .., ternary_bufs_sub .., nullary_bufs_sub .., binary_bufs_sub .., nullary_bufs_sub .., binary_bufs_sub .., binary_bufs_sub .., nullary_bufs_sub .., binary_bufs_sub .., nullary_bufs_sub .., binary_bufs_sub .., unary_bufs_sub .., nullary_bufs_sub .., binary_bufs_sub .., unary_bufs_sub .., nullary_bufs_sub .., binary_bufs_sub ..⟩
theorem ops_sub : (ops : List (HloOp τ sig (Elt F))).Forall fun op => op.bufs ⊆ tcRefs τ sig :=
  List.forall_iff_forall_mem.mpr fun op h => by
    simp only [ops, List.mem_append] at h
    rcases h with h | h
    exacts [List.forall_iff_forall_mem.mp ops0_sub op h, List.forall_iff_forall_mem.mp ops1_sub op h]

set_option maxRecDepth 8192 in
/-- On every device, for any float values, from any memory with zero counters: every weakly fair execution of
    @main terminates, and every final state has each buffer at the fold of the operations over the launch
    contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.Hand

end
-- ==== Proof.RefMath.lean ====
/-
  The reference's two distance arrays as pure functions of the hand vertices a : [8,778,3] and the object
  points b : [8,40000,3], at the ideal instance, written as the compositions of the program's operations, and
  each read at an index: the distance of hand vertex n of batch entry p to the object cloud of that entry is
  the square root of the least clipped squared distance (Cert.Spec.minDist); the contact distances are these
  at the ten contact vertices.
-/
import proofs.«164913_j87385404604975_2_alg».proof.Proof.Gen.ReferenceIdeal
import proofs.«164913_j87385404604975_2_alg».proof.Proof.Spec
import Idealize.ShloMosaic.PureOps.Ideal.Laws
import Idealize.ShloMosaic.Lib.ValueIdx
import Idealize.ShloMosaic.Lib.IdealHost
import Idealize.ShloMosaic.Lib.Pipeline.Value

noncomputable section

namespace Cert.ReferenceIdeal.Hand

open Cert.ReferenceIdeal Cert.ReferenceIdeal.Gen Idealize.ShloMosaic Idealize.ShloMosaic.ValueIdx
open scoped BigOperators

/-! ## The distances of all hand vertices -/

/-- The clipped squared distance of every hand vertex to every object point:
    max (|a|² + |b|² - 2·⟨a, b⟩, 0), the squared norms sums from 0 broadcast along the other cloud's axis. -/
def clip778 (a : FVec Ideal S8x778x3 .f32) (b : FVec Ideal S8x40000x3 .f32) : FVec Ideal S8x778x40000 .f32 :=
  maximumf
    (subf
      (addf
        (broadcastInDim S8x778x40000 ![0, 1, 2] bcast_S8x778x1_S8x778x40000_0_1_2
          (broadcastInDim S8x778x1 ![0, 1] bcast_S8x778_S8x778x1_0_1
            (Host.reduceAdd (mulf a a) (constant S_ .f32 0x00000000#32) reducesTo_S8x778x3_S8x778_d2 h_S_)))
        (broadcastInDim S8x778x40000 ![0, 1, 2] bcast_S8x1x40000_S8x778x40000_0_1_2
          (broadcastInDim S8x1x40000 ![0, 2] bcast_S8x40000_S8x1x40000_0_2
            (Host.reduceAdd (mulf b b) (constant S_ .f32 0x00000000#32) reducesTo_S8x40000x3_S8x40000_d2 h_S_))))
      (mulf (broadcastInDim S8x778x40000 ![] bcast_S_S8x778x40000 (constant S_ .f32 0x40000000#32))
        (Host.dotGeneral dot_S8x778x3_S8x40000x3_S8x778x40000_2_2_1_1_0_0 none a b)))
    (broadcastInDim S8x778x40000 ![] bcast_S_S8x778x40000 (constant S_ .f32 0x00000000#32))

/-- The distance of every hand vertex to the object cloud: the square root of the minimum, from +∞, of the
    clipped squared distances over the object points. -/
def refDists (a : FVec Ideal S8x778x3 .f32) (b : FVec Ideal S8x40000x3 .f32) : FVec Ideal S8x778 .f32 :=
  Host.sqrt (Host.reduce FloatOps.minimumf (clip778 a b) (constant S_ .f32 0x7F800000#32)
    reducesTo_S8x778x40000_S8x778_d2 h_S_)

/-! ## The contact distances -/

/-- The table of the ten contact vertices, as the program's constant. -/
def ctable : IVec S10 32 := fun i => lit0 (S10.rowMajor i)

/-- The gather's start indices from a table c: a negative entry wrapped by 778 (select(c < 0, c + 778, c)), as a
    column. -/
def cstart (c : IVec S10 32) : IVec S10x1 32 :=
  broadcastInDim S10x1 ![0] bcast_S10_S10x1_0
    (select (cmpi .slt c (broadcastInDim S10 ![] bcast_S_S10 (constantI S_ 32 0#32)))
      (addi c (broadcastInDim S10 ![] bcast_S_S10 (constantI S_ 32 778#32))) c)

/-- The hand vertices at the table's entries. -/
def gathered (c : IVec S10 32) (a : FVec Ideal S8x778x3 .f32) : FVec Ideal S8x10x3 .f32 :=
  Host.gather gather_S8x778x3_S10x1_S8x10x3_02_1_n_n_1_1_813 a (cstart c)

/-- The clipped squared distance of ten vertices g to every object point. -/
def clip10 (g : FVec Ideal S8x10x3 .f32) (b : FVec Ideal S8x40000x3 .f32) : FVec Ideal S8x10x40000 .f32 :=
  maximumf
    (subf
      (addf
        (broadcastInDim S8x10x40000 ![0, 1, 2] bcast_S8x10x1_S8x10x40000_0_1_2
          (broadcastInDim S8x10x1 ![0, 1] bcast_S8x10_S8x10x1_0_1
            (Host.reduceAdd (mulf g g) (constant S_ .f32 0x00000000#32) reducesTo_S8x10x3_S8x10_d2 h_S_)))
        (broadcastInDim S8x10x40000 ![0, 1, 2] bcast_S8x1x40000_S8x10x40000_0_1_2
          (broadcastInDim S8x1x40000 ![0, 2] bcast_S8x40000_S8x1x40000_0_2
            (Host.reduceAdd (mulf b b) (constant S_ .f32 0x00000000#32) reducesTo_S8x40000x3_S8x40000_d2 h_S_))))
      (mulf (broadcastInDim S8x10x40000 ![] bcast_S_S8x10x40000 (constant S_ .f32 0x40000000#32))
        (Host.dotGeneral dot_S8x10x3_S8x40000x3_S8x10x40000_2_2_1_1_0_0 none g b)))
    (broadcastInDim S8x10x40000 ![] bcast_S_S8x10x40000 (constant S_ .f32 0x00000000#32))

/-- The distance of ten vertices g to the object cloud. -/
def dists10 (g : FVec Ideal S8x10x3 .f32) (b : FVec Ideal S8x40000x3 .f32) : FVec Ideal S8x10 .f32 :=
  Host.sqrt (Host.reduce FloatOps.minimumf (clip10 g b) (constant S_ .f32 0x7F800000#32)
    reducesTo_S8x10x40000_S8x10_d2 h_S_)

/-- The contact distances: the distances of the hand vertices at the contact table to the object cloud. -/
def refContact (a : FVec Ideal S8x778x3 .f32) (b : FVec Ideal S8x40000x3 .f32) : FVec Ideal S8x10 .f32 :=
  dists10 (gathered ctable a) b

end Cert.ReferenceIdeal.Hand

end
-- ==== Proof.RefPieces.lean ====
/-
  The reference's straight line read piece by piece over arbitrary contents: the fold of a concatenation is the
  folds in order; the first piece leaves the distances of all hand vertices and the contact table; the second the
  contact distances; neither touches the arguments.
-/
import proofs.«164913_j87385404604975_2_alg».proof.Proof.RefRun
import proofs.«164913_j87385404604975_2_alg».proof.Proof.RefMath
import proofs.«164913_j87385404604975_2_alg».proof.Proof.Tail

noncomputable section

namespace Cert.ReferenceIdeal.Hand

open Cert.ReferenceIdeal Cert.ReferenceIdeal.Gen Idealize.ShloMosaic Idealize.ShloMosaic.TcCoe Idealize.SL.Sem Idealize.ShloMosaic.StableHlo

/-- The contents after two lines run one after the other. -/
theorem after_append {Val : EltTy → Type} (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- The whole line's fold is the pieces' folds, in order. -/
theorem after_ops_eq {F : FTy → Type} [FloatOps F] (V : Valuation τ sig (Elt F)) :
    after ops V = after ops1 (after opsT0 (after opsB (after opsA V))) := by
  simp only [ops, ops0_split, after_append]

/-- The tail's shape relations, from the program's. -/
theorem tailFacts : Cert.Tail.Facts :=
  ⟨bcast_S_S8x778, bcast_S_S8x10, reducesTo_S8x778_S_d0_1, reducesTo_S8x10_S_d0_1, h_S_, natLt_1_32⟩

variable (V : Valuation τ sig (Elt Ideal))

/-! ### The first piece -/

attribute [local irreducible] Host.reduce Host.reduceAdd Host.gather in
set_option maxRecDepth 8192 in
set_option maxHeartbeats 4000000 in
theorem afterA_v16 : after (opsA (F := Ideal)) V (main_v16 : DevRef τ sig)
    = refDists (V (main_arg0 : DevRef τ sig)) (V (main_arg1 : DevRef τ sig)) := by
  after_results_simp
  unfold refDists clip778
  rfl
attribute [local irreducible] Host.reduce Host.reduceAdd Host.gather in
set_option maxRecDepth 8192 in
set_option maxHeartbeats 4000000 in
theorem afterA_c : after (opsA (F := Ideal)) V (main_c : DevRef τ sig) = ctable := by
  after_results_simp
  unfold ctable
  rfl
attribute [local irreducible] Host.reduce Host.reduceAdd Host.gather in
set_option maxRecDepth 8192 in
set_option maxHeartbeats 4000000 in
theorem keepA_arg0 : after (opsA (F := Ideal)) V (main_arg0 : DevRef τ sig) = V (main_arg0 : DevRef τ sig) := by
  after_results_simp
attribute [local irreducible] Host.reduce Host.reduceAdd Host.gather in
set_option maxRecDepth 8192 in
set_option maxHeartbeats 4000000 in
theorem keepA_arg1 : after (opsA (F := Ideal)) V (main_arg1 : DevRef τ sig) = V (main_arg1 : DevRef τ sig) := by
  after_results_simp
attribute [local irreducible] Host.reduce Host.reduceAdd Host.gather in
set_option maxRecDepth 8192 in
set_option maxHeartbeats 4000000 in
theorem keepA_arg2 : after (opsA (F := Ideal)) V (main_arg2 : DevRef τ sig) = V (main_arg2 : DevRef τ sig) := by
  after_results_simp
attribute [local irreducible] Host.reduce Host.reduceAdd Host.gather in
set_option maxRecDepth 8192 in
set_option maxHeartbeats 4000000 in
theorem keepA_arg3 : after (opsA (F := Ideal)) V (main_arg3 : DevRef τ sig) = V (main_arg3 : DevRef τ sig) := by
  after_results_simp

/-! ### The second piece -/

attribute [local irreducible] Host.reduce Host.reduceAdd Host.gather in
set_option maxRecDepth 8192 in
set_option maxHeartbeats 4000000 in
theorem afterB_v40 : after (opsB (F := Ideal)) V (main_v40 : DevRef τ sig)
    = dists10 (gathered (V (main_c : DevRef τ sig)) (V (main_arg0 : DevRef τ sig))) (V (main_arg1 : DevRef τ sig)) := by
  after_results_simp
  unfold dists10 clip10 gathered cstart
  rfl
attribute [local irreducible] Host.reduce Host.reduceAdd Host.gather in
set_option maxRecDepth 8192 in
set_option maxHeartbeats 4000000 in
theorem afterB_v16 : after (opsB (F := Ideal)) V (main_v16 : DevRef τ sig) = V (main_v16 : DevRef τ sig) := by
  after_results_simp
attribute [local irreducible] Host.reduce Host.reduceAdd Host.gather in
set_option maxRecDepth 8192 in
set_option maxHeartbeats 4000000 in
theorem keepB_arg0 : after (opsB (F := Ideal)) V (main_arg0 : DevRef τ sig) = V (main_arg0 : DevRef τ sig) := by
  after_results_simp
attribute [local irreducible] Host.reduce Host.reduceAdd Host.gather in
set_option maxRecDepth 8192 in
set_option maxHeartbeats 4000000 in
theorem keepB_arg1 : after (opsB (F := Ideal)) V (main_arg1 : DevRef τ sig) = V (main_arg1 : DevRef τ sig) := by
  after_results_simp
attribute [local irreducible] Host.reduce Host.reduceAdd Host.gather in
set_option maxRecDepth 8192 in
set_option maxHeartbeats 4000000 in
theorem keepB_arg2 : after (opsB (F := Ideal)) V (main_arg2 : DevRef τ sig) = V (main_arg2 : DevRef τ sig) := by
  after_results_simp
attribute [local irreducible] Host.reduce Host.reduceAdd Host.gather in
set_option maxRecDepth 8192 in
set_option maxHeartbeats 4000000 in
theorem keepB_arg3 : after (opsB (F := Ideal)) V (main_arg3 : DevRef τ sig) = V (main_arg3 : DevRef τ sig) := by
  after_results_simp

/-! ### The first six operations of the tail -/

attribute [local irreducible] Host.reduce Host.reduceAdd Host.gather in
set_option maxRecDepth 8192 in
set_option maxHeartbeats 4000000 in
theorem keepT0_arg0 : after (opsT0 (F := Ideal)) V (main_arg0 : DevRef τ sig) = V (main_arg0 : DevRef τ sig) := by
  after_results_simp
attribute [local irreducible] Host.reduce Host.reduceAdd Host.gather in
set_option maxRecDepth 8192 in
set_option maxHeartbeats 4000000 in
theorem keepT0_arg1 : after (opsT0 (F := Ideal)) V (main_arg1 : DevRef τ sig) = V (main_arg1 : DevRef τ sig) := by
  after_results_simp
attribute [local irreducible] Host.reduce Host.reduceAdd Host.gather in
set_option maxRecDepth 8192 in
set_option maxHeartbeats 4000000 in
theorem keepT0_arg2 : after (opsT0 (F := Ideal)) V (main_arg2 : DevRef τ sig) = V (main_arg2 : DevRef τ sig) := by
  after_results_simp
attribute [local irreducible] Host.reduce Host.reduceAdd Host.gather in
set_option maxRecDepth 8192 in
set_option maxHeartbeats 4000000 in
theorem keepT0_arg3 : after (opsT0 (F := Ideal)) V (main_arg3 : DevRef τ sig) = V (main_arg3 : DevRef τ sig) := by
  after_results_simp

end Cert.ReferenceIdeal.Hand

end
-- ==== Proof.RefTailA.lean ====
/-
  The reference's tail read over arbitrary contents: after its operations the result buffers hold the shared tail
  functions of the two distance arrays' buffers.
-/
import proofs.«164913_j87385404604975_2_alg».proof.Proof.RefPieces

noncomputable section

namespace Cert.ReferenceIdeal.Hand

open Cert.ReferenceIdeal Cert.ReferenceIdeal.Gen Idealize.ShloMosaic Idealize.ShloMosaic.TcCoe Idealize.SL.Sem Idealize.ShloMosaic.StableHlo

variable (V : Valuation τ sig (Elt Ideal))

attribute [local irreducible] Host.reduce Host.reduceAdd Host.gather in
set_option maxRecDepth 8192 in
set_option maxHeartbeats 4000000 in
theorem afterT_v72 : after (ops1 (F := Ideal)) (after opsT0 V) (main_v72 : DevRef τ sig)
    = Cert.Tail.contactLoss tailFacts (V (main_v16 : DevRef τ sig)) (V (main_v40 : DevRef τ sig)) := by
  after_results_simp
  simp only [TRef.ofBuf, TRef.toBuf, cast_eq]
  unfold Cert.Tail.contactLoss Cert.Tail.penLoss Cert.Tail.attLoss Cert.Tail.penSum Cert.Tail.penCount Cert.Tail.penSq Cert.Tail.penMask Cert.Tail.attSum Cert.Tail.attCount Cert.Tail.attMask
  rfl
attribute [local irreducible] Host.reduce Host.reduceAdd Host.gather in
set_option maxRecDepth 8192 in
set_option maxHeartbeats 4000000 in
theorem afterT_v54 : after (ops1 (F := Ideal)) (after opsT0 V) (main_v54 : DevRef τ sig)
    = Cert.Tail.penLoss tailFacts (V (main_v16 : DevRef τ sig)) := by
  after_results_simp
  simp only [TRef.ofBuf, TRef.toBuf, cast_eq]
  unfold Cert.Tail.penLoss Cert.Tail.penSum Cert.Tail.penCount Cert.Tail.penSq Cert.Tail.penMask
  rfl

end Cert.ReferenceIdeal.Hand

end
-- ==== Proof.RefTailB.lean ====
/-
  The reference's tail read over arbitrary contents: after its operations the result buffers hold the shared tail
  functions of the two distance arrays' buffers.
-/
import proofs.«164913_j87385404604975_2_alg».proof.Proof.RefPieces

noncomputable section

namespace Cert.ReferenceIdeal.Hand

open Cert.ReferenceIdeal Cert.ReferenceIdeal.Gen Idealize.ShloMosaic Idealize.ShloMosaic.TcCoe Idealize.SL.Sem Idealize.ShloMosaic.StableHlo

variable (V : Valuation τ sig (Elt Ideal))

attribute [local irreducible] Host.reduce Host.reduceAdd Host.gather in
set_option maxRecDepth 8192 in
set_option maxHeartbeats 4000000 in
theorem afterT_v69 : after (ops1 (F := Ideal)) (after opsT0 V) (main_v69 : DevRef τ sig)
    = Cert.Tail.attLoss tailFacts (V (main_v40 : DevRef τ sig)) := by
  after_results_simp
  simp only [TRef.ofBuf, TRef.toBuf, cast_eq]
  unfold Cert.Tail.attLoss Cert.Tail.attSum Cert.Tail.attCount Cert.Tail.attMask
  rfl
attribute [local irreducible] Host.reduce Host.reduceAdd Host.gather in
set_option maxRecDepth 8192 in
set_option maxHeartbeats 4000000 in
theorem afterT_v74 : after (ops1 (F := Ideal)) (after opsT0 V) (main_v74 : DevRef τ sig)
    = Cert.Tail.distMean tailFacts (V (main_v16 : DevRef τ sig)) := by
  after_results_simp
  try simp only [TRef.ofBuf, TRef.toBuf, cast_eq]
  unfold Cert.Tail.distMean
  rfl
attribute [local irreducible] Host.reduce Host.reduceAdd Host.gather in
set_option maxRecDepth 8192 in
set_option maxHeartbeats 4000000 in
theorem afterT_v76 : after (ops1 (F := Ideal)) (after opsT0 V) (main_v76 : DevRef τ sig)
    = Cert.Tail.numContacts tailFacts (V (main_v40 : DevRef τ sig)) := by
  after_results_simp
  try simp only [TRef.ofBuf, TRef.toBuf, cast_eq]
  unfold Cert.Tail.numContacts Cert.Tail.attMask
  rfl
attribute [local irreducible] Host.reduce Host.reduceAdd Host.gather in
set_option maxRecDepth 8192 in
set_option maxHeartbeats 4000000 in
theorem afterT_v78 : after (ops1 (F := Ideal)) (after opsT0 V) (main_v78 : DevRef τ sig)
    = Cert.Tail.numPen tailFacts (V (main_v16 : DevRef τ sig)) := by
  after_results_simp
  try simp only [TRef.ofBuf, TRef.toBuf, cast_eq]
  unfold Cert.Tail.numPen Cert.Tail.penMask
  rfl

end Cert.ReferenceIdeal.Hand

end
-- ==== Proof.RefKeep.lean ====
/-
  The reference's second window leaves the four arguments as they were.
-/
import proofs.«164913_j87385404604975_2_alg».proof.Proof.RefPieces

noncomputable section

namespace Cert.ReferenceIdeal.Hand

open Cert.ReferenceIdeal Cert.ReferenceIdeal.Gen Idealize.ShloMosaic Idealize.ShloMosaic.TcCoe Idealize.SL.Sem Idealize.ShloMosaic.StableHlo

variable (V : Valuation τ sig (Elt Ideal))

attribute [local irreducible] Host.reduce Host.reduceAdd Host.gather in
set_option maxRecDepth 8192 in
set_option maxHeartbeats 4000000 in
theorem keep1_arg0 : after (ops1 (F := Ideal)) V (main_arg0 : DevRef τ sig) = V (main_arg0 : DevRef τ sig) := by
  after_results_simp
attribute [local irreducible] Host.reduce Host.reduceAdd Host.gather in
set_option maxRecDepth 8192 in
set_option maxHeartbeats 4000000 in
theorem keep1_arg1 : after (ops1 (F := Ideal)) V (main_arg1 : DevRef τ sig) = V (main_arg1 : DevRef τ sig) := by
  after_results_simp
attribute [local irreducible] Host.reduce Host.reduceAdd Host.gather in
set_option maxRecDepth 8192 in
set_option maxHeartbeats 4000000 in
theorem keep1_arg2 : after (ops1 (F := Ideal)) V (main_arg2 : DevRef τ sig) = V (main_arg2 : DevRef τ sig) := by
  after_results_simp
attribute [local irreducible] Host.reduce Host.reduceAdd Host.gather in
set_option maxRecDepth 8192 in
set_option maxHeartbeats 4000000 in
theorem keep1_arg3 : after (ops1 (F := Ideal)) V (main_arg3 : DevRef τ sig) = V (main_arg3 : DevRef τ sig) := by
  after_results_simp

end Cert.ReferenceIdeal.Hand

end
-- ==== Proof.RefValue.lean ====
/-
  The reference's run read back: after the pieces of its straight line, each result buffer holds the shared tail
  (Cert.Tail) of the two distance arrays refDists and refContact of the arguments, and the arguments are unchanged.
-/
import proofs.«164913_j87385404604975_2_alg».proof.Defs
import proofs.«164913_j87385404604975_2_alg».proof.Proof.Gen.Pre_finite_inputs
import proofs.«164913_j87385404604975_2_alg».proof.Proof.RefPieces
import proofs.«164913_j87385404604975_2_alg».proof.Proof.RefTailA
import proofs.«164913_j87385404604975_2_alg».proof.Proof.RefTailB
import proofs.«164913_j87385404604975_2_alg».proof.Proof.RefKeep

noncomputable section

namespace Cert.ReferenceIdeal.Hand

open Cert.ReferenceIdeal Cert.ReferenceIdeal.Gen Idealize.ShloMosaic Idealize.ShloMosaic.TcCoe Idealize.SL.Sem Idealize.ShloMosaic.StableHlo

/-- The six results after the whole line, from any contents. -/
theorem value (V : Valuation τ sig (Elt Ideal)) :
    after (ops (F := Ideal)) V (main_v72 : DevRef τ sig)
        = Cert.Tail.contactLoss tailFacts (refDists (V (main_arg0 : DevRef τ sig)) (V (main_arg1 : DevRef τ sig)))
            (refContact (V (main_arg0 : DevRef τ sig)) (V (main_arg1 : DevRef τ sig)))
      ∧ after (ops (F := Ideal)) V (main_v54 : DevRef τ sig)
        = Cert.Tail.penLoss tailFacts (refDists (V (main_arg0 : DevRef τ sig)) (V (main_arg1 : DevRef τ sig)))
      ∧ after (ops (F := Ideal)) V (main_v69 : DevRef τ sig)
        = Cert.Tail.attLoss tailFacts (refContact (V (main_arg0 : DevRef τ sig)) (V (main_arg1 : DevRef τ sig)))
      ∧ after (ops (F := Ideal)) V (main_v74 : DevRef τ sig)
        = Cert.Tail.distMean tailFacts (refDists (V (main_arg0 : DevRef τ sig)) (V (main_arg1 : DevRef τ sig)))
      ∧ after (ops (F := Ideal)) V (main_v76 : DevRef τ sig)
        = Cert.Tail.numContacts tailFacts (refContact (V (main_arg0 : DevRef τ sig)) (V (main_arg1 : DevRef τ sig)))
      ∧ after (ops (F := Ideal)) V (main_v78 : DevRef τ sig)
        = Cert.Tail.numPen tailFacts (refDists (V (main_arg0 : DevRef τ sig)) (V (main_arg1 : DevRef τ sig))) := by
  rw [after_ops_eq]
  have hA16 := afterA_v16 V
  have hAc := afterA_c V
  have hA0 := keepA_arg0 V
  have hA1 := keepA_arg1 V
  generalize after (opsA (F := Ideal)) V = W at hA16 hAc hA0 hA1 ⊢
  have hB40 := afterB_v40 W
  have hB16 := afterB_v16 W
  rw [hAc, hA0, hA1] at hB40
  rw [hA16] at hB16
  generalize after (opsB (F := Ideal)) W = X at hB40 hB16 ⊢
  rw [afterT_v72, afterT_v54, afterT_v69, afterT_v74, afterT_v76, afterT_v78, hB16, hB40]
  exact ⟨rfl, rfl, rfl, rfl, rfl, rfl⟩

/-! ## The arguments -/

theorem keep_arg0 (V : Valuation τ sig (Elt Ideal)) :
    after (ops (F := Ideal)) V (main_arg0 : DevRef τ sig) = V (main_arg0 : DevRef τ sig) := by
  rw [after_ops_eq, keep1_arg0, keepT0_arg0, keepB_arg0, keepA_arg0]
theorem keep_arg1 (V : Valuation τ sig (Elt Ideal)) :
    after (ops (F := Ideal)) V (main_arg1 : DevRef τ sig) = V (main_arg1 : DevRef τ sig) := by
  rw [after_ops_eq, keep1_arg1, keepT0_arg1, keepB_arg1, keepA_arg1]
theorem keep_arg2 (V : Valuation τ sig (Elt Ideal)) :
    after (ops (F := Ideal)) V (main_arg2 : DevRef τ sig) = V (main_arg2 : DevRef τ sig) := by
  rw [after_ops_eq, keep1_arg2, keepT0_arg2, keepB_arg2, keepA_arg2]
theorem keep_arg3 (V : Valuation τ sig (Elt Ideal)) :
    after (ops (F := Ideal)) V (main_arg3 : DevRef τ sig) = V (main_arg3 : DevRef τ sig) := by
  rw [after_ops_eq, keep1_arg3, keepT0_arg3, keepB_arg3, keepA_arg3]

/-! ## The run -/

/-- The reference runs, and its argument arrays end unchanged. -/
theorem frame_ri : Cert.frame_ReferenceIdeal := fun m g _ =>
  (θ_run _ _ _).mono (fun _ h c =>
      ⟨(h c main_arg0).trans (keep_arg0 _), (h c main_arg1).trans (keep_arg1 _),
        (h c main_arg2).trans (keep_arg2 _), (h c main_arg3).trans (keep_arg3 _)⟩)
    (run_main m g)

/-- At the ideal instance, from any memory with zero counters: every weakly fair execution of @main terminates
    with the six results at the shared tail of the two distance arrays of the arguments, the arguments
    unchanged. -/
theorem run_value (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v72) = Cert.Tail.contactLoss tailFacts (refDists (m ((c.tc : Thread nD τ).loc main_arg0)) (m ((c.tc : Thread nD τ).loc main_arg1))) (refContact (m ((c.tc : Thread nD τ).loc main_arg0)) (m ((c.tc : Thread nD τ).loc main_arg1)))
      ∧ r.2.mem ((c.tc : Thread nD τ).loc main_v54) = Cert.Tail.penLoss tailFacts (refDists (m ((c.tc : Thread nD τ).loc main_arg0)) (m ((c.tc : Thread nD τ).loc main_arg1)))
      ∧ r.2.mem ((c.tc : Thread nD τ).loc main_v69) = Cert.Tail.attLoss tailFacts (refContact (m ((c.tc : Thread nD τ).loc main_arg0)) (m ((c.tc : Thread nD τ).loc main_arg1)))
      ∧ r.2.mem ((c.tc : Thread nD τ).loc main_v74) = Cert.Tail.distMean tailFacts (refDists (m ((c.tc : Thread nD τ).loc main_arg0)) (m ((c.tc : Thread nD τ).loc main_arg1)))
      ∧ r.2.mem ((c.tc : Thread nD τ).loc main_v76) = Cert.Tail.numContacts tailFacts (refContact (m ((c.tc : Thread nD τ).loc main_arg0)) (m ((c.tc : Thread nD τ).loc main_arg1)))
      ∧ r.2.mem ((c.tc : Thread nD τ).loc main_v78) = Cert.Tail.numPen tailFacts (refDists (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run _ _ _).mono (fun _ h c => by
      obtain ⟨h72, h54, h69, h74, h76, h78⟩ := value (launchContents m c)
      exact ⟨(h c main_v72).trans h72, (h c main_v54).trans h54, (h c main_v69).trans h69,
        (h c main_v74).trans h74, (h c main_v76).trans h76, (h c main_v78).trans h78,
        (h c main_arg0).trans (keep_arg0 _), (h c main_arg1).trans (keep_arg1 _),
        (h c main_arg2).trans (keep_arg2 _), (h c main_arg3).trans (keep_arg3 _)⟩)
    (run_main m ρ)

end Cert.ReferenceIdeal.Hand

end
-- ==== Proof.RefDistsApply.lean ====
/-
  The distances of all hand vertices read at an index: at batch entry p and hand vertex n, the square root of the
  infimum over the 40000 object points of the clipped squared distance.  The sum of squares over the coordinate axis
  is the initial 0 plus the sum; the product with one contracted axis is the sum of the coordinates' products; the
  minimum over the object axis from +∞ is the infimum.
-/
import proofs.«164913_j87385404604975_2_alg».proof.Proof.RefMath
import proofs.«164913_j87385404604975_2_alg».proof.Proof.LibMinAxis0

noncomputable section

namespace Cert.ReferenceIdeal.Hand

open Cert.ReferenceIdeal Cert.ReferenceIdeal.Gen Idealize.ShloMosaic Idealize.ShloMosaic.ValueIdx
open scoped BigOperators

/-- The host's square root at an index is the extended reals' square root of the element. -/
theorem hostSqrt_apply {s : Shape} {φ : FTy} (x : FVec Ideal s φ) (i : s.Idx) : Host.sqrt x i = Ideal.sqrt (x i) := rfl

/-- The sum of squares over the last axis of a rank-3 array, from the word of 0, read at an index. -/
theorem sumsq_apply {G N K : ℕ} (x : FVec Ideal ⟨3, ![G, N, K]⟩ .f32)
    (h' : (⟨3, ![G, N, K]⟩ : Shape).ReducesTo [2] ⟨2, ![G, N]⟩) (h : (⟨3, ![G, N, K]⟩ : Shape).Reduces [2] ⟨2, ![G, N]⟩)
    (hu : 0 < (⟨0, ![]⟩ : Shape).numel) (p : Fin G) (n : Fin N) :
    Host.reduceAdd (mulf x x) (constant (F := Ideal) ⟨0, ![]⟩ .f32 0x00000000#32) h' hu (ix2 p n)
      = ∑ d : Fin K, x (ix3 p n d) * x (ix3 p n d) := by
  rw [hostReduceAdd_apply, Ideal.hostReduceAdd_single h' h, constant_apply, Ideal.ofBits_zero_f32, zero_add]
  refine Finset.sum_congr rfl fun (d : Fin K) _ => ?_
  have hl : h.lift (ix2 p n) d = ix3 p n d := by
    funext ax; apply Fin.ext
    match ax with
    | ⟨0, _⟩ => rfl
    | ⟨1, _⟩ => rfl
    | ⟨2, _⟩ => rfl
  show x (h.lift (ix2 p n) d) * x (h.lift (ix2 p n) d) = _
  rw [hl]

/-- The product of two stacks of row vectors contracted on their last axes — dot_general over [G, m, k] and
    [G, n, k] with batch axes 0 and 0 and contracting axes 2 and 2 — read at an index: the sum over the contracted
    coordinate of the products of the entries. -/
theorem dotGeneral_nt_apply {G m n k : ℕ} {φ₁ φ₂ : FTy}
    (w : DotDims.WF ⟨3, ![G, m, k]⟩ ⟨3, ![G, n, k]⟩ ⟨3, ![G, m, n]⟩ [2] [2] [1] [1] [0] [0])
    (prec : Option ContractPrecision) (A : FVec Ideal ⟨3, ![G, m, k]⟩ φ₁) (B : FVec Ideal ⟨3, ![G, n, k]⟩ φ₂)
    (g : Fin G) (a : Fin m) (b : Fin n) :
    Host.dotGeneral (⟨[2], [2], [1], [1], [0], [0], w⟩ : DotDims _ _ _) prec A B (ix3 g a b)
      = ∑ c : Fin k, A (ix3 g a c) * B (ix3 g b c) := by
  show FloatOps.dotGeneral _ prec _ A B (ix3 g a b) = _
  rw [Ideal.dotGeneral_apply,
    ← Equiv.sum_comp (contrEquiv1 (⟨[2], [2], [1], [1], [0], [0], w⟩ : DotDims _ _ _) k rfl rfl).symm]
  refine Finset.sum_congr rfl fun c _ => ?_
  have c3 := contrEquiv1_symm_val
    (⟨[2], [2], [1], [1], [0], [0], w⟩ : DotDims ⟨3, ![G, m, k]⟩ ⟨3, ![G, n, k]⟩ ⟨3, ![G, m, n]⟩) k rfl rfl c
  have l3 : (⟨[2], [2], [1], [1], [0], [0], w⟩ : DotDims ⟨3, ![G, m, k]⟩ ⟨3, ![G, n, k]⟩ ⟨3, ![G, m, n]⟩).lhsIdx (ix3 g a b)
      ((contrEquiv1 _ k rfl rfl).symm c) = ix3 g a c := by
    funext ax; apply Fin.ext
    match ax with
    | ⟨0, _⟩ => simp [DotDims.lhsIdx]; rfl
    | ⟨1, _⟩ => simp [DotDims.lhsIdx]; rfl
    | ⟨2, _⟩ => simp [DotDims.lhsIdx]; exact c3
  have r3 : (⟨[2], [2], [1], [1], [0], [0], w⟩ : DotDims ⟨3, ![G, m, k]⟩ ⟨3, ![G, n, k]⟩ ⟨3, ![G, m, n]⟩).rhsIdx (ix3 g a b)
      ((contrEquiv1 _ k rfl rfl).symm c) = ix3 g b c := by
    funext ax; apply Fin.ext
    match ax with
    | ⟨0, _⟩ => simp [DotDims.rhsIdx]; rfl
    | ⟨1, _⟩ => simp [DotDims.rhsIdx]; rfl
    | ⟨2, _⟩ => simp [DotDims.rhsIdx]; exact c3
  rw [l3, r3]

/-- The clipped squared distance of hand vertex n to object point k, in batch entry p. -/
theorem clip778_apply (a : FVec Ideal S8x778x3 .f32) (b : FVec Ideal S8x40000x3 .f32) (p : Fin 8) (n : Fin 778)
    (k : Fin 40000) :
    clip778 a b (ix3 p n k) = Cert.Spec.d2 (fun d => a (ix3 p n d)) (fun d => b (ix3 p k d)) := by
  have hA : broadcastInDim S8x778x40000 ![0, 1, 2] bcast_S8x778x1_S8x778x40000_0_1_2
        (broadcastInDim S8x778x1 ![0, 1] bcast_S8x778_S8x778x1_0_1
          (Host.reduceAdd (mulf a a) (constant S_ .f32 0x00000000#32) reducesTo_S8x778x3_S8x778_d2 h_S_)) (ix3 p n k)
      = ∑ d : Fin 3, a (ix3 p n d) * a (ix3 p n d) := by
    rw [broadcastInDim_apply _ _ _ _ (ix3 p n (0 : Fin 1)) (fun ax => by match ax with | ⟨0, _⟩ => rfl | ⟨1, _⟩ => rfl | ⟨2, _⟩ => rfl),
      broadcastInDim_apply _ _ _ _ (ix2 p n) (fun ax => by match ax with | ⟨0, _⟩ => rfl | ⟨1, _⟩ => rfl)]
    exact sumsq_apply a _ (by decide) _ p n
  have hB : broadcastInDim S8x778x40000 ![0, 1, 2] bcast_S8x1x40000_S8x778x40000_0_1_2
        (broadcastInDim S8x1x40000 ![0, 2] bcast_S8x40000_S8x1x40000_0_2
          (Host.reduceAdd (mulf b b) (constant S_ .f32 0x00000000#32) reducesTo_S8x40000x3_S8x40000_d2 h_S_)) (ix3 p n k)
      = ∑ d : Fin 3, b (ix3 p k d) * b (ix3 p k d) := by
    rw [broadcastInDim_apply _ _ _ _ (ix3 p (0 : Fin 1) k) (fun ax => by match ax with | ⟨0, _⟩ => rfl | ⟨1, _⟩ => rfl | ⟨2, _⟩ => rfl),
      broadcastInDim_apply _ _ _ _ (ix2 p k) (fun ax => by match ax with | ⟨0, _⟩ => rfl | ⟨1, _⟩ => rfl)]
    exact sumsq_apply b _ (by decide) _ p k
  have hD : Host.dotGeneral dot_S8x778x3_S8x40000x3_S8x778x40000_2_2_1_1_0_0 none a b (ix3 p n k)
      = ∑ d : Fin 3, a (ix3 p n d) * b (ix3 p k d) :=
    dotGeneral_nt_apply _ none a b p n k
  have e2 : broadcastInDim S8x778x40000 ![] bcast_S_S8x778x40000 (constant (F := Ideal) S_ .f32 0x40000000#32) (ix3 p n k)
      = Ideal.ofBits .f32 0x40000000#32 := rfl
  have e0 : broadcastInDim S8x778x40000 ![] bcast_S_S8x778x40000 (constant (F := Ideal) S_ .f32 0x00000000#32) (ix3 p n k)
      = 0 := (rfl : _ = Ideal.ofBits .f32 0x00000000#32).trans Ideal.ofBits_zero_f32
  simp only [clip778, Cert.Spec.d2, maximumf_apply, subf_apply, addf_apply, mulf_apply, hA, hB, hD, e2, e0]

attribute [local irreducible] Host.reduce in
/-- The distance of hand vertex n of batch entry p to the object cloud of that entry. -/
theorem refDists_apply (a : FVec Ideal S8x778x3 .f32) (b : FVec Ideal S8x40000x3 .f32) (p : Fin 8) (n : Fin 778) :
    refDists a b (ValueIdx.ix2 p n)
      = Cert.Spec.minDist (fun d => a (ValueIdx.ix3 p n d)) (fun (k : Fin 40000) d => b (ValueIdx.ix3 p k d)) := by
  have hR : S8x778x40000.Reduces [2] S8x778 := by decide
  unfold refDists Cert.Spec.minDist
  rw [hostSqrt_apply, Host.reduce_eq_fold_single FloatOps.minimumf (clip778 a b) _ reducesTo_S8x778x40000_S8x778_d2 hR h_S_
    (ix2 p n)]
  refine congrArg Ideal.sqrt ?_
  rw [constant_apply, Cert.LibMinAxis0.posInf_f32]
  refine (Cert.LibMinAxis0.fold_min_top_eq_inf _ _).trans ?_
  refine Finset.inf_congr rfl fun (k : Fin 40000) _ => ?_
  have hl : hR.lift (ix2 p n) k = ix3 p n k := by
    funext ax; apply Fin.ext
    match ax with
    | ⟨0, _⟩ => rfl
    | ⟨1, _⟩ => rfl
    | ⟨2, _⟩ => rfl
  show clip778 a b (hR.lift (ix2 p n) k) = _
  rw [hl]
  exact clip778_apply a b p n k

end Cert.ReferenceIdeal.Hand

end
-- ==== Proof.LibHostDist.lean ====
/-
  General reading lemmas for a host program that computes the distances from each of R points to a cloud of M
  points, batch by batch, the way `|a|² + |b|² − 2·⟨a, b⟩` is written with array operations: the squared norms by a
  sum over the last axis, kept as a column and as a row and broadcast over the [B, R, M] array of pairs; the
  inner products by a batched product contracting the last axis of both operands; the clip at zero; the minimum
  over the cloud from +∞; the square root. Each is read at an index given by coordinates, at the ideal values,
  for any extents B, R, M, D; the shape facts the operations carry are taken as hypotheses (a program states
  them at its literal shapes).
-/
import Idealize.ShloMosaic.PureOps.Ideal
import Idealize.ShloMosaic.PureOps.Ideal.Laws
import Idealize.ShloMosaic.Lib.ValueIdx
import Idealize.ShloMosaic.Lib.IdealHost
import Idealize.ShloMosaic.Lib.Pipeline.Value
import proofs.«164913_j87385404604975_2_alg».proof.Proof.Spec
import proofs.«164913_j87385404604975_2_alg».proof.Proof.LibMinAxis0

noncomputable section

namespace Cert.LibHostDist

open Idealize.ShloMosaic Idealize.ShloMosaic.ValueIdx

variable {B R M D : ℕ}

/-- The host's square root of a vector, read at an index, is the extended reals' square root of the entry. -/
theorem hostSqrt_apply {s : Shape} {φ : FTy} (x : FVec Ideal s φ) (i : s.Idx) : Host.sqrt x i = Ideal.sqrt (x i) := rfl

/-- The squared norms of the rows of a [B, R, D] array, summed from the f32 zero over the last axis: at (p, r)
    the sum over `d` of the squares of the entries (p, r, d). -/
theorem sqnorm_rows_apply (x : FVec Ideal ⟨3, ![B, R, D]⟩ .f32)
    (h' : Shape.ReducesTo ⟨3, ![B, R, D]⟩ [2] ⟨2, ![B, R]⟩) (h : Shape.Reduces ⟨3, ![B, R, D]⟩ [2] ⟨2, ![B, R]⟩)
    (hu : 0 < (⟨0, ![]⟩ : Shape).numel) (p : Fin B) (r : Fin R) :
    Host.reduceAdd (mulf x x) (constant (F := Ideal) ⟨0, ![]⟩ .f32 0x00000000#32) h' hu (ix2 p r)
      = ∑ d : Fin D, x (ix3 p r d) * x (ix3 p r d) := by
  have inserted : ∀ d : Fin D, h.lift (ix2 p r) d = ix3 p r d := fun d =>
    funext fun ax => Fin.ext (by match ax with | ⟨0, _⟩ => rfl | ⟨1, _⟩ => rfl | ⟨2, _⟩ => rfl)
  refine (hostReduceAdd_apply (mulf x x) _ h' hu (ix2 p r)).trans ?_
  refine (Ideal.hostReduceAdd_single h' h (mulf x x) _ (ix2 p r)).trans ?_
  refine (congrArg₂ (fun u v : EReal => u + v) Ideal.ofBits_zero_f32
    (Finset.sum_congr rfl fun d _ =>
      congrArg₂ (fun u v : EReal => u * v) (congrArg x (inserted d)) (congrArg x (inserted d)))).trans ?_
  exact zero_add _

/-- A [B, R] array kept as a [B, R, 1] column and broadcast to [B, R, M] reads, at (p, r, k), the array at (p, r). -/
theorem keep_rows_apply {α : Type} (v : (⟨2, ![B, R]⟩ : Shape).Idx → α)
    (h1 : (⟨2, ![B, R]⟩ : Shape).BroadcastsInDim ⟨3, ![B, R, 1]⟩ ![0, 1])
    (h2 : (⟨3, ![B, R, 1]⟩ : Shape).BroadcastsInDim ⟨3, ![B, R, M]⟩ ![0, 1, 2])
    (p : Fin B) (r : Fin R) (k : Fin M) :
    broadcastInDim ⟨3, ![B, R, M]⟩ ![0, 1, 2] h2 (broadcastInDim ⟨3, ![B, R, 1]⟩ ![0, 1] h1 v) (ix3 p r k)
      = v (ix2 p r) := by
  have hp := p.isLt
  have hr := r.isLt
  refine (broadcastInDim_apply _ h2 _ (ix3 p r k) (ix3 p r (0 : Fin 1)) fun a => ?_).trans
    (broadcastInDim_apply _ h1 v (ix3 p r (0 : Fin 1)) (ix2 p r) fun a => ?_)
  · match a with
    | ⟨0, _⟩ => show p.val = if B = 1 then 0 else p.val; split <;> omega
    | ⟨1, _⟩ => show r.val = if R = 1 then 0 else r.val; split <;> omega
    | ⟨2, _⟩ => rfl
  · match a with
    | ⟨0, _⟩ => show p.val = if B = 1 then 0 else p.val; split <;> omega
    | ⟨1, _⟩ => show r.val = if R = 1 then 0 else r.val; split <;> omega

/-- A [B, M] array kept as a [B, 1, M] row and broadcast to [B, R, M] reads, at (p, r, k), the array at (p, k). -/
theorem keep_cols_apply {α : Type} (w : (⟨2, ![B, M]⟩ : Shape).Idx → α)
    (h1 : (⟨2, ![B, M]⟩ : Shape).BroadcastsInDim ⟨3, ![B, 1, M]⟩ ![0, 2])
    (h2 : (⟨3, ![B, 1, M]⟩ : Shape).BroadcastsInDim ⟨3, ![B, R, M]⟩ ![0, 1, 2])
    (p : Fin B) (r : Fin R) (k : Fin M) :
    broadcastInDim ⟨3, ![B, R, M]⟩ ![0, 1, 2] h2 (broadcastInDim ⟨3, ![B, 1, M]⟩ ![0, 2] h1 w) (ix3 p r k)
      = w (ix2 p k) := by
  have hp := p.isLt
  have hk := k.isLt
  refine (broadcastInDim_apply _ h2 _ (ix3 p r k) (ix3 p (0 : Fin 1) k) fun a => ?_).trans
    (broadcastInDim_apply _ h1 w (ix3 p (0 : Fin 1) k) (ix2 p k) fun a => ?_)
  · match a with
    | ⟨0, _⟩ => show p.val = if B = 1 then 0 else p.val; split <;> omega
    | ⟨1, _⟩ => rfl
    | ⟨2, _⟩ => show k.val = if M = 1 then 0 else k.val; split <;> omega
  · match a with
    | ⟨0, _⟩ => show p.val = if B = 1 then 0 else p.val; split <;> omega
    | ⟨1, _⟩ => show k.val = if M = 1 then 0 else k.val; split <;> omega

/-- The host's batched product of a [B, R, D] with a [B, M, D] array — batch axes 0 and 0, contracting axes 2 and 2 —
    read at (p, r, k): the inner product of row (p, r) of the first with row (p, k) of the second. `w` is the
    record's well-formedness, which a program states. -/
theorem batch_inner_apply {φ₁ φ₂ : FTy}
    (w : DotDims.WF ⟨3, ![B, R, D]⟩ ⟨3, ![B, M, D]⟩ ⟨3, ![B, R, M]⟩ [2] [2] [1] [1] [0] [0])
    (prec : Option ContractPrecision) (X : FVec Ideal ⟨3, ![B, R, D]⟩ φ₁) (Y : FVec Ideal ⟨3, ![B, M, D]⟩ φ₂)
    (p : Fin B) (r : Fin R) (k : Fin M) :
    Host.dotGeneral (⟨[2], [2], [1], [1], [0], [0], w⟩ : DotDims _ _ _) prec X Y (ix3 p r k)
      = ∑ c : Fin D, X (ix3 p r c) * Y (ix3 p k c) := by
  show FloatOps.dotGeneral _ prec _ X Y (ix3 p r k) = _
  rw [Ideal.dotGeneral_apply,
    ← Equiv.sum_comp (contrEquiv1 (⟨[2], [2], [1], [1], [0], [0], w⟩ :
      DotDims ⟨3, ![B, R, D]⟩ ⟨3, ![B, M, D]⟩ ⟨3, ![B, R, M]⟩) D rfl rfl).symm]
  refine Finset.sum_congr rfl fun c _ => ?_
  have c3 := contrEquiv1_symm_val
    (⟨[2], [2], [1], [1], [0], [0], w⟩ : DotDims ⟨3, ![B, R, D]⟩ ⟨3, ![B, M, D]⟩ ⟨3, ![B, R, M]⟩) D rfl rfl c
  have l3 : (⟨[2], [2], [1], [1], [0], [0], w⟩ : DotDims ⟨3, ![B, R, D]⟩ ⟨3, ![B, M, D]⟩ ⟨3, ![B, R, M]⟩).lhsIdx
      (ix3 p r k) ((contrEquiv1 _ D rfl rfl).symm c) = ix3 p r c := by
    funext ax; apply Fin.ext
    match ax with
    | ⟨0, _⟩ => simp [DotDims.lhsIdx]; rfl
    | ⟨1, _⟩ => simp [DotDims.lhsIdx]; rfl
    | ⟨2, _⟩ => simp [DotDims.lhsIdx]; exact c3
  have r3 : (⟨[2], [2], [1], [1], [0], [0], w⟩ : DotDims ⟨3, ![B, R, D]⟩ ⟨3, ![B, M, D]⟩ ⟨3, ![B, R, M]⟩).rhsIdx
      (ix3 p r k) ((contrEquiv1 _ D rfl rfl).symm c) = ix3 p k c := by
    funext ax; apply Fin.ext
    match ax with
    | ⟨0, _⟩ => simp [DotDims.rhsIdx]; rfl
    | ⟨1, _⟩ => simp [DotDims.rhsIdx]; rfl
    | ⟨2, _⟩ => simp [DotDims.rhsIdx]; exact c3
  rw [l3, r3]

/-- The host's minimum over the last axis of a [B, R, M] array from +∞, read at (p, r): the infimum over `k` of the
    entries (p, r, k). -/
theorem min_last_apply (X : FVec Ideal ⟨3, ![B, R, M]⟩ .f32)
    (h' : Shape.ReducesTo ⟨3, ![B, R, M]⟩ [2] ⟨2, ![B, R]⟩) (h : Shape.Reduces ⟨3, ![B, R, M]⟩ [2] ⟨2, ![B, R]⟩)
    (hu : 0 < (⟨0, ![]⟩ : Shape).numel) (p : Fin B) (r : Fin R) :
    Host.reduce FloatOps.minimumf X (constant (F := Ideal) ⟨0, ![]⟩ .f32 0x7F800000#32) h' hu (ix2 p r)
      = Finset.univ.inf fun k : Fin M => X (ix3 p r k) := by
  have inserted : ∀ k : Fin M, h.lift (ix2 p r) k = ix3 p r k := fun k =>
    funext fun ax => Fin.ext (by match ax with | ⟨0, _⟩ => rfl | ⟨1, _⟩ => rfl | ⟨2, _⟩ => rfl)
  refine (Host.reduce_eq_fold_single FloatOps.minimumf X _ h' h hu (ix2 p r)).trans ?_
  refine (congrArg (fun t : EReal => (Finset.univ : Finset (Fin M)).fold min t (fun k => X (h.lift (ix2 p r) k)))
    Cert.LibMinAxis0.posInf_f32).trans ?_
  exact (Cert.LibMinAxis0.fold_min_top_eq_inf _ _).trans (Finset.inf_congr rfl fun k _ => congrArg X (inserted k))

/-- The square root of that minimum, read at (p, r). -/
theorem sqrt_min_last_apply (X : FVec Ideal ⟨3, ![B, R, M]⟩ .f32)
    (h' : Shape.ReducesTo ⟨3, ![B, R, M]⟩ [2] ⟨2, ![B, R]⟩) (h : Shape.Reduces ⟨3, ![B, R, M]⟩ [2] ⟨2, ![B, R]⟩)
    (hu : 0 < (⟨0, ![]⟩ : Shape).numel) (p : Fin B) (r : Fin R) :
    Host.sqrt (Host.reduce FloatOps.minimumf X (constant (F := Ideal) ⟨0, ![]⟩ .f32 0x7F800000#32) h' hu) (ix2 p r)
      = Ideal.sqrt (Finset.univ.inf fun k : Fin M => X (ix3 p r k)) :=
  (hostSqrt_apply _ _).trans (congrArg Ideal.sqrt (min_last_apply X h' h hu p r))

/-- THE CLIPPED SQUARED DISTANCES as a host program writes them for points of three coordinates, read at (p, r, k):
    the specification's clipped squared distance of row (p, r) of `g` and row (p, k) of `b`. -/
theorem clip_rows_apply (g : FVec Ideal ⟨3, ![B, R, 3]⟩ .f32) (b : FVec Ideal ⟨3, ![B, M, 3]⟩ .f32)
    (rg' : Shape.ReducesTo ⟨3, ![B, R, 3]⟩ [2] ⟨2, ![B, R]⟩) (rg : Shape.Reduces ⟨3, ![B, R, 3]⟩ [2] ⟨2, ![B, R]⟩)
    (rb' : Shape.ReducesTo ⟨3, ![B, M, 3]⟩ [2] ⟨2, ![B, M]⟩) (rb : Shape.Reduces ⟨3, ![B, M, 3]⟩ [2] ⟨2, ![B, M]⟩)
    (hu : 0 < (⟨0, ![]⟩ : Shape).numel)
    (f1 : (⟨2, ![B, R]⟩ : Shape).BroadcastsInDim ⟨3, ![B, R, 1]⟩ ![0, 1])
    (f2 : (⟨3, ![B, R, 1]⟩ : Shape).BroadcastsInDim ⟨3, ![B, R, M]⟩ ![0, 1, 2])
    (f3 : (⟨2, ![B, M]⟩ : Shape).BroadcastsInDim ⟨3, ![B, 1, M]⟩ ![0, 2])
    (f4 : (⟨3, ![B, 1, M]⟩ : Shape).BroadcastsInDim ⟨3, ![B, R, M]⟩ ![0, 1, 2])
    (f5 : (⟨0, ![]⟩ : Shape).BroadcastsInDim ⟨3, ![B, R, M]⟩ ![])
    (w : DotDims.WF ⟨3, ![B, R, 3]⟩ ⟨3, ![B, M, 3]⟩ ⟨3, ![B, R, M]⟩ [2] [2] [1] [1] [0] [0])
    (p : Fin B) (r : Fin R) (k : Fin M) :
    maximumf
        (subf
          (addf
            (broadcastInDim ⟨3, ![B, R, M]⟩ ![0, 1, 2] f2
              (broadcastInDim ⟨3, ![B, R, 1]⟩ ![0, 1] f1
                (Host.reduceAdd (mulf g g) (constant (F := Ideal) ⟨0, ![]⟩ .f32 0x00000000#32) rg' hu)))
            (broadcastInDim ⟨3, ![B, R, M]⟩ ![0, 1, 2] f4
              (broadcastInDim ⟨3, ![B, 1, M]⟩ ![0, 2] f3
                (Host.reduceAdd (mulf b b) (constant (F := Ideal) ⟨0, ![]⟩ .f32 0x00000000#32) rb' hu))))
          (mulf (broadcastInDim ⟨3, ![B, R, M]⟩ ![] f5 (constant (F := Ideal) ⟨0, ![]⟩ .f32 0x40000000#32))
            (Host.dotGeneral (⟨[2], [2], [1], [1], [0], [0], w⟩ : DotDims _ _ _) none g b)))
        (broadcastInDim ⟨3, ![B, R, M]⟩ ![] f5 (constant (F := Ideal) ⟨0, ![]⟩ .f32 0x00000000#32)) (ix3 p r k)
      = Cert.Spec.d2 (fun d => g (ix3 p r d)) (fun d => b (ix3 p k d)) := by
  have hA := (keep_rows_apply (M := M) _ f1 f2 p r k).trans (sqnorm_rows_apply g rg' rg hu p r)
  have hB := (keep_cols_apply (R := R) _ f3 f4 p r k).trans (sqnorm_rows_apply b rb' rb hu p k)
  have hC := batch_inner_apply w none g b p r k
  have h2 : broadcastInDim ⟨3, ![B, R, M]⟩ ![] f5 (constant (F := Ideal) ⟨0, ![]⟩ .f32 0x40000000#32) (ix3 p r k)
      = Ideal.ofBits .f32 0x40000000#32 := broadcastInDim_scalar_apply f5 _ _
  have h0 : broadcastInDim ⟨3, ![B, R, M]⟩ ![] f5 (constant (F := Ideal) ⟨0, ![]⟩ .f32 0x00000000#32) (ix3 p r k)
      = 0 := (broadcastInDim_scalar_apply f5 _ _).trans Ideal.ofBits_zero_f32
  unfold Cert.Spec.d2
  exact congrArg₂ (fun x y : EReal => max x y)
    (congrArg₂ (fun x y : EReal => x - y)
      (congrArg₂ (fun x y : EReal => x + y) hA hB)
      (congrArg₂ (fun x y : EReal => x * y) h2 hC))
    h0

end Cert.LibHostDist

end
-- ==== Proof.LibGatherMid.lean ====
/-
  A general lemma about a host program's gather taking whole slices along the MIDDLE axis of a rank-3 array: what
  `x[:, idx, :]` lowers to for `x : [B, N, D]` and a vector of positions, the start indices reshaped to a column
  `[E, 1]`. The dimension numbers are offset_dims `[0, 2]`, collapsed_slice_dims `[1]`, start_index_map `[1]`,
  index_vector_dim `1`, slice_sizes `[B, 1, D]`. The result element `(p, e, d)` is `x` at `(p, c, d)`, where the
  position `c` is the start index `idx[e, 0]` read as a signed integer and clamped into `[0, N − 1]` (a gather clamps every start index so that the slice fits): it depends on `e` and on the index array only, and the other
  two coordinates are carried over unchanged. For any extents and any element type.
-/
import Idealize.ShloMosaic.Lib.ValueIdx

noncomputable section

namespace Cert.LibGatherMid

open Idealize.ShloMosaic Idealize.ShloMosaic.ValueIdx

variable {α : Type}

/-- The middle-axis gather's dimension numbers for an operand `[B, N, D]`, start indices `[E, 1]` and a result
    `[B, E, D]`; their conditions `wf` are decided on a program's literal shapes. -/
abbrev midDims (B N D E : Nat)
    (wf : GatherDims.WF ⟨3, ![B, N, D]⟩ ⟨2, ![E, 1]⟩ ⟨3, ![B, E, D]⟩ [0, 2] [1] [] [1] [] 1 ![B, 1, D]) :
    GatherDims ⟨3, ![B, N, D]⟩ ⟨2, ![E, 1]⟩ ⟨3, ![B, E, D]⟩ where
  offsetDims := [0, 2]
  collapsedSliceDims := [1]
  operandBatchingDims := []
  startIndicesBatchingDims := []
  startIndexMap := [1]
  indexVectorDim := 1
  sliceSizes := ![B, 1, D]
  wf := wf

/-- The position along the middle axis that result position `e` reads: the start index `idx[e, 0]`, read signed
    and clamped into `[0, N − 1]`. -/
def posOf {N E w : Nat} (hN : 0 < N) (idx : IVec ⟨2, ![E, 1]⟩ w) (e : Fin E) : Fin N :=
  ⟨min (idx (ix2 e (0 : Fin 1))).toInt.toNat (N - 1), by omega⟩

/-- THE MIDDLE-AXIS GATHER READ AT `(p, e, d)`: the operand at `(p, posOf idx e, d)`. -/
theorem gather_mid_apply {B N D E w : Nat} (hN : 0 < N)
    (wf : GatherDims.WF ⟨3, ![B, N, D]⟩ ⟨2, ![E, 1]⟩ ⟨3, ![B, E, D]⟩ [0, 2] [1] [] [1] [] 1 ![B, 1, D])
    (x : (⟨3, ![B, N, D]⟩ : Shape).Idx → α) (idx : IVec ⟨2, ![E, 1]⟩ w) (p : Fin B) (e : Fin E) (d : Fin D) :
    Host.gather (midDims B N D E wf) x idx (ix3 p e d) = x (ix3 p (posOf hN idx e) d) := by
  unfold Host.gather
  congr 1
  funext a
  refine Fin.ext ?_
  match a with
  | ⟨0, _⟩ =>
    show (midDims B N D E wf).start (ix3 p e d) idx 0 + (midDims B N D E wf).batchCoord (ix3 p e d) 0
      + (midDims B N D E wf).offCoord (ix3 p e d) 0 = p.val
    rw [GatherDims.batchCoord_eq_zero _ _ _ List.not_mem_nil]
    unfold GatherDims.start
    rw [dif_neg (show ¬ (0 : Fin 3) ∈ (midDims B N D E wf).startIndexMap from
      (by decide : ¬ (0 : Fin 3) ∈ ([1] : List (Fin 3))))]
    simp only [Nat.zero_add, Nat.add_zero]
    unfold GatherDims.offCoord
    rw [dif_pos ((GatherDims.mem_sKept _ _).mpr
      ⟨(by decide : ¬ (0 : Fin 3) ∈ ([1] : List (Fin 3))), List.not_mem_nil⟩)]
    rfl
  | ⟨1, _⟩ =>
    show (midDims B N D E wf).start (ix3 p e d) idx 1 + (midDims B N D E wf).batchCoord (ix3 p e d) 1
      + (midDims B N D E wf).offCoord (ix3 p e d) 1 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 3) ∈ (midDims B N D E wf).startIndexMap from List.mem_singleton.mpr rfl)]
    have hsi : (midDims B N D E wf).siIdx (ix3 p e d) ⟨List.idxOf (1 : Fin 3) (midDims B N D E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨2, _⟩ =>
    show (midDims B N D E wf).start (ix3 p e d) idx 2 + (midDims B N D E wf).batchCoord (ix3 p e d) 2
      + (midDims B N D E wf).offCoord (ix3 p e d) 2 = d.val
    rw [GatherDims.batchCoord_eq_zero _ _ _ List.not_mem_nil]
    unfold GatherDims.start
    rw [dif_neg (show ¬ (2 : Fin 3) ∈ (midDims B N D E wf).startIndexMap from
      (by decide : ¬ (2 : Fin 3) ∈ ([1] : List (Fin 3))))]
    simp only [Nat.zero_add, Nat.add_zero]
    unfold GatherDims.offCoord
    rw [dif_pos ((GatherDims.mem_sKept _ _).mpr
      ⟨(by decide : ¬ (2 : Fin 3) ∈ ([1] : List (Fin 3))), List.not_mem_nil⟩)]
    rfl

end Cert.LibGatherMid

end
-- ==== Proof.RefContactApply.lean ====
/-
  The reference's contact distances read at an index.

  The reference gathers the hand vertices at the ten contact positions — the literal table with 778 added where a word
  is negative (none is), as a [10, 1] column of start indices — and runs the distance formula on the gathered
  [8, 10, 3] array. Row (p, j) of the gathered array is hand vertex `cidx j` of batch entry `p`: every word of the
  table is non-negative and below 778, so neither the normalisation nor the gather's clamp into [0, 777] changes
  it. The clipped squared distances are the specification's as they stand (the reference adds the vertex's squared
  norm first, as the specification does), their minimum over the object points from +∞ is the infimum, and the
  square root is the specification's distance.
-/
import proofs.«164913_j87385404604975_2_alg».proof.Proof.RefMath
import proofs.«164913_j87385404604975_2_alg».proof.Proof.LibHostDist
import proofs.«164913_j87385404604975_2_alg».proof.Proof.LibGatherMid

noncomputable section

namespace Cert.ReferenceIdeal.Hand

open Cert.ReferenceIdeal Cert.ReferenceIdeal.Gen Idealize.ShloMosaic Idealize.ShloMosaic.ValueIdx
open scoped BigOperators

/-- Every word of the contact table, read as a signed integer, is the corresponding contact vertex. -/
theorem ctable_toNat (j : Fin 10) : (lit0 j).toInt.toNat = (Cert.Spec.cidx j).val := by
  fin_cases j <;> decide

/-- The normalisation leaves every word of the table as it is: none is negative. -/
theorem ctable_normalised (j : Fin 10) :
    Scalar.select (IntOp.cmpi .slt (lit0 j) 0#32) (IntOp.addi (lit0 j) 778#32) (lit0 j) = lit0 j := by
  fin_cases j <;> decide

/-- The start indices at row `j`: word `j` of the table. -/
theorem cstart_apply (j : Fin 10) : cstart ctable (ix2 j (0 : Fin 1)) = lit0 j := by
  unfold cstart
  refine (broadcastInDim_apply _ _ _ (ix2 j (0 : Fin 1)) (ix1 j) (fun a => ?_)).trans ?_
  · match a with
    | ⟨0, _⟩ => rfl
  · have hpos : S10.rowMajor (ix1 j) = j := Fin.ext (Shape.rowMajor_val_one _)
    show Scalar.select (IntOp.cmpi .slt (lit0 (S10.rowMajor (ix1 j))) 0#32)
      (IntOp.addi (lit0 (S10.rowMajor (ix1 j))) 778#32) (lit0 (S10.rowMajor (ix1 j))) = lit0 j
    rw [hpos]
    exact ctable_normalised j

/-- The gathered hand vertices: row (p, j) is hand vertex `cidx j` of batch entry `p`. -/
theorem gathered_apply (a : FVec Ideal S8x778x3 .f32) (p : Fin 8) (j : Fin 10) (d : Fin 3) :
    gathered ctable a (ix3 p j d) = a (ix3 p (Cert.Spec.cidx j) d) := by
  unfold gathered
  refine (Cert.LibGatherMid.gather_mid_apply (by norm_num : 0 < 778) _ a (cstart ctable) p j d).trans ?_
  refine congrArg (fun c : Fin 778 => a (ix3 p c d)) (Fin.ext ?_)
  show min (cstart ctable (ix2 j (0 : Fin 1))).toInt.toNat (778 - 1) = (Cert.Spec.cidx j).val
  rw [cstart_apply j, ctable_toNat j]
  have := (Cert.Spec.cidx j).isLt
  omega

/-- The clipped squared distances of ten vertices `g` to the object points, read at (p, j, k). -/
theorem clip10_apply (g : FVec Ideal S8x10x3 .f32) (b : FVec Ideal S8x40000x3 .f32) (p : Fin 8) (j : Fin 10)
    (k : Fin 40000) :
    clip10 g b (ix3 p j k) = Cert.Spec.d2 (fun d => g (ix3 p j d)) (fun d => b (ix3 p k d)) := by
  unfold clip10
  exact Cert.LibHostDist.clip_rows_apply g b reducesTo_S8x10x3_S8x10_d2 (by decide)
    reducesTo_S8x40000x3_S8x40000_d2 (by decide) h_S_ bcast_S8x10_S8x10x1_0_1 bcast_S8x10x1_S8x10x40000_0_1_2
    bcast_S8x40000_S8x1x40000_0_2 bcast_S8x1x40000_S8x10x40000_0_1_2 bcast_S_S8x10x40000 _ p j k

/-- The distances of ten vertices `g` to the object cloud, read at (p, j). -/
theorem dists10_apply (g : FVec Ideal S8x10x3 .f32) (b : FVec Ideal S8x40000x3 .f32) (p : Fin 8) (j : Fin 10) :
    dists10 g b (ix2 p j) = Cert.Spec.minDist (fun d => g (ix3 p j d)) (fun (k : Fin 40000) d => b (ix3 p k d)) := by
  unfold dists10 Cert.Spec.minDist
  refine (Cert.LibHostDist.sqrt_min_last_apply (clip10 g b) reducesTo_S8x10x40000_S8x10_d2 (by decide) h_S_ p j).trans ?_
  exact congrArg Ideal.sqrt (Finset.inf_congr rfl fun k _ => clip10_apply g b p j k)

/-- THE CONTACT DISTANCES at (p, j): the distance from hand vertex `cidx j` of batch entry `p` to the entry's object
    cloud. -/
theorem refContact_apply (a : FVec Ideal S8x778x3 .f32) (b : FVec Ideal S8x40000x3 .f32) (p : Fin 8) (j : Fin 10) :
    refContact a b (ValueIdx.ix2 p j)
      = Cert.Spec.minDist (fun d => a (ValueIdx.ix3 p (Cert.Spec.cidx j) d))
          (fun (k : Fin 40000) d => b (ValueIdx.ix3 p k d)) := by
  unfold refContact
  refine (dists10_apply (gathered ctable a) b p j).trans ?_
  have hg : (fun d => gathered ctable a (ix3 p j d)) = fun d => a (ix3 p (Cert.Spec.cidx j) d) :=
    funext fun d => gathered_apply a p j d
  rw [hg]

end Cert.ReferenceIdeal.Hand

end
-- ==== Proof.Assemble.lean ====
/-
  The two idealized programs end with equal results. Both distance arrays are, index by index, the distance from a
  hand vertex to the nearest object point of its batch entry (the common specification), so the reference's distances
  are the kernel's, and the reference's contact distances — the same formula run on the ten gathered hand vertices —
  are the kernel's distances gathered at those vertices. The six results are the same tail functions of equal arrays;
  the tail's shape relations come from either program's facts and, being propositions, agree.
-/
import proofs.«164913_j87385404604975_2_alg».proof.Defs
import proofs.«164913_j87385404604975_2_alg».proof.Proof.KernelRunValue
import proofs.«164913_j87385404604975_2_alg».proof.Proof.RefValue
import proofs.«164913_j87385404604975_2_alg».proof.Proof.RefDistsApply
import proofs.«164913_j87385404604975_2_alg».proof.Proof.RefContactApply

noncomputable section

namespace Cert.Proof

open Idealize.ShloMosaic Idealize.ShloMosaic.TcCoe Idealize.SL.Sem

/-- The reference's distances are the kernel's: both are the common specification at every (p, n). -/
theorem refDists_eq (a : FVec Ideal Cert.KernelIdeal.S8x778x3 .f32) (b : FVec Ideal Cert.KernelIdeal.S8x40000x3 .f32) :
    Cert.ReferenceIdeal.Hand.refDists a b = Cert.KernelIdeal.Hand.kD a b := by
  funext i
  obtain ⟨p, n, rfl⟩ : ∃ (p : Fin 8) (n : Fin 778), i = ValueIdx.ix2 p n := ⟨i 0, i 1, ValueIdx.eq_ix2 i⟩
  exact (Cert.ReferenceIdeal.Hand.refDists_apply a b p n).trans (Cert.KernelIdeal.Hand.kD_apply a b p n).symm

/-- The reference's contact distances are the kernel's: both are the common specification at the contact vertices. -/
theorem refContact_eq (a : FVec Ideal Cert.KernelIdeal.S8x778x3 .f32) (b : FVec Ideal Cert.KernelIdeal.S8x40000x3 .f32) :
    Cert.ReferenceIdeal.Hand.refContact a b = Cert.KernelIdeal.Hand.kC a b := by
  funext i
  obtain ⟨p, j, rfl⟩ : ∃ (p : Fin 8) (j : Fin 10), i = ValueIdx.ix2 p j := ⟨i 0, i 1, ValueIdx.eq_ix2 i⟩
  exact (Cert.ReferenceIdeal.Hand.refContact_apply a b p j).trans (Cert.KernelIdeal.Hand.kC_apply a b p j).symm

/-- From memories agreeing on the arguments both idealized programs run to the end with the same six results and
    unchanged arguments. -/
theorem algebraic : Cert.algebraic_KernelIdeal_ReferenceIdeal := by
  intro m ρ m' ρ' _ hagree
  refine ⟨fun c => Cert.Tail.contactLoss Cert.KernelIdeal.Hand.tailFacts (Cert.KernelIdeal.Hand.kD (m ((c.tc : Thread Cert.KernelIdeal.nD Cert.KernelIdeal.τ).loc Cert.KernelIdeal.main_arg0)) (m ((c.tc : Thread Cert.KernelIdeal.nD Cert.KernelIdeal.τ).loc Cert.KernelIdeal.main_arg1))) (Cert.KernelIdeal.Hand.kC (m ((c.tc : Thread Cert.KernelIdeal.nD Cert.KernelIdeal.τ).loc Cert.KernelIdeal.main_arg0)) (m ((c.tc : Thread Cert.KernelIdeal.nD Cert.KernelIdeal.τ).loc Cert.KernelIdeal.main_arg1))),
    fun c => Cert.Tail.penLoss Cert.KernelIdeal.Hand.tailFacts (Cert.KernelIdeal.Hand.kD (m ((c.tc : Thread Cert.KernelIdeal.nD Cert.KernelIdeal.τ).loc Cert.KernelIdeal.main_arg0)) (m ((c.tc : Thread Cert.KernelIdeal.nD Cert.KernelIdeal.τ).loc Cert.KernelIdeal.main_arg1))),
    fun c => Cert.Tail.attLoss Cert.KernelIdeal.Hand.tailFacts (Cert.KernelIdeal.Hand.kC (m ((c.tc : Thread Cert.KernelIdeal.nD Cert.KernelIdeal.τ).loc Cert.KernelIdeal.main_arg0)) (m ((c.tc : Thread Cert.KernelIdeal.nD Cert.KernelIdeal.τ).loc Cert.KernelIdeal.main_arg1))),
    fun c => Cert.Tail.distMean Cert.KernelIdeal.Hand.tailFacts (Cert.KernelIdeal.Hand.kD (m ((c.tc : Thread Cert.KernelIdeal.nD Cert.KernelIdeal.τ).loc Cert.KernelIdeal.main_arg0)) (m ((c.tc : Thread Cert.KernelIdeal.nD Cert.KernelIdeal.τ).loc Cert.KernelIdeal.main_arg1))),
    fun c => Cert.Tail.numContacts Cert.KernelIdeal.Hand.tailFacts (Cert.KernelIdeal.Hand.kC (m ((c.tc : Thread Cert.KernelIdeal.nD Cert.KernelIdeal.τ).loc Cert.KernelIdeal.main_arg0)) (m ((c.tc : Thread Cert.KernelIdeal.nD Cert.KernelIdeal.τ).loc Cert.KernelIdeal.main_arg1))),
    fun c => Cert.Tail.numPen Cert.KernelIdeal.Hand.tailFacts (Cert.KernelIdeal.Hand.kD (m ((c.tc : Thread Cert.KernelIdeal.nD Cert.KernelIdeal.τ).loc Cert.KernelIdeal.main_arg0)) (m ((c.tc : Thread Cert.KernelIdeal.nD Cert.KernelIdeal.τ).loc Cert.KernelIdeal.main_arg1))),
    Cert.KernelIdeal.Hand.run_value m ρ, ?_⟩
  refine (θ_run Cert.ReferenceIdeal.defs _ _).mono (fun _ h c => ?_) (Cert.ReferenceIdeal.Hand.run_value m' ρ')
  obtain ⟨h0, h1, h2, h3, h4, h5, ha0, ha1, ha2, ha3⟩ := h c
  obtain ⟨e0, e1, e2, e3⟩ := hagree c
  have hd := refDists_eq (m ((c.tc : Thread Cert.KernelIdeal.nD Cert.KernelIdeal.τ).loc Cert.KernelIdeal.main_arg0)) (m ((c.tc : Thread Cert.KernelIdeal.nD Cert.KernelIdeal.τ).loc Cert.KernelIdeal.main_arg1))
  have hc := refContact_eq (m ((c.tc : Thread Cert.KernelIdeal.nD Cert.KernelIdeal.τ).loc Cert.KernelIdeal.main_arg0)) (m ((c.tc : Thread Cert.KernelIdeal.nD Cert.KernelIdeal.τ).loc Cert.KernelIdeal.main_arg1))
  rw [e0, e1] at h0 h1 h2 h3 h4 h5
  rw [hd] at h0 h1 h3 h5
  rw [hc] at h0 h2 h4
  exact ⟨h0, h1, h2, h3, h4, h5, ha0, ha1, ha2, ha3⟩

end Cert.Proof

end
-- ==== Proof.lean ====
/-
  The proof of `Cert.Claim`: a Pallas kernel computing, for eight batch entries, the distance from each of 778 hand
  vertices to the nearest of 40000 object points — in twenty chunks of 2000 points with a running minimum — followed
  by a host tail of masked means and counts, against the jnp reference that computes the same distances by one
  contraction and one minimum over all points, the contact distances by the same formula on ten gathered vertices,
  and the same tail.

  The three frames. The kernel program (read at the word level and at the extended reals, the same text) is one
  region between host lines: its body is run once symbolically at a generic grid point, the launch theorem for a
  region followed by host lines gives the whole run, and its post read at the four arguments is the frame
  (Proof/Kernel/, Proof/KernelIdeal/). The reference is a straight line of host operations (Proof/RefRun.lean).
  The ideal pass rewrote nothing, so the idealization claim is `True`.

  The value claim. At the extended reals the kernel's result block at a point is the square root of the running
  minimum over the twenty chunks (Proof/KernelValue.lean: the run's stores read back; Proof/BodyOutApply.lean: that
  minimum is the infimum over all 40000 points of the clipped squared distance), the blocks fill the result array
  (Proof/KernelArray.lean), and the later host lines are the shared tail (Proof/Tail.lean) of that array and of its
  gather at the contact vertices (Proof/KernelTailA.lean, KernelTailB.lean, KernelGather.lean). The reference's two
  distance arrays are the same functions index by index (Proof/RefMath.lean, RefValue.lean), so the six results agree
  (Proof/Assemble.lean). Only commutativity of + and · on the extended reals is used: the precondition is not opened.
-/
import proofs.«164913_j87385404604975_2_alg».proof.Defs
import proofs.«164913_j87385404604975_2_alg».proof.Proof.Kernel.Frame
import proofs.«164913_j87385404604975_2_alg».proof.Proof.Assemble
import proofs.«164913_j87385404604975_2_alg».proof.Proof.Gen.Kernel
import proofs.«164913_j87385404604975_2_alg».proof.Proof.Gen.KernelIdeal
import proofs.«164913_j87385404604975_2_alg».proof.Proof.Gen.ReferenceIdeal
import proofs.«164913_j87385404604975_2_alg».proof.Proof.Gen.Pre_finite_inputs
import Idealize.ShloMosaic.Adequacy
import Idealize.ShloMosaic.Init

noncomputable section

namespace Cert.Proof

open Idealize.ShloMosaic Idealize.SL.Sem

theorem frame_k : Cert.frame_Kernel := fun m ρ _ => Cert.Kernel.Hand.frame m ρ
theorem frame_ki : Cert.frame_KernelIdeal := fun m ρ _ => Cert.KernelIdeal.Hand.frame m ρ
theorem frame_ri : Cert.frame_ReferenceIdeal := Cert.ReferenceIdeal.Hand.frame_ri
theorem preserves : Cert.preserves_Kernel_KernelIdeal := trivial

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
